-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S1024x200x128 : Shape := ⟨3, ![1024, 200, 128]⟩
abbrev S100000x1 : Shape := ⟨2, ![100000, 1]⟩
abbrev S_ : Shape := ⟨0, ![]⟩

class Facts : Prop where
  bcast_S_S1024x200x128 : S_.BroadcastsInDim S1024x200x128 (![] : Fin 0 → Fin S1024x200x128.rank)
  reducesTo_S1024x200x128_S_d0_1_2 : S1024x200x128.ReducesTo [0, 1, 2] S_
  h_S_ : 0 < S_.numel
  bcast_S_S1024x200 : S_.BroadcastsInDim S1024x200 (![] : Fin 0 → Fin S1024x200.rank)
  reducesTo_S1024x200_S_d0_1 : S1024x200.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn_part1 {F : FTy → Type} [FloatOps F] (main_arg0 : IVec S1024x200 32) (main_v13 : IVec S_ 1) (main_v15 : IVec S1024x200 1) (main_c_5 : IVec S_ 32) : IVec S_ 1 :=
  let main_v16 : IVec S1024x200 32 := broadcastInDim S1024x200 ![] bcast_S_S1024x200 main_c_5
  let main_v17 : IVec S1024x200 1 := cmpi .sle main_arg0 main_v16
  let main_v18 : IVec S1024x200 1 := andi main_v15 main_v17
  let main_c_6 : IVec S_ 1 := constantI S_ 1 1#1
  let main_v19 : IVec S_ 1 := (fun x v => Host.reduce IntOp.andi x v reducesTo_S1024x200_S_d0_1 h_S_) main_v18 main_c_6
  let main_v20 : IVec S_ 1 := andi main_v13 main_v19
  main_v20

def fn {F : FTy → Type} [FloatOps F] (main_arg0 : IVec S1024x200 32) (main_arg1 : FVec F S1024x200x128 .f32) (main_arg2 : FVec F S1024x200 .f32) (main_arg3 : FVec F S100000x1 .f32) : IVec S_ 1 :=
  let main_v0 : FVec F S1024x200x128 .f32 := Host.absf main_arg1
  let main_cst : FVec F S_ .f32 := constant S_ .f32 0x7F800000#32
  let main_v1 : FVec F S1024x200x128 .f32 := broadcastInDim S1024x200x128 ![] bcast_S_S1024x200x128 main_cst
  let main_v2 : IVec S1024x200x128 1 := cmpf .olt main_v0 main_v1
  let main_c : IVec S_ 1 := constantI S_ 1 1#1
  let main_v3 : IVec S_ 1 := (fun x v => Host.reduce IntOp.andi x v reducesTo_S1024x200x128_S_d0_1_2 h_S_) main_v2 main_c
  let main_v4 : FVec F S1024x200 .f32 := Host.absf main_arg2
  let main_cst_0 : FVec F S_ .f32 := constant S_ .f32 0x7F800000#32
  let main_v5 : FVec F S1024x200 .f32 := broadcastInDim S1024x200 ![] bcast_S_S1024x200 main_cst_0
  let main_v6 : IVec S1024x200 1 := cmpf .olt main_v4 main_v5
  let main_c_1 : IVec S_ 1 := constantI S_ 1 1#1
  let main_v7 : IVec S_ 1 := (fun x v => Host.reduce IntOp.andi x v reducesTo_S1024x200_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_c_4 : IVec S_ 32 := constantI S_ 32 0#32
  let main_v14 : IVec S1024x200 32 := broadcastInDim S1024x200 ![] bcast_S_S1024x200 main_c_4
  let main_v15 : IVec S1024x200 1 := cmpi .sge main_arg0 main_v14
  let main_c_5 : IVec S_ 32 := constantI S_ 32 99999#32
  fn_part1 (F := F) main_arg0 main_v13 main_v15 main_c_5
-- ==== Kernel.lean ====
abbrev S1024x200 : Shape := ⟨2, ![1024, 200]⟩
abbrev S1024x200x128 : Shape := ⟨3, ![1024, 200, 128]⟩
abbrev S100000x1 : Shape := ⟨2, ![100000, 1]⟩
abbrev S100000 : Shape := ⟨1, ![100000]⟩
abbrev S32x200 : Shape := ⟨2, ![32, 200]⟩
abbrev S_ : Shape := ⟨0, ![]⟩
abbrev S16 : Shape := ⟨1, ![16]⟩
abbrev S1x16 : Shape := ⟨2, ![1, 16]⟩
abbrev S1024x128 : Shape := ⟨2, ![1024, 128]⟩
abbrev S128x200 : Shape := ⟨2, ![128, 200]⟩
abbrev S128x200x128 : Shape := ⟨3, ![128, 200, 128]⟩
abbrev S128x128 : Shape := ⟨2, ![128, 128]⟩
abbrev S128 : Shape := ⟨1, ![128]⟩
abbrev S128x1 : Shape := ⟨2, ![128, 1]⟩

abbrev nBuf : Table → Nat
  | .hbm => 7
  | .local .tc .vmem => 8
  | .shared => 1
  | .local .scVector .vmem => 3
  | _ => 0

abbrev bufTy : (tb : Table) → Fin (nBuf tb) → BufTy
  | .hbm, ⟨0, _⟩ => ⟨S1024x200, .i32⟩
  | .hbm, ⟨1, _⟩ => ⟨S1024x200x128, .f32⟩
  | .hbm, ⟨2, _⟩ => ⟨S1024x200, .f32⟩
  | .hbm, ⟨3, _⟩ => ⟨S100000x1, .f32⟩
  | .hbm, ⟨4, _⟩ => ⟨S100000, .f32⟩
  | .hbm, ⟨5, _⟩ => ⟨S1024x200, .f32⟩
  | .hbm, ⟨6, _⟩ => ⟨S1024x128, .f32⟩
  | .local .tc .vmem, ⟨0, _⟩ => ⟨S128x200, .f32⟩
  | .local .tc .vmem, ⟨1, _⟩ => ⟨S128x200, .f32⟩
  | .local .tc .vmem, ⟨2, _⟩ => ⟨S128x200, .f32⟩
  | .local .tc .vmem, ⟨3, _⟩ => ⟨S128x200, .f32⟩
  | .local .tc .vmem, ⟨4, _⟩ => ⟨S128x200x128, .f32⟩
  | .local .tc .vmem, ⟨5, _⟩ => ⟨S128x200x128, .f32⟩
  | .local .tc .vmem, ⟨6, _⟩ => ⟨S128x128, .f32⟩
  | .local .tc .vmem, ⟨7, _⟩ => ⟨S128x128, .f32⟩
  | .shared, ⟨0, _⟩ => ⟨S100000, .f32⟩
  | .local .scVector .vmem, ⟨0, _⟩ => ⟨S100000, .f32⟩
  | .local .scVector .vmem, ⟨1, _⟩ => ⟨S32x200, .i32⟩
  | .local .scVector .vmem, ⟨2, _⟩ => ⟨S32x200, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 12 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 5 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_arg0_scv : Ref sig .scVector := ⟨.hbm, 0, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev cc0_scratch3 : Ref sig .scVector := ⟨.vmem, 2, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  ![v2.toNat, 0]
@[reducible] def k0_t1_loop : Scf.Loop 32 :=
  let c0_i32_6 : BitVec 32 := 0#32
  let c32_i32_7 : BitVec 32 := 32#32
  let v10 : BitVec 32 := Scalar.addi c0_i32_6 c32_i32_7
  let c1_i32 : BitVec 32 := 1#32
  ⟨c0_i32_6, v10, c1_i32⟩
def k0_off2 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v11 : Index := Scalar.indexCast arg10
  let c0_9 : Index := 0#32
  ![v11.toNat, 0]

def k0_chk1 (v12 : IVec S16 32) : Prop :=
  (∀ a x, ((![v12] : Fin 1 → IVec S16 32) a x).toNat < S100000.size a)
instance k0_chk1.dec : ∀ (v12 : IVec S16 32), Decidable (k0_chk1 v12) := fun v12 => decidable_of_iff' _ (Iff.of_eq (k0_chk1.eq_1 v12))
theorem k0_idx1_inb : ∀ (v12 : IVec S16 32) (k0_hw1 : k0_chk1 v12), ∀ a x, ((![v12] : Fin 1 → IVec S16 32) a x).toNat < S100000.size a := fun v12 k0_hw1 => k0_hw1
def k0_off3 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v14 : Index := Scalar.indexCast arg10
  let c0_10 : Index := 0#32
  ![v14.toNat, 0]
def k0_off4 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v16 : Index := Scalar.indexCast arg10
  let c16 : Index := 16#32
  ![v16.toNat, 16]

def k0_chk2 (v17 : IVec S16 32) : Prop :=
  (∀ a x, ((![v17] : Fin 1 → IVec S16 32) a x).toNat < S100000.size a)
instance k0_chk2.dec : ∀ (v17 : IVec S16 32), Decidable (k0_chk2 v17) := fun v17 => decidable_of_iff' _ (Iff.of_eq (k0_chk2.eq_1 v17))
theorem k0_idx2_inb : ∀ (v17 : IVec S16 32) (k0_hw2 : k0_chk2 v17), ∀ a x, ((![v17] : Fin 1 → IVec S16 32) a x).toNat < S100000.size a := fun v17 k0_hw2 => k0_hw2
def k0_off5 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v19 : Index := Scalar.indexCast arg10
  let c16_11 : Index := 16#32
  ![v19.toNat, 16]
def k0_off6 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v21 : Index := Scalar.indexCast arg10
  let c32 : Index := 32#32
  ![v21.toNat, 32]

def k0_chk3 (v22 : IVec S16 32) : Prop :=
  (∀ a x, ((![v22] : Fin 1 → IVec S16 32) a x).toNat < S100000.size a)
instance k0_chk3.dec : ∀ (v22 : IVec S16 32), Decidable (k0_chk3 v22) := fun v22 => decidable_of_iff' _ (Iff.of_eq (k0_chk3.eq_1 v22))
theorem k0_idx3_inb : ∀ (v22 : IVec S16 32) (k0_hw3 : k0_chk3 v22), ∀ a x, ((![v22] : Fin 1 → IVec S16 32) a x).toNat < S100000.size a := fun v22 k0_hw3 => k0_hw3
def k0_off7 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v24 : Index := Scalar.indexCast arg10
  let c32_12 : Index := 32#32
  ![v24.toNat, 32]
def k0_off8 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v26 : Index := Scalar.indexCast arg10
  let c48 : Index := 48#32
  ![v26.toNat, 48]

def k0_chk4 (v27 : IVec S16 32) : Prop :=
  (∀ a x, ((![v27] : Fin 1 → IVec S16 32) a x).toNat < S100000.size a)
instance k0_chk4.dec : ∀ (v27 : IVec S16 32), Decidable (k0_chk4 v27) := fun v27 => decidable_of_iff' _ (Iff.of_eq (k0_chk4.eq_1 v27))
theorem k0_idx4_inb : ∀ (v27 : IVec S16 32) (k0_hw4 : k0_chk4 v27), ∀ a x, ((![v27] : Fin 1 → IVec S16 32) a x).toNat < S100000.size a := fun v27 k0_hw4 => k0_hw4
def k0_off9 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v29 : Index := Scalar.indexCast arg10
  let c48_13 : Index := 48#32
  ![v29.toNat, 48]
def k0_off10 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v31 : Index := Scalar.indexCast arg10
  let c64 : Index := 64#32
  ![v31.toNat, 64]

def k0_chk5 (v32 : IVec S16 32) : Prop :=
  (∀ a x, ((![v32] : Fin 1 → IVec S16 32) a x).toNat < S100000.size a)
instance k0_chk5.dec : ∀ (v32 : IVec S16 32), Decidable (k0_chk5 v32) := fun v32 => decidable_of_iff' _ (Iff.of_eq (k0_chk5.eq_1 v32))
theorem k0_idx5_inb : ∀ (v32 : IVec S16 32) (k0_hw5 : k0_chk5 v32), ∀ a x, ((![v32] : Fin 1 → IVec S16 32) a x).toNat < S100000.size a := fun v32 k0_hw5 => k0_hw5
def k0_off11 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v34 : Index := Scalar.indexCast arg10
  let c64_14 : Index := 64#32
  ![v34.toNat, 64]
def k0_off12 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v36 : Index := Scalar.indexCast arg10
  let c80 : Index := 80#32
  ![v36.toNat, 80]

def k0_chk6 (v37 : IVec S16 32) : Prop :=
  (∀ a x, ((![v37] : Fin 1 → IVec S16 32) a x).toNat < S100000.size a)
instance k0_chk6.dec : ∀ (v37 : IVec S16 32), Decidable (k0_chk6 v37) := fun v37 => decidable_of_iff' _ (Iff.of_eq (k0_chk6.eq_1 v37))
theorem k0_idx6_inb : ∀ (v37 : IVec S16 32) (k0_hw6 : k0_chk6 v37), ∀ a x, ((![v37] : Fin 1 → IVec S16 32) a x).toNat < S100000.size a := fun v37 k0_hw6 => k0_hw6
def k0_off13 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v39 : Index := Scalar.indexCast arg10
  let c80_15 : Index := 80#32
  ![v39.toNat, 80]
def k0_off14 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v41 : Index := Scalar.indexCast arg10
  let c96 : Index := 96#32
  ![v41.toNat, 96]

def k0_chk7 (v42 : IVec S16 32) : Prop :=
  (∀ a x, ((![v42] : Fin 1 → IVec S16 32) a x).toNat < S100000.size a)
instance k0_chk7.dec : ∀ (v42 : IVec S16 32), Decidable (k0_chk7 v42) := fun v42 => decidable_of_iff' _ (Iff.of_eq (k0_chk7.eq_1 v42))
theorem k0_idx7_inb : ∀ (v42 : IVec S16 32) (k0_hw7 : k0_chk7 v42), ∀ a x, ((![v42] : Fin 1 → IVec S16 32) a x).toNat < S100000.size a := fun v42 k0_hw7 => k0_hw7
def k0_off15 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v44 : Index := Scalar.indexCast arg10
  let c96_16 : Index := 96#32
  ![v44.toNat, 96]
def k0_off16 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v46 : Index := Scalar.indexCast arg10
  let c112 : Index := 112#32
  ![v46.toNat, 112]

def k0_chk8 (v47 : IVec S16 32) : Prop :=
  (∀ a x, ((![v47] : Fin 1 → IVec S16 32) a x).toNat < S100000.size a)
instance k0_chk8.dec : ∀ (v47 : IVec S16 32), Decidable (k0_chk8 v47) := fun v47 => decidable_of_iff' _ (Iff.of_eq (k0_chk8.eq_1 v47))
theorem k0_idx8_inb : ∀ (v47 : IVec S16 32) (k0_hw8 : k0_chk8 v47), ∀ a x, ((![v47] : Fin 1 → IVec S16 32) a x).toNat < S100000.size a := fun v47 k0_hw8 => k0_hw8
def k0_off17 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v49 : Index := Scalar.indexCast arg10
  let c112_17 : Index := 112#32
  ![v49.toNat, 112]
def k0_off18 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v51 : Index := Scalar.indexCast arg10
  let c128 : Index := 128#32
  ![v51.toNat, 128]

def k0_chk9 (v52 : IVec S16 32) : Prop :=
  (∀ a x, ((![v52] : Fin 1 → IVec S16 32) a x).toNat < S100000.size a)
instance k0_chk9.dec : ∀ (v52 : IVec S16 32), Decidable (k0_chk9 v52) := fun v52 => decidable_of_iff' _ (Iff.of_eq (k0_chk9.eq_1 v52))
theorem k0_idx9_inb : ∀ (v52 : IVec S16 32) (k0_hw9 : k0_chk9 v52), ∀ a x, ((![v52] : Fin 1 → IVec S16 32) a x).toNat < S100000.size a := fun v52 k0_hw9 => k0_hw9
def k0_off19 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v54 : Index := Scalar.indexCast arg10
  let c128_18 : Index := 128#32
  ![v54.toNat, 128]
def k0_off20 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v56 : Index := Scalar.indexCast arg10
  let c144 : Index := 144#32
  ![v56.toNat, 144]

def k0_chk10 (v57 : IVec S16 32) : Prop :=
  (∀ a x, ((![v57] : Fin 1 → IVec S16 32) a x).toNat < S100000.size a)
instance k0_chk10.dec : ∀ (v57 : IVec S16 32), Decidable (k0_chk10 v57) := fun v57 => decidable_of_iff' _ (Iff.of_eq (k0_chk10.eq_1 v57))
theorem k0_idx10_inb : ∀ (v57 : IVec S16 32) (k0_hw10 : k0_chk10 v57), ∀ a x, ((![v57] : Fin 1 → IVec S16 32) a x).toNat < S100000.size a := fun v57 k0_hw10 => k0_hw10
def k0_off21 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v59 : Index := Scalar.indexCast arg10
  let c144_19 : Index := 144#32
  ![v59.toNat, 144]
def k0_off22 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v61 : Index := Scalar.indexCast arg10
  let c160 : Index := 160#32
  ![v61.toNat, 160]

def k0_chk11 (v62 : IVec S16 32) : Prop :=
  (∀ a x, ((![v62] : Fin 1 → IVec S16 32) a x).toNat < S100000.size a)
instance k0_chk11.dec : ∀ (v62 : IVec S16 32), Decidable (k0_chk11 v62) := fun v62 => decidable_of_iff' _ (Iff.of_eq (k0_chk11.eq_1 v62))
theorem k0_idx11_inb : ∀ (v62 : IVec S16 32) (k0_hw11 : k0_chk11 v62), ∀ a x, ((![v62] : Fin 1 → IVec S16 32) a x).toNat < S100000.size a := fun v62 k0_hw11 => k0_hw11
def k0_off23 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v64 : Index := Scalar.indexCast arg10
  let c160_20 : Index := 160#32
  ![v64.toNat, 160]
def k0_off24 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v66 : Index := Scalar.indexCast arg10
  let c176 : Index := 176#32
  ![v66.toNat, 176]

def k0_chk12 (v67 : IVec S16 32) : Prop :=
  (∀ a x, ((![v67] : Fin 1 → IVec S16 32) a x).toNat < S100000.size a)
instance k0_chk12.dec : ∀ (v67 : IVec S16 32), Decidable (k0_chk12 v67) := fun v67 => decidable_of_iff' _ (Iff.of_eq (k0_chk12.eq_1 v67))
theorem k0_idx12_inb : ∀ (v67 : IVec S16 32) (k0_hw12 : k0_chk12 v67), ∀ a x, ((![v67] : Fin 1 → IVec S16 32) a x).toNat < S100000.size a := fun v67 k0_hw12 => k0_hw12
def k0_off25 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v69 : Index := Scalar.indexCast arg10
  let c176_21 : Index := 176#32
  ![v69.toNat, 176]
def k0_off26 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v71 : Index := Scalar.indexCast arg10
  let c184 : Index := 184#32
  ![v71.toNat, 184]

def k0_chk13 (v72 : IVec S16 32) : Prop :=
  (∀ a x, ((![v72] : Fin 1 → IVec S16 32) a x).toNat < S100000.size a)
instance k0_chk13.dec : ∀ (v72 : IVec S16 32), Decidable (k0_chk13 v72) := fun v72 => decidable_of_iff' _ (Iff.of_eq (k0_chk13.eq_1 v72))
theorem k0_idx13_inb : ∀ (v72 : IVec S16 32) (k0_hw13 : k0_chk13 v72), ∀ a x, ((![v72] : Fin 1 → IVec S16 32) a x).toNat < S100000.size a := fun v72 k0_hw13 => k0_hw13
def k0_off27 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let v74 : Index := Scalar.indexCast arg10
  let c184_22 : Index := 184#32
  ![v74.toNat, 184]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S100000x1_S100000 : S100000x1.ShapeCasts S100000
  h_S1x16 : 0 < S1x16.numel
  shapeCasts_S1x16_S16 : S1x16.ShapeCasts S16
  h_S100000 : 0 < S100000.numel
  shapeCasts_S16_S1x16 : S16.ShapeCasts S1x16
  inb_S128x200_S128x200_0_0 : ∀ a, (![0, 0] : Fin 2 → Nat) a + S128x200.size a ≤ S128x200.size a
  h_S128x200 : 0 < S128x200.numel
  shapeCasts_S128x200_S128x200 : S128x200.ShapeCasts S128x200
  reduces_S128x200_S128 : S128x200.Reduces [1] S128
  shapeCasts_S128_S128x1 : S128.ShapeCasts S128x1
  broadcasts_S128x1_S128x200 : S128x1.Broadcasts S128x200
  inb_S128x200x128_S128x200x128_0_0_0 : ∀ a, (![0, 0, 0] : Fin 3 → Nat) a + S128x200x128.size a ≤ S128x200x128.size a
  h_S128x200x128 : 0 < S128x200x128.numel
  inb_S128x128_S128x128_0_0 : ∀ a, (![0, 0] : Fin 2 → Nat) a + S128x128.size a ≤ S128x128.size a
  h_S128x128 : 0 < S128x128.numel
  dot_S128x200_S128x200x128_S128x128_1_1_n_2_0_0_wf : DotDims.WF S128x200 S128x200x128 S128x128 [1] [1] [] [2] [0] [0]
  hcc0_scratch4 : 0 + S_.numel ≤ 12
  hcc0_scoped0 : 1 + S_.numel ≤ 12
  hcc0_scoped1 : 2 + S_.numel ≤ 12
  hcc0_scoped2 : 3 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32x200.size a ≤ S1024x200.size a
  k0_t1_ok : k0_t1_loop.OK
  k0_off2_inb : ∀ k0_t1 : Fin k0_t1_loop.trips, ∀ a, (k0_off2 k0_t1) a + S1x16.size a ≤ S32x200.size a
  k0_off3_inb : ∀ k0_t1 : Fin k0_t1_loop.trips, ∀ a, (k0_off3 k0_t1) a + S1x16.size a ≤ S32x200.size a
  k0_off4_inb : ∀ k0_t1 : Fin k0_t1_loop.trips, ∀ a, (k0_off4 k0_t1) a + S1x16.size a ≤ S32x200.size a
  k0_off5_inb : ∀ k0_t1 : Fin k0_t1_loop.trips, ∀ a, (k0_off5 k0_t1) a + S1x16.size a ≤ S32x200.size a
  k0_off6_inb : ∀ k0_t1 : Fin k0_t1_loop.trips, ∀ a, (k0_off6 k0_t1) a + S1x16.size a ≤ S32x200.size a
  k0_off7_inb : ∀ k0_t1 : Fin k0_t1_loop.trips, ∀ a, (k0_off7 k0_t1) a + S1x16.size a ≤ S32x200.size a
  k0_off8_inb : ∀ k0_t1 : Fin k0_t1_loop.trips, ∀ a, (k0_off8 k0_t1) a + S1x16.size a ≤ S32x200.size a
  k0_off9_inb : ∀ k0_t1 : Fin k0_t1_loop.trips, ∀ a, (k0_off9 k0_t1) a + S1x16.size a ≤ S32x200.size a
  k0_off10_inb : ∀ k0_t1 : Fin k0_t1_loop.trips, ∀ a, (k0_off10 k0_t1) a + S1x16.size a ≤ S32x200.size a
  k0_off11_inb : ∀ k0_t1 : Fin k0_t1_loop.trips, ∀ a, (k0_off11 k0_t1) a + S1x16.size a ≤ S32x200.size a
  k0_off12_inb : ∀ k0_t1 : Fin k0_t1_loop.trips, ∀ a, (k0_off12 k0_t1) a + S1x16.size a ≤ S32x200.size a
  k0_off13_inb : ∀ k0_t1 : Fin k0_t1_loop.trips, ∀ a, (k0_off13 k0_t1) a + S1x16.size a ≤ S32x200.size a
  k0_off14_inb : ∀ k0_t1 : Fin k0_t1_loop.trips, ∀ a, (k0_off14 k0_t1) a + S1x16.size a ≤ S32x200.size a
  k0_off15_inb : ∀ k0_t1 : Fin k0_t1_loop.trips, ∀ a, (k0_off15 k0_t1) a + S1x16.size a ≤ S32x200.size a
  k0_off16_inb : ∀ k0_t1 : Fin k0_t1_loop.trips, ∀ a, (k0_off16 k0_t1) a + S1x16.size a ≤ S32x200.size a
  k0_off17_inb : ∀ k0_t1 : Fin k0_t1_loop.trips, ∀ a, (k0_off17 k0_t1) a + S1x16.size a ≤ S32x200.size a
  k0_off18_inb : ∀ k0_t1 : Fin k0_t1_loop.trips, ∀ a, (k0_off18 k0_t1) a + S1x16.size a ≤ S32x200.size a
  k0_off19_inb : ∀ k0_t1 : Fin k0_t1_loop.trips, ∀ a, (k0_off19 k0_t1) a + S1x16.size a ≤ S32x200.size a
  k0_off20_inb : ∀ k0_t1 : Fin k0_t1_loop.trips, ∀ a, (k0_off20 k0_t1) a + S1x16.size a ≤ S32x200.size a
  k0_off21_inb : ∀ k0_t1 : Fin k0_t1_loop.trips, ∀ a, (k0_off21 k0_t1) a + S1x16.size a ≤ S32x200.size a
  k0_off22_inb : ∀ k0_t1 : Fin k0_t1_loop.trips, ∀ a, (k0_off22 k0_t1) a + S1x16.size a ≤ S32x200.size a
  k0_off23_inb : ∀ k0_t1 : Fin k0_t1_loop.trips, ∀ a, (k0_off23 k0_t1) a + S1x16.size a ≤ S32x200.size a
  k0_off24_inb : ∀ k0_t1 : Fin k0_t1_loop.trips, ∀ a, (k0_off24 k0_t1) a + S1x16.size a ≤ S32x200.size a
  k0_off25_inb : ∀ k0_t1 : Fin k0_t1_loop.trips, ∀ a, (k0_off25 k0_t1) a + S1x16.size a ≤ S32x200.size a
  k0_off26_inb : ∀ k0_t1 : Fin k0_t1_loop.trips, ∀ a, (k0_off26 k0_t1) a + S1x16.size a ≤ S32x200.size a
  k0_off27_inb : ∀ k0_t1 : Fin k0_t1_loop.trips, ∀ a, (k0_off27 k0_t1) a + S1x16.size a ≤ S32x200.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x200.size a ≤ S1024x200.size a
  hwx1_0 : ∀ i : grid1.Coords, EltTy.bits .f32 = 32 ∨ (Rect.block (s := S1024x200) S128x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x200.size a ≤ S1024x200.size a
  hwx1_1 : ∀ i : grid1.Coords, EltTy.bits .f32 = 32 ∨ (Rect.block (s := S1024x200) S128x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x200x128.size a ≤ S1024x200x128.size a
  hwx1_2 : ∀ i : grid1.Coords, EltTy.bits .f32 = 32 ∨ (Rect.block (s := S1024x200x128) S128x200x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S1024x128.size a
  hwx1_3 : ∀ i : grid1.Coords, EltTy.bits .f32 = 32 ∨ (Rect.block (s := S1024x128) S128x128.size (cc1_transform_3 i) (hinb1_3 i)).WholeWords (EltTy.packing .f32)

variable [Facts₀]

abbrev cc0_scratch4 : DmaSems sig S_ := SemArray.consecutive 0 S_ hcc0_scratch4
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
def dot_S128x200_S128x200x128_S128x128_1_1_n_2_0_0 : DotDims S128x200 S128x200x128 S128x128 where
  lhsContracting := [1]
  rhsContracting := [1]
  lhsNonContracting := []
  rhsNonContracting := [2]
  lhsBatch := [0]
  rhsBatch := [0]
  wf := dot_S128x200_S128x200x128_S128x128_1_1_n_2_0_0_wf

abbrev win1_0 : Pipeline.Window sig grid1 :=
  Pipeline.Window.ofSpec (Memref.whole main_v1) S128x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x200 : Shape := ⟨2, ![1024, 200]⟩
abbrev S1024x200x128 : Shape := ⟨3, ![1024, 200, 128]⟩
abbrev S100000x1 : Shape := ⟨2, ![100000, 1]⟩
abbrev S1024x200x1 : Shape := ⟨3, ![1024, 200, 1]⟩
abbrev S_ : Shape := ⟨0, ![]⟩
abbrev S1 : Shape := ⟨1, ![1]⟩
abbrev S1x1x1 : Shape := ⟨3, ![1, 1, 1]⟩
abbrev S1024x1 : Shape := ⟨2, ![1024, 1]⟩
abbrev S1024x1x1 : Shape := ⟨3, ![1024, 1, 1]⟩
abbrev S1024x128 : Shape := ⟨2, ![1024, 128]⟩

abbrev nBuf : Space → Nat
  | .hbm => 58
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200x128, .f32⟩
  | .hbm, ⟨2, _⟩ => ⟨S1024x200, .f32⟩
  | .hbm, ⟨3, _⟩ => ⟨S100000x1, .f32⟩
  | .hbm, ⟨4, _⟩ => ⟨S1024x200x1, .f32⟩
  | .hbm, ⟨5, _⟩ => ⟨S_, .i32⟩
  | .hbm, ⟨6, _⟩ => ⟨S1024x200, .i32⟩
  | .hbm, ⟨7, _⟩ => ⟨S1024x200, .i1⟩
  | .hbm, ⟨8, _⟩ => ⟨S_, .i32⟩
  | .hbm, ⟨9, _⟩ => ⟨S1024x200, .i32⟩
  | .hbm, ⟨10, _⟩ => ⟨S1024x200, .i32⟩
  | .hbm, ⟨11, _⟩ => ⟨S1024x200, .i32⟩
  | .hbm, ⟨12, _⟩ => ⟨S1024x200x1, .i32⟩
  | .hbm, ⟨13, _⟩ => ⟨S1, .i32⟩
  | .hbm, ⟨14, _⟩ => ⟨S_, .i32⟩
  | .hbm, ⟨15, _⟩ => ⟨S1024x200x1, .i32⟩
  | .hbm, ⟨16, _⟩ => ⟨S1024x200x1, .i1⟩
  | .hbm, ⟨17, _⟩ => ⟨S1x1x1, .i32⟩
  | .hbm, ⟨18, _⟩ => ⟨S1024x200x1, .i32⟩
  | .hbm, ⟨19, _⟩ => ⟨S1024x200x1, .i1⟩
  | .hbm, ⟨20, _⟩ => ⟨S1024x200x1, .i1⟩
  | .hbm, ⟨21, _⟩ => ⟨S_, .i1⟩
  | .hbm, ⟨22, _⟩ => ⟨S1024x200, .i1⟩
  | .hbm, ⟨23, _⟩ => ⟨S1024x200x1, .f32⟩
  | .hbm, ⟨24, _⟩ => ⟨S1024x200x1, .i1⟩
  | .hbm, ⟨25, _⟩ => ⟨S_, .f32⟩
  | .hbm, ⟨26, _⟩ => ⟨S1024x200x1, .f32⟩
  | .hbm, ⟨27, _⟩ => ⟨S1024x200x1, .f32⟩
  | .hbm, ⟨28, _⟩ => ⟨S_, .f32⟩
  | .hbm, ⟨29, _⟩ => ⟨S1024x200x1, .f32⟩
  | .hbm, ⟨30, _⟩ => ⟨S1024x200x1, .f32⟩
  | .hbm, ⟨31, _⟩ => ⟨S_, .f32⟩
  | .hbm, ⟨32, _⟩ => ⟨S1024x200x1, .f32⟩
  | .hbm, ⟨33, _⟩ => ⟨S1024x200x1, .i1⟩
  | .hbm, ⟨34, _⟩ => ⟨S_, .f32⟩
  | .hbm, ⟨35, _⟩ => ⟨S_, .f32⟩
  | .hbm, ⟨36, _⟩ => ⟨S1024x200x1, .f32⟩
  | .hbm, ⟨37, _⟩ => ⟨S1024x200x1, .f32⟩
  | .hbm, ⟨38, _⟩ => ⟨S_, .f32⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S1024x1x1, .f32⟩
  | .hbm, ⟨44, _⟩ => ⟨S1024x200x1, .f32⟩
  | .hbm, ⟨45, _⟩ => ⟨S1024x200x1, .f32⟩
  | .hbm, ⟨46, _⟩ => ⟨S1024x200x1, .f32⟩
  | .hbm, ⟨47, _⟩ => ⟨S_, .f32⟩
  | .hbm, ⟨48, _⟩ => ⟨S1024x1, .f32⟩
  | .hbm, ⟨49, _⟩ => ⟨S1024x1x1, .f32⟩
  | .hbm, ⟨50, _⟩ => ⟨S1024x200x1, .f32⟩
  | .hbm, ⟨51, _⟩ => ⟨S1024x200x1, .f32⟩
  | .hbm, ⟨52, _⟩ => ⟨S1024x200x128, .f32⟩
  | .hbm, ⟨53, _⟩ => ⟨S1024x200x128, .f32⟩
  | .hbm, ⟨54, _⟩ => ⟨S1024x200x128, .f32⟩
  | .hbm, ⟨55, _⟩ => ⟨S1024x200x128, .f32⟩
  | .hbm, ⟨56, _⟩ => ⟨S_, .f32⟩
  | .hbm, ⟨57, _⟩ => ⟨S1024x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v6 : Ref sig .tc := ⟨.hbm, 37, rfl⟩
abbrev main_cst_2 : Ref sig .tc := ⟨.hbm, 38, rfl⟩
abbrev main_v7 : Ref sig .tc := ⟨.hbm, 39, rfl⟩
abbrev main_cst_3 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_4 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩

abbrev nD : Nat := 1
abbrev τ : Topo := Topo.v7x

variable {F : FTy → Type} [FloatOps F]

class Facts₀ : Prop where
  bcast_S1024x200_S1024x200x1_0_1 : S1024x200.BroadcastsInDim S1024x200x1 (![0, 1] : Fin 2 → Fin S1024x200x1.rank)
  bcast_S_S1024x200 : S_.BroadcastsInDim S1024x200 (![] : Fin 0 → Fin S1024x200.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  reducesTo_S1024x200x1_S1024x1_d1 : S1024x200x1.ReducesTo [1] S1024x1
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x200x1_0_1_2 : S1024x1x1.BroadcastsInDim S1024x200x1 (![0, 1, 2] : Fin 3 → Fin S1024x200x1.rank)
  bcast_S1024x200x1_S1024x200x128_0_1_2 : S1024x200x1.BroadcastsInDim S1024x200x128 (![0, 1, 2] : Fin 3 → Fin S1024x200x128.rank)
  reducesTo_S1024x200x128_S1024x128_d1 : S1024x200x128.ReducesTo [1] S1024x128
  gather_S100000x1_S1024x200x1_S1024x200x1_2_0_n_n_0_2_11_wf : GatherDims.WF S100000x1 S1024x200x1 S1024x200x1 [2] [0] [] [0] [] 2 ![1, 1]

variable [Facts₀]

def gather_S100000x1_S1024x200x1_S1024x200x1_2_0_n_n_0_2_11 : GatherDims S100000x1 S1024x200x1 S1024x200x1 where
  offsetDims := [2]
  collapsedSliceDims := [0]
  operandBatchingDims := []
  startIndicesBatchingDims := []
  startIndexMap := [0]
  indexVectorDim := 2
  sliceSizes := ![1, 1]
  wf := gather_S100000x1_S1024x200x1_S1024x200x1_2_0_n_n_0_2_11_wf

class Facts : Prop extends Facts₀ where

variable [Facts]
-- ==== Proof.ScSetup.lean ====
/-
  The gather kernel on the vector subcores, set up for the launch theorem: the program's threads, the ghost state,
  the arrays and their pieces, and the subcore barrier's protocol.

  Each of the 32 tiles (2 cores × 16 subcores) owns 32 consecutive rows of the index array and of the output: tile
  (c, s) the rows from 64 s + 32 c. Tile 0 of each core copies the whole table into its core's shared memory; every
  tile then meets its siblings at the barrier, copies the shared table into its own memory and gathers. The barrier
  carries the data dependency: tile 0's arrival at tile j's barrier semaphore hands tile j a read share of the shared
  table, holding the table's contents.
-/
import proofs.«206738_g15788299780114_cont_7to1_105_28_alg».proof.KernelIdeal
import proofs.«206738_g15788299780114_cont_7to1_105_28_alg».proof.Proof.Gen.KernelIdeal
import proofs.«206738_g15788299780114_cont_7to1_105_28_alg».proof.Proof.Gen.KernelIdeal.Skeleton
import proofs.«206738_g15788299780114_cont_7to1_105_28_alg».proof.Proof.Gen.KernelIdeal.Launch
import proofs.«206738_g15788299780114_cont_7to1_105_28_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the barrier cells' rounds, the pipeline's staging cells, the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipeline's staging cells' rounds library. -/
def EP : Emb UP (MT nD τ sig (HIx 1) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory, the arrays and their pieces -/

variable (m : (ℓ : Loc nD τ sig) → Buf (Elt F) ℓ) (ρ : Dev nD → PrngReg)

/-- The index array, the weight column, the table (the column as a vector), the gathered weights, the mask, the values
    and the result, as locations of device `d`. -/
abbrev idxLoc (d : Dev nD) : Loc nD τ sig := (SparseCore.T d).loc main_arg0
abbrev wgtLoc (d : Dev nD) : Loc nD τ sig := (SparseCore.T d).loc main_arg3
abbrev tabLoc (d : Dev nD) : Loc nD τ sig := (SparseCore.T d).loc main_v0
abbrev outLoc (d : Dev nD) : Loc nD τ sig := (SparseCore.T d).loc main_v1
/-- Core `c`'s shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

variable [FloatOps F]

/-- The table: the weight column read as a vector of 100000 entries. -/
def tab (d : Dev nD) : Buf (Elt F) (tabLoc d) := shapeCast S100000 (m (wgtLoc d)) shapeCasts_S100000x1_S100000

/-- The table entry an index word names: the word read unsigned, modulo the table's extent (in range, the word itself). -/
def entry (x : BitVec 32) : S100000.Idx := ValueIdx.ix1 (⟨x.toNat % 100000, Nat.mod_lt _ (by norm_num)⟩ : Fin 100000)

/-- The gathered weights: entry `j` is the table at the index word `j` of the index array. -/
def gat (d : Dev nD) : Buf (Elt F) (outLoc d) := fun j => tab m d (entry (m (idxLoc d) j))

theorem hdiv : 32 ∣ S1024x200.size 0 := ⟨32, rfl⟩
/-- Block `w` of 32 rows. -/
abbrev blk (w : Fin 32) : Rect S1024x200 := Rect.part (s := S1024x200) (a₀ := 0) hdiv w
abbrev blkSet (w : Fin 32) : Finset S1024x200.Idx := ((Memref.whole main_arg0_scv : Memref sig .scVector .hbm S1024x200 .i32).view.slice (blk w)).set
/-- The block of tile `s` of core `c`: number 2 s + c. -/
def wid (c : Fin 2) (s : Fin 16) : Fin 32 := ⟨2 * s.val + c.val, by omega⟩

/-- The table's contents as core `c`'s shared memory holds them once tile 0 has copied them there. -/
def tabSh (d : Dev nD) (c : Fin τ.nSC) : Buf (Elt F) (shLoc d c) := shapeCast S100000 (m (wgtLoc d)) shapeCasts_S100000x1_S100000

theorem nSub_eq : τ.nSub = 16 := rfl
theorem nSC_eq : τ.nSC = 2 := rfl

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- A read share of core `c`'s shared memory at the table's contents: share number `j` of sixteen. -/
abbrev shShare (d : Dev nD) (c : Fin τ.nSC) (j : Fin 16) : sProp 𝕄 := shLoc d c ↦{shareTok fullShare 16 j} tabSh m d c

/-- What a duty in tile `j`'s round hands over: tile 0's, a read share of the shared table; the others', nothing. -/
def bPay (g : GSem nD τ sig) (n : ℕ) : sProp 𝕄 :=
  match g with
  | ((d, .scVector c j), _) => if n = 0 then shShare m d c (Fin.cast nSub_eq j) else iprop(emp)
  | _ => iprop(emp)

/-- The barrier cells' schedule: one round on each, of one unit duty per tile of the core (named by its number),
    tile 0's handing over a read share of the shared table. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has tile `(c, i)` owe for the barrier: a unit on every tile's cell of its core, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every sibling's cell invariant and that each has reached round 0, its own duty token
    in every sibling's round 0, its own position at the origin of round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev coreOf (c : Fin ((K (F := F)).nCore 0)) : Fin τ.nSC := (K (F := F)).core 0 c
abbrev c2 (c : Fin ((K (F := F)).nCore 0)) : Fin 2 := Fin.cast nCore_zero c
abbrev s16 (i : Fin ((K (F := F)).nSub 0)) : Fin 16 := Fin.cast nSub_zero i

/-- A tile's rows of the index array at their launch contents, and of the output at contents `f`. -/
abbrev idxBlk (d : Dev nD) (w : Fin 32) : sProp 𝕄 := idxLoc d ↦[blkSet w]{fullShare} m (idxLoc d)
abbrev outBlk (d : Dev nD) (w : Fin 32) (f : Buf (Elt F) (outLoc d)) : sProp 𝕄 := outLoc d ↦[blkSet w]{fullShare} f
/-- Core `c`'s read share of the table in HBM. -/
abbrev tabShare (d : Dev nD) (c : Fin 2) : sProp 𝕄 := tabLoc d ↦{shareTok fullShare 2 c} tab m d

/-- What a task is handed: its rows of the index array and of the output; tile 0 also its core's read share of the
    table and the core's shared memory whole. -/
def goRes (d : Dev nD) (c : Fin ((K (F := F)).nCore 0)) (i : Fin ((K (F := F)).nSub 0)) : sProp 𝕄 :=
  iprop(idxBlk m d (wid (c2 c) (s16 i)) ∗ outBlk d (wid (c2 c) (s16 i)) (m (outLoc d))
    ∗ if i.val = 0 then iprop(tabShare m d (c2 c) ∗ ∃ f, shLoc d (coreOf c) ↦{fullShare} f) else iprop(emp))
/-- What a task hands back: its rows of the index array, its rows of the output at the gathered weights, its read share
    of the shared table; tile 0 also the core's share of the table and the rest of the shared memory. -/
def tdRes (d : Dev nD) (c : Fin ((K (F := F)).nCore 0)) (i : Fin ((K (F := F)).nSub 0)) : sProp 𝕄 :=
  iprop(idxBlk m d (wid (c2 c) (s16 i)) ∗ outBlk d (wid (c2 c) (s16 i)) (gat m d)
    ∗ shShare m d (coreOf c) (s16 i)
    ∗ if i.val = 0 then iprop(tabShare m d (c2 c) ∗ shLoc d (coreOf c) ↦{shareDrop fullShare 16} tabSh m d (coreOf c)) else iprop(emp))

/-- The one call takes, per core, its tiles' rows of the index array and of the output and a read share of the table,
    and brings them back, the output's rows at the gathered weights; each task's proof consumes its barrier kit; each
    tile owes its sixteen arrivals. -/
def P : (K (F := F)).Pay (nD := nD) (Val := Elt F) (Name := ℕ) (U := UU) where
  st := fun q d c => match q with
    | 0 => iprop((bigSep Finset.univ fun i : Fin ((K (F := F)).nSub 0) => iprop(idxBlk m d (wid (c2 c) (s16 i)) ∗ outBlk d (wid (c2 c) (s16 i)) (m (outLoc d))))
        ∗ tabShare m d (c2 c))
  dn := fun q d c => match q with
    | 0 => iprop((bigSep Finset.univ fun i : Fin ((K (F := F)).nSub 0) => iprop(idxBlk m d (wid (c2 c) (s16 i)) ∗ outBlk d (wid (c2 c) (s16 i)) (gat m d)))
        ∗ tabShare m d (c2 c))
  go := fun q d c i => match q with | 0 => goRes m d c i
  td := fun q d c i => match q with | 0 => tdRes m d c i
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P goRes; dsimp only; split <;> infer_instance
  td q d c i := match q with
    | 0 => by unfold P tdRes; dsimp only; split <;> infer_instance

end Cert.KernelIdeal.Sc

end
-- ==== Proof.ScTile.lean ====
/-
  One tile's task of the gather kernel, proved once at a symbolic tile.

  The task: start the copy of the tile's 32 rows of indices; on tile 0, copy the table into the core's shared memory and
  wait for it; meet the siblings at the barrier (tile 0 hands each sibling a read share of the shared table there);
  copy the shared table into the tile's own memory; wait for the indices; then, row by row, read sixteen indices at a
  time, read the table at them and store the sixteen weights into the row of the output scratch (thirteen pieces cover
  a row of 200, the last overlapping the one before with the same values); copy the output scratch to the tile's rows of
  the output array. What the rows of the output hold at the end is the table at the index words: the gathered weights.
-/
import proofs.«206738_g15788299780114_cont_7to1_105_28_alg».proof.Proof.ScSetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

-- the kernel's memrefs, spelt as the body table passes them
local notation "tabV" => (Memref.whole Cert.KernelIdeal.main_v0_scv : Memref Cert.KernelIdeal.sig Kind.scVector Space.hbm Cert.KernelIdeal.S100000 EltTy.f32)
local notation "idxV" => (Memref.whole Cert.KernelIdeal.main_arg0_scv : Memref Cert.KernelIdeal.sig Kind.scVector Space.hbm Cert.KernelIdeal.S1024x200 EltTy.i32)
local notation "outV" => (Memref.whole Cert.KernelIdeal.main_v1_scv : Memref Cert.KernelIdeal.sig Kind.scVector Space.hbm Cert.KernelIdeal.S1024x200 EltTy.f32)
local notation "shV" => (Memref.whole Cert.KernelIdeal.cc0_scratch0 : Memref Cert.KernelIdeal.sig Kind.scVector Space.shared Cert.KernelIdeal.S100000 EltTy.f32)
local notation "tV" => (Memref.whole Cert.KernelIdeal.cc0_scratch1 : Memref Cert.KernelIdeal.sig Kind.scVector Space.vmem Cert.KernelIdeal.S100000 EltTy.f32)
local notation "iV" => (Memref.whole Cert.KernelIdeal.cc0_scratch2 : Memref Cert.KernelIdeal.sig Kind.scVector Space.vmem Cert.KernelIdeal.S32x200 EltTy.i32)
local notation "oV" => (Memref.whole Cert.KernelIdeal.cc0_scratch3 : Memref Cert.KernelIdeal.sig Kind.scVector Space.vmem Cert.KernelIdeal.S32x200 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
/-- The tile's block of rows. -/
abbrev wL (L : grid0.Coords) : Fin 32 := wid (cL L) (jL L)

/-- The tile's rows, as the kernel slices them out of the index array and of the output. -/
abbrev rowsK (L : grid0.Coords) : Rect S1024x200 := Rect.unit (s := S1024x200) (k0_off1 L) S32x200.size (k0_off1_inb L)
abbrev idxSl (L : grid0.Coords) : Memref sig .scVector .hbm S32x200 .i32 := (idxV).slice (rowsK L) (fun _ => rfl)
abbrev outSl (L : grid0.Coords) : Memref sig .scVector .hbm S32x200 .f32 := (outV).slice (rowsK L) (fun _ => rfl)

omit [FloatOps F] in
theorem rowsK_eq : rowsK L = blk (wL L) := by
  unfold rowsK blk Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_idxSl : (idxSl L).view.set = blkSet (wL L) := by
  show ((idxV).view.slice (rowsK L)).set = ((idxV).view.slice (blk (wL L))).set
  rw [rowsK_eq]
omit [FloatOps F] in
theorem set_outSl : (outSl L).view.set = blkSet (wL L) := by
  show ((outV).view.slice (rowsK L)).set = ((idxV).view.slice (blk (wL L))).set
  rw [rowsK_eq]; rfl

omit [FloatOps F] in
theorem pts_idxSl (f : Buf (Elt F) (idxLoc d)) :
    ((idxSl L).view.loc (V d (cV L) (jV L)) ↦[(idxSl L).view.set]{fullShare} f : sProp 𝕄) = idxLoc d ↦[blkSet (wL L)]{fullShare} f := by
  rw [set_idxSl]
omit [FloatOps F] in
theorem pts_outSl (f : Buf (Elt F) (outLoc d)) :
    ((outSl L).view.loc (V d (cV L) (jV L)) ↦[(outSl L).view.set]{fullShare} f : sProp 𝕄) = outLoc d ↦[blkSet (wL L)]{fullShare} f := by
  rw [set_outSl]

abbrev cIcell (d : Dev nD) (c : Fin τ.nSC) (i : Fin τ.nSub) : GSem nD τ sig := (V d c i, .dma cc0_scratch4.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- The tile's four transfer semaphores are among its own cells: they are them, at zero, and the rest. -/
theorem ownSems0_V :
    (ownSems0 (V d (cV L) (jV L)) : sProp 𝕄)
      = iprop(semVal (cIcell d (cV L) (jV L)) 0 ∗ semVal (cAcell d (cV L) (jV L)) 0 ∗ semVal (cBcell d (cV L) (jV L)) 0 ∗ semVal (cCcell d (cV L) (jV L)) 0
          ∗ bigSep (((((ownCells (V d (cV L) (jV L))).erase (cIcell d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cIcell d (cV L) (jV L))).mpr ⟨rfl, by
      show (SemLoc.dma cc0_scratch4.sem : SemLoc sig).isScoped .scVector = true; decide⟩),
    SparseCore.bigSep_erase' (Finset.mem_erase.mpr ⟨by simp [cIcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cIcell, cBcell]; decide,
      (mem_ownCells (g := cBcell d (cV L) (jV L))).mpr ⟨rfl, by show (SemLoc.dma cc0_scoped1.sem : SemLoc sig).isScoped .scVector = true; decide⟩⟩⟩),
    SparseCore.bigSep_erase' (Finset.mem_erase.mpr ⟨by simp [cBcell, cCcell]; decide, Finset.mem_erase.mpr ⟨by simp [cAcell, cCcell]; decide,
      Finset.mem_erase.mpr ⟨by simp [cIcell, cCcell]; decide,
      (mem_ownCells (g := cCcell d (cV L) (jV L))).mpr ⟨rfl, by show (SemLoc.dma cc0_scoped2.sem : SemLoc sig).isScoped .scVector = true; decide⟩⟩⟩⟩)]

omit [FloatOps F] in
/-- The three scratch buffers are among the tile's own: they are them, at some contents, and the rest. -/
theorem ownBufs_V :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f)
          ∗ (∃ f, (V d (cV L) (jV L)).loc cc0_scratch3 ↦{fullShare} f)
          ∗ bigSep ((((ownRefs (τ := τ) (.scVector (cV L) (jV L))).erase ((Proc.scVector (cV L) (jV L)).devRef cc0_scratch1)).erase
              ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch1) rfl)).trans ?_
  rw [SparseCore.bigSep_erase' (Finset.mem_erase.mpr ⟨fun e => absurd (Proc.devRef_injective _ e) (show (cc0_scratch2 : Ref sig .scVector) ≠ cc0_scratch1 by decide),
    SparseCore.Cfg.mem_ownRefs_of_owner (p := Proc.scVector (cV L) (jV L)) (b := (Proc.scVector (cV L) (jV L)).devRef cc0_scratch2) rfl⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
    SparseCore.Cfg.mem_ownRefs_of_owner (p := Proc.scVector (cV L) (jV L)) (b := (Proc.scVector (cV L) (jV L)).devRef cc0_scratch3) rfl⟩⟩)]

omit [FloatOps F] in
/-- The whole arrays and scratches as the tile's memrefs address them. -/
theorem pts_tabV (q : PosShare TreeShare) (f : Buf (Elt F) (tabLoc d)) :
    ((tabV).view.loc (V d (cV L) (jV L)) ↦{q} f : sProp 𝕄) = tabLoc d ↦{q} f := by
  simp only [Memref.view_whole, View.set_whole]
omit [FloatOps F] in
theorem pts_shV (q : PosShare TreeShare) (f : Buf (Elt F) (shLoc d (cV L))) :
    ((shV).view.loc (V d (cV L) (jV L)) ↦{q} f : sProp 𝕄) = shLoc d (cV L) ↦{q} f := by
  simp only [Memref.view_whole, View.set_whole]; rfl
omit [FloatOps F] in
theorem pts_tV (f : Buf (Elt F) ((V d (cV L) (jV L)).loc cc0_scratch1)) :
    ((tV).view.loc (V d (cV L) (jV L)) ↦{fullShare} f : sProp 𝕄) = (V d (cV L) (jV L)).loc cc0_scratch1 ↦{fullShare} f := rfl
omit [FloatOps F] in
theorem pts_iV (f : Buf (Elt F) ((V d (cV L) (jV L)).loc cc0_scratch2)) :
    ((iV).view.loc (V d (cV L) (jV L)) ↦{fullShare} f : sProp 𝕄) = (V d (cV L) (jV L)).loc cc0_scratch2 ↦{fullShare} f := rfl
omit [FloatOps F] in
theorem pts_oV (f : Buf (Elt F) ((V d (cV L) (jV L)).loc cc0_scratch3)) :
    ((oV).view.loc (V d (cV L) (jV L)) ↦{fullShare} f : sProp 𝕄) = (V d (cV L) (jV L)).loc cc0_scratch3 ↦{fullShare} f := rfl

/-- Every index word a row piece reads off the index scratch is below the table's extent when all the scratch's are. -/
theorem chk_range (I7 : Buf (Elt F) ((V d (cV L) (jV L)).loc cc0_scratch2)) (hI7 : ∀ j, (I7 j).toNat < 100000)
    (off : Fin 2 → Nat) (hoff : ∀ a, off a + S1x16.size a ≤ S32x200.size a) :
    ∀ a x, ((![shapeCast S16 ((iV).view.readAt (Elt F) (Rect.unit (s := S32x200) off S1x16.size hoff).toLoadRect I7) shapeCasts_S1x16_S16] : Fin 1 → IVec S16 32) a x).toNat < S100000.size a := by
  intro a x
  obtain rfl : a = 0 := Subsingleton.elim _ _
  exact hI7 _

/-- The first `k` rows of the output scratch hold the table at the index scratch's words. -/
def rowsDone (T6 : Buf (Elt F) ((V d (cV L) (jV L)).loc cc0_scratch1)) (I7 : Buf (Elt F) ((V d (cV L) (jV L)).loc cc0_scratch2))
    (k : ℕ) (f : Buf (Elt F) ((V d (cV L) (jV L)).loc cc0_scratch3)) : Prop :=
  ∀ (r : Fin 32) (c : Fin 200), r.val < k → f (ValueIdx.ix2 r c) = T6 (entry (I7 (ValueIdx.ix2 r c)))

/-- Before trip `k`: the table scratch and the index scratch as they stand, the output scratch with its first `k` rows done. -/
def inv (T6 : Buf (Elt F) ((V d (cV L) (jV L)).loc cc0_scratch1)) (I7 : Buf (Elt F) ((V d (cV L) (jV L)).loc cc0_scratch2))
    (k : ℕ) (_ : PUnit) : sProp 𝕄 :=
  iprop(((tV).view.loc (V d (cV L) (jV L)) ↦{fullShare} T6)
    ∗ ((iV).view.loc (V d (cV L) (jV L)) ↦{fullShare} I7)
    ∗ ∃ f, ⌜rowsDone d L T6 I7 k f⌝ ∗ (oV).view.loc (V d (cV L) (jV L)) ↦{fullShare} f)

omit [FloatOps F] in
/-- The table scratch through its whole-rectangle access is the table scratch. -/
theorem pts_tV_acc (f : Buf (Elt F) ((V d (cV L) (jV L)).loc cc0_scratch1)) :
    ((((tV).access (.whole S100000)).loc (V d (cV L) (jV L)) ↦{fullShare} f : sProp 𝕄)) = ((tV).view.loc (V d (cV L) (jV L)) ↦{fullShare} f) := rfl

end Tile

end Cert.KernelIdeal.Sc

end
-- ==== Proof.GatherPure.lean ====
/-
  What one trip of the gather loop leaves in the output scratch, as plain functions.

  A trip handles one row `k` of the tile's 32 rows. Thirteen times it reads sixteen consecutive index words of the
  row, reads the table at those words, and stores the sixteen weights at the same sixteen columns of the row of the
  output scratch: twelve pieces at columns 0, 16, …, 176 and a last one at columns 184 … 199, which overlaps the
  piece before it and stores the same values there. One lane of a piece is the table at the entry its index word
  names (`gpiece_apply`). Pieces that all agree with one function of the index, lie in row `k` and cover its 200
  columns turn "rows below `k` done" into "rows below `k + 1` done" (`rows_step`): an index of row `k` reads the
  piece that covers it, an index of an earlier row is under no piece and keeps what it held. A piece loaded and stored
  at (k, c0) has the three properties the step asks (`pc_ok`); the trip's own thirteen pieces, whose offsets in closed
  form are (k, 0), (k, 16), …, (k, 176), (k, 184), are taken one by one in the module that lists them.
-/
import proofs.«206738_g15788299780114_cont_7to1_105_28_alg».proof.Proof.ScTile
import Idealize.ShloMosaic.Lib.Writes
import Idealize.ShloMosaic.Lib.ValueIdx

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "tV" => (Memref.whole Cert.KernelIdeal.cc0_scratch1 : Memref Cert.KernelIdeal.sig Kind.scVector Space.vmem Cert.KernelIdeal.S100000 EltTy.f32)
local notation "iV" => (Memref.whole Cert.KernelIdeal.cc0_scratch2 : Memref Cert.KernelIdeal.sig Kind.scVector Space.vmem Cert.KernelIdeal.S32x200 EltTy.i32)
local notation "oV" => (Memref.whole Cert.KernelIdeal.cc0_scratch3 : Memref Cert.KernelIdeal.sig Kind.scVector Space.vmem Cert.KernelIdeal.S32x200 EltTy.f32)

variable [FloatOps F]

section Gather

variable (d : Dev nD) (L : grid0.Coords)
variable (T6 : Buf (Elt F) ((V d (cV L) (jV L)).loc cc0_scratch1)) (I7 : Buf (Elt F) ((V d (cV L) (jV L)).loc cc0_scratch2))

/-! ## One piece: sixteen lanes gathered -/

/-- The sixteen weights of one piece: the sixteen index words the index scratch holds at `off`, as a vector, name
    sixteen entries of the table scratch; those entries, as a [1, 16] block. -/
def gpiece (off : Fin 2 → Nat) (hoff : ∀ a, off a + S1x16.size a ≤ S32x200.size a)
    (h : ∀ a x, ((![shapeCast S16 ((iV).view.readAt (Elt F) (Rect.unit (s := S32x200) off S1x16.size hoff).toLoadRect I7) shapeCasts_S1x16_S16] : Fin 1 → IVec S16 32) a x).toNat < S100000.size a) :
    S1x16.Idx → F .f32 :=
  shapeCast S1x16 (loadIdx (View.read (Elt F) ((tV).access (Rect.whole cc0_scratch1.ty.shape)) T6)
    ![shapeCast S16 ((iV).view.readAt (Elt F) (Rect.unit (s := S32x200) off S1x16.size hoff).toLoadRect I7) shapeCasts_S1x16_S16] h) shapeCasts_S16_S1x16

omit [FloatOps F] in
/-- Lane `x` of the block, taken as a lane of the 16-vector, is the index word at `x`'s place in the rectangle. -/
theorem lane_word (off : Fin 2 → Nat) (hoff : ∀ a, off a + S1x16.size a ≤ S32x200.size a) (x : S1x16.Idx) :
    shapeCast S16 ((iV).view.readAt (Elt F) (Rect.unit (s := S32x200) off S1x16.size hoff).toLoadRect I7) shapeCasts_S1x16_S16
        (Shape.reshapeEquiv shapeCasts_S16_S1x16 x)
      = I7 ((Rect.unit (s := S32x200) off S1x16.size hoff).emb x) := by
  show (iV).view.readAt (Elt F) (Rect.unit (s := S32x200) off S1x16.size hoff).toLoadRect I7
    (Shape.reshapeEquiv shapeCasts_S1x16_S16 (Shape.reshapeEquiv shapeCasts_S16_S1x16 x)) = _
  rw [Shape.reshapeEquiv_reshapeEquiv, Shape.reshapeEquiv_self]
  rfl

/-- One lane of a piece is the table at the entry its index word names. -/
theorem gpiece_apply (off : Fin 2 → Nat) (hoff : ∀ a, off a + S1x16.size a ≤ S32x200.size a)
    (h : ∀ a x, ((![shapeCast S16 ((iV).view.readAt (Elt F) (Rect.unit (s := S32x200) off S1x16.size hoff).toLoadRect I7) shapeCasts_S1x16_S16] : Fin 1 → IVec S16 32) a x).toNat < S100000.size a)
    (x : S1x16.Idx) :
    gpiece d L T6 I7 off hoff h x = T6 (entry (I7 ((Rect.unit (s := S32x200) off S1x16.size hoff).emb x))) := by
  have hw := lane_word d L I7 off hoff x
  have hlt : (I7 ((Rect.unit (s := S32x200) off S1x16.size hoff).emb x)).toNat < 100000 := by
    have := h 0 (Shape.reshapeEquiv shapeCasts_S16_S1x16 x)
    rw [← hw]; exact this
  unfold gpiece
  show View.read (Elt F) ((tV).access (Rect.whole cc0_scratch1.ty.shape)) T6
    (idxAt _ h (Shape.reshapeEquiv shapeCasts_S16_S1x16 x)) = _
  rw [Memref.read_access_whole]
  refine congrArg T6 (funext fun a => Fin.ext ?_)
  match a with
  | ⟨0, _⟩ =>
    show (shapeCast S16 ((iV).view.readAt (Elt F) (Rect.unit (s := S32x200) off S1x16.size hoff).toLoadRect I7) shapeCasts_S1x16_S16
      (Shape.reshapeEquiv shapeCasts_S16_S1x16 x)).toNat = (I7 ((Rect.unit (s := S32x200) off S1x16.size hoff).emb x)).toNat % 100000
    rw [hw, Nat.mod_eq_of_lt hlt]

/-! ## Pieces that fill a row -/

/-- Pieces that agree with the gathered weights, lie in row `k` and cover it take "rows below `k` done" to "rows below
    `k + 1` done". -/
theorem rows_step (f : Buf (Elt F) ((V d (cV L) (jV L)).loc cc0_scratch3)) (k : Fin 32) (hf : rowsDone d L T6 I7 k.val f)
    (Ls : List (View.Piece (Elt F) S32x200 .f32))
    (hG : ∀ p ∈ Ls, ∀ x, p.2 x = T6 (entry (I7 (p.1.emb x))))
    (hrow : ∀ p ∈ Ls, ∀ y ∈ p.1.set, (y 0).val = k.val)
    (hcov : ∀ c : Fin 200, ∃ p ∈ Ls, ValueIdx.ix2 k c ∈ p.1.set) :
    rowsDone d L T6 I7 (k.val + 1) ((oV).view.writes (Elt F) f Ls) := by
  intro r c hr
  show (oV).view.read (Elt F) ((oV).view.writes (Elt F) f Ls) (ValueIdx.ix2 r c) = _
  by_cases hk : r.val = k.val
  · obtain rfl : r = k := Fin.ext hk
    exact View.read_writes_apply_of_pieces (oV).view f (fun y => T6 (entry (I7 y))) Ls hG _ (hcov c)
  · rw [View.read_writes_apply_of_forall_not_mem (oV).view f _ Ls fun p hp hy => hk (hrow p hp _ hy)]
    exact hf r c (by omega)

/-! ## The trip's thirteen pieces -/

omit [FloatOps F] in
theorem trips_eq : k0_t1_loop.trips = 32 := by decide

variable (hI7 : ∀ j, (I7 j).toNat < 100000)

/-- The piece stored at `offS`: the weights gathered at the words loaded at `offL`. -/
abbrev pc (offS : Fin 2 → Nat) (inbS : ∀ a, offS a + S1x16.size a ≤ S32x200.size a) (offL : Fin 2 → Nat)
    (inbL : ∀ a, offL a + S1x16.size a ≤ S32x200.size a) : View.Piece (Elt F) S32x200 .f32 :=
  ⟨Rect.unit (s := S32x200) offS S1x16.size inbS, gpiece d L T6 I7 offL inbL (chk_range d L I7 hI7 _ _)⟩

/-- A piece loaded and stored at (k, c0): it agrees with the gathered weights, lies in row `k`, and covers the columns
    from `c0` to `c0 + 15`. -/
theorem pc_ok (k : Fin 32) (c0 : Nat) (offS : Fin 2 → Nat) (inbS : ∀ a, offS a + S1x16.size a ≤ S32x200.size a)
    (offL : Fin 2 → Nat) (inbL : ∀ a, offL a + S1x16.size a ≤ S32x200.size a)
    (hS : offS = ![k.val, c0]) (hL : offL = ![k.val, c0]) :
    (∀ x, (pc d L T6 I7 hI7 offS inbS offL inbL).2 x = T6 (entry (I7 ((pc d L T6 I7 hI7 offS inbS offL inbL).1.emb x))))
    ∧ (∀ y ∈ (pc d L T6 I7 hI7 offS inbS offL inbL).1.set, (y 0).val = k.val)
    ∧ (∀ c : Fin 200, c0 ≤ c.val → c.val < c0 + 16 → ValueIdx.ix2 k c ∈ (pc d L T6 I7 hI7 offS inbS offL inbL).1.set) := by
  subst hS hL
  refine ⟨fun x => gpiece_apply d L T6 I7 _ inbL _ x, fun y hy => ?_, fun c h1 h2 => ?_⟩
  · have h0 : k.val ≤ (y 0).val ∧ (y 0).val < k.val + 1 :=
      (Rect.mem_set_unit (s := S32x200) (off := ![k.val, c0]) (size := S1x16.size) (inb := inbS) (i := y)).1 hy (0 : Fin 2)
    omega
  · refine (Rect.mem_set_unit (s := S32x200) (off := ![k.val, c0]) (size := S1x16.size) (inb := inbS)
      (i := ValueIdx.ix2 k c)).2 fun a => ?_
    match a with
    | ⟨0, _⟩ => exact (show k.val ≤ k.val ∧ k.val < k.val + 1 from ⟨le_rfl, Nat.lt_succ_self _⟩)
    | ⟨1, _⟩ => exact (show c0 ≤ c.val ∧ c.val < c0 + 16 from ⟨h1, h2⟩)

end Gather

/-! ## The tile's rows of the output after the final copy -/

section Out

local notation "shV" => (Memref.whole Cert.KernelIdeal.cc0_scratch0 : Memref Cert.KernelIdeal.sig Kind.scVector Space.shared Cert.KernelIdeal.S100000 EltTy.f32)

variable (m : (ℓ : Loc nD τ sig) → Buf (Elt F) ℓ) (d : Dev nD) (L : grid0.Coords)

/-- Once all 32 rows of the output scratch hold the table (as the core's shared memory holds it) at the tile's index
    words (its rows of the index array), copying the scratch whole over the tile's rows of the output array leaves
    the gathered weights there: element (r, c) of the scratch lands on row (tile's first row + r), column c, which is
    where the tile's slice of the index array has its word (r, c). -/
theorem out_rows (f : Buf (Elt F) ((V d (cV L) (jV L)).loc cc0_scratch3))
    (hf : rowsDone d L (View.read (Elt F) (shV).view (tabSh m d (cV L))) (View.read (Elt F) (idxSl L).view (m (idxLoc d)))
      k0_t1_loop.trips f) :
    ∀ j ∈ (outSl L).view.set,
      ((outSl L).view.writes (Elt F) (m (outLoc d)) [⟨Rect.whole S32x200, View.read (Elt F) (oV).view f⟩]) j = gat m d j := by
  intro j hj
  obtain ⟨y, -, rfl⟩ := Finset.mem_map.mp hj
  obtain ⟨r, c, rfl⟩ : ∃ (r : Fin 32) (c : Fin 200), y = ValueIdx.ix2 r c := ⟨y 0, y 1, ValueIdx.eq_ix2 y⟩
  -- the copy writes the scratch's element (r, c) at the slice's place (r, c)
  have hw : ((outSl L).view.writes (Elt F) (m (outLoc d)) [⟨Rect.whole S32x200, View.read (Elt F) (oV).view f⟩])
      ((outSl L).view.emb (ValueIdx.ix2 r c)) = f (ValueIdx.ix2 r c) := by
    have e := View.read_writes_cons_emb (outSl L).view (m (outLoc d)) (Rect.whole S32x200) (View.read (Elt F) (oV).view f) []
      (ValueIdx.ix2 r c)
    rw [Rect.emb_whole_apply] at e
    exact e
  refine hw.trans ((hf r c (by rw [trips_eq]; exact r.isLt)).trans ?_)
  rfl

end Out

end Cert.KernelIdeal.Sc

end
-- ==== Proof.GatherRows.lean ====
/-
  One trip of the gather loop, at its own thirteen pieces.

  The trip's stores are at the offsets (k, 184), (k, 176), (k, 160), …, (k, 16), (k, 0) of the output scratch, last
  store first, each of the sixteen weights gathered at the index words loaded at the same offset of the index scratch.
  Every piece agrees with the gathered weights, lies in row k and covers sixteen columns; the twelve pieces at the
  multiples of 16 cover columns 0 … 191 and the one at 184 covers 184 … 199, so the row's 200 columns are covered and
  the row-filling step applies.
-/
import proofs.«206738_g15788299780114_cont_7to1_105_28_alg».proof.Proof.GatherPure

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "oV" => (Memref.whole Cert.KernelIdeal.cc0_scratch3 : Memref Cert.KernelIdeal.sig Kind.scVector Space.vmem Cert.KernelIdeal.S32x200 EltTy.f32)

variable [FloatOps F]

section Rows

variable (d : Dev nD) (L : grid0.Coords)
variable (T6 : Buf (Elt F) ((V d (cV L) (jV L)).loc cc0_scratch1)) (I7 : Buf (Elt F) ((V d (cV L) (jV L)).loc cc0_scratch2))
variable (hI7 : ∀ j, (I7 j).toNat < 100000)

/-- One trip of the loop: after its thirteen stores, one more row of the output scratch holds the gathered weights. -/
theorem trip_rows (k : Fin k0_t1_loop.trips) (f : Buf (Elt F) ((V d (cV L) (jV L)).loc cc0_scratch3))
    (hf : rowsDone d L T6 I7 k.val f) :
    rowsDone d L T6 I7 (k.val + 1) ((oV).view.writes (Elt F) f
      [pc d L T6 I7 hI7 (k0_off27 k) (k0_off27_inb k) (k0_off26 k) (k0_off26_inb k),
       pc d L T6 I7 hI7 (k0_off25 k) (k0_off25_inb k) (k0_off24 k) (k0_off24_inb k),
       pc d L T6 I7 hI7 (k0_off23 k) (k0_off23_inb k) (k0_off22 k) (k0_off22_inb k),
       pc d L T6 I7 hI7 (k0_off21 k) (k0_off21_inb k) (k0_off20 k) (k0_off20_inb k),
       pc d L T6 I7 hI7 (k0_off19 k) (k0_off19_inb k) (k0_off18 k) (k0_off18_inb k),
       pc d L T6 I7 hI7 (k0_off17 k) (k0_off17_inb k) (k0_off16 k) (k0_off16_inb k),
       pc d L T6 I7 hI7 (k0_off15 k) (k0_off15_inb k) (k0_off14 k) (k0_off14_inb k),
       pc d L T6 I7 hI7 (k0_off13 k) (k0_off13_inb k) (k0_off12 k) (k0_off12_inb k),
       pc d L T6 I7 hI7 (k0_off11 k) (k0_off11_inb k) (k0_off10 k) (k0_off10_inb k),
       pc d L T6 I7 hI7 (k0_off9 k) (k0_off9_inb k) (k0_off8 k) (k0_off8_inb k),
       pc d L T6 I7 hI7 (k0_off7 k) (k0_off7_inb k) (k0_off6 k) (k0_off6_inb k),
       pc d L T6 I7 hI7 (k0_off5 k) (k0_off5_inb k) (k0_off4 k) (k0_off4_inb k),
       pc d L T6 I7 hI7 (k0_off3 k) (k0_off3_inb k) (k0_off2 k) (k0_off2_inb k)]) := by
  have P27 := pc_ok d L T6 I7 hI7 (Fin.cast trips_eq k) 184 (k0_off27 k) (k0_off27_inb k) (k0_off26 k) (k0_off26_inb k) (k0_off27_eq k) (k0_off26_eq k)
  have P25 := pc_ok d L T6 I7 hI7 (Fin.cast trips_eq k) 176 (k0_off25 k) (k0_off25_inb k) (k0_off24 k) (k0_off24_inb k) (k0_off25_eq k) (k0_off24_eq k)
  have P23 := pc_ok d L T6 I7 hI7 (Fin.cast trips_eq k) 160 (k0_off23 k) (k0_off23_inb k) (k0_off22 k) (k0_off22_inb k) (k0_off23_eq k) (k0_off22_eq k)
  have P21 := pc_ok d L T6 I7 hI7 (Fin.cast trips_eq k) 144 (k0_off21 k) (k0_off21_inb k) (k0_off20 k) (k0_off20_inb k) (k0_off21_eq k) (k0_off20_eq k)
  have P19 := pc_ok d L T6 I7 hI7 (Fin.cast trips_eq k) 128 (k0_off19 k) (k0_off19_inb k) (k0_off18 k) (k0_off18_inb k) (k0_off19_eq k) (k0_off18_eq k)
  have P17 := pc_ok d L T6 I7 hI7 (Fin.cast trips_eq k) 112 (k0_off17 k) (k0_off17_inb k) (k0_off16 k) (k0_off16_inb k) (k0_off17_eq k) (k0_off16_eq k)
  have P15 := pc_ok d L T6 I7 hI7 (Fin.cast trips_eq k) 96 (k0_off15 k) (k0_off15_inb k) (k0_off14 k) (k0_off14_inb k) (k0_off15_eq k) (k0_off14_eq k)
  have P13 := pc_ok d L T6 I7 hI7 (Fin.cast trips_eq k) 80 (k0_off13 k) (k0_off13_inb k) (k0_off12 k) (k0_off12_inb k) (k0_off13_eq k) (k0_off12_eq k)
  have P11 := pc_ok d L T6 I7 hI7 (Fin.cast trips_eq k) 64 (k0_off11 k) (k0_off11_inb k) (k0_off10 k) (k0_off10_inb k) (k0_off11_eq k) (k0_off10_eq k)
  have P9 := pc_ok d L T6 I7 hI7 (Fin.cast trips_eq k) 48 (k0_off9 k) (k0_off9_inb k) (k0_off8 k) (k0_off8_inb k) (k0_off9_eq k) (k0_off8_eq k)
  have P7 := pc_ok d L T6 I7 hI7 (Fin.cast trips_eq k) 32 (k0_off7 k) (k0_off7_inb k) (k0_off6 k) (k0_off6_inb k) (k0_off7_eq k) (k0_off6_eq k)
  have P5 := pc_ok d L T6 I7 hI7 (Fin.cast trips_eq k) 16 (k0_off5 k) (k0_off5_inb k) (k0_off4 k) (k0_off4_inb k) (k0_off5_eq k) (k0_off4_eq k)
  have P3 := pc_ok d L T6 I7 hI7 (Fin.cast trips_eq k) 0 (k0_off3 k) (k0_off3_inb k) (k0_off2 k) (k0_off2_inb k) (k0_off3_eq k) (k0_off2_eq k)
  refine rows_step d L T6 I7 f (Fin.cast trips_eq k) hf _ ?_ ?_ ?_
  · intro p hp
    simp only [List.mem_cons, List.not_mem_nil, or_false] at hp
    rcases hp with rfl | rfl | rfl | rfl | rfl | rfl | rfl | rfl | rfl | rfl | rfl | rfl | rfl
    exacts [P27.1, P25.1, P23.1, P21.1, P19.1, P17.1, P15.1, P13.1, P11.1, P9.1, P7.1, P5.1, P3.1]
  · intro p hp
    simp only [List.mem_cons, List.not_mem_nil, or_false] at hp
    rcases hp with rfl | rfl | rfl | rfl | rfl | rfl | rfl | rfl | rfl | rfl | rfl | rfl | rfl
    exacts [P27.2.1, P25.2.1, P23.2.1, P21.2.1, P19.2.1, P17.2.1, P15.2.1, P13.2.1, P11.2.1, P9.2.1, P7.2.1, P5.2.1, P3.2.1]
  · intro c
    have hc := c.isLt
    have hcase : (0 ≤ c.val ∧ c.val < 16) ∨ (16 ≤ c.val ∧ c.val < 32) ∨ (32 ≤ c.val ∧ c.val < 48) ∨ (48 ≤ c.val ∧ c.val < 64) ∨ (64 ≤ c.val ∧ c.val < 80) ∨ (80 ≤ c.val ∧ c.val < 96) ∨ (96 ≤ c.val ∧ c.val < 112) ∨ (112 ≤ c.val ∧ c.val < 128) ∨ (128 ≤ c.val ∧ c.val < 144) ∨ (144 ≤ c.val ∧ c.val < 160) ∨ (160 ≤ c.val ∧ c.val < 176) ∨ (176 ≤ c.val ∧ c.val < 192) ∨ 192 ≤ c.val := by omega
    rcases hcase with h | h | h | h | h | h | h | h | h | h | h | h | h
    · exact ⟨_, by simp only [List.mem_cons, true_or, or_true], P3.2.2 c (by omega) (by omega)⟩
    · exact ⟨_, by simp only [List.mem_cons, true_or, or_true], P5.2.2 c (by omega) (by omega)⟩
    · exact ⟨_, by simp only [List.mem_cons, true_or, or_true], P7.2.2 c (by omega) (by omega)⟩
    · exact ⟨_, by simp only [List.mem_cons, true_or, or_true], P9.2.2 c (by omega) (by omega)⟩
    · exact ⟨_, by simp only [List.mem_cons, true_or, or_true], P11.2.2 c (by omega) (by omega)⟩
    · exact ⟨_, by simp only [List.mem_cons, true_or, or_true], P13.2.2 c (by omega) (by omega)⟩
    · exact ⟨_, by simp only [List.mem_cons, true_or, or_true], P15.2.2 c (by omega) (by omega)⟩
    · exact ⟨_, by simp only [List.mem_cons, true_or, or_true], P17.2.2 c (by omega) (by omega)⟩
    · exact ⟨_, by simp only [List.mem_cons, true_or, or_true], P19.2.2 c (by omega) (by omega)⟩
    · exact ⟨_, by simp only [List.mem_cons, true_or, or_true], P21.2.2 c (by omega) (by omega)⟩
    · exact ⟨_, by simp only [List.mem_cons, true_or, or_true], P23.2.2 c (by omega) (by omega)⟩
    · exact ⟨_, by simp only [List.mem_cons, true_or, or_true], P25.2.2 c (by omega) (by omega)⟩
    · exact ⟨_, by simp only [List.mem_cons, true_or, or_true], P27.2.2 c (by omega) (by omega)⟩

end Rows

end Cert.KernelIdeal.Sc

end
-- ==== Proof.ScTrip.lean ====
/-
  The loop of the gather kernel, one trip at a symbolic row: the executor runs the trip's loads, stores and index checks
  (each check holds because every word of the index scratch is below the table's extent), the thirteen indexed reads of
  the table scratch are taken by hand; what the trip leaves in the output scratch is the thirteen pieces written over
  what it held.
-/
import proofs.«206738_g15788299780114_cont_7to1_105_28_alg».proof.Proof.ScTile
import proofs.«206738_g15788299780114_cont_7to1_105_28_alg».proof.Proof.GatherRows

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.KernelIdeal.main_v0_scv : Memref Cert.KernelIdeal.sig Kind.scVector Space.hbm Cert.KernelIdeal.S100000 EltTy.f32)
local notation "idxV" => (Memref.whole Cert.KernelIdeal.main_arg0_scv : Memref Cert.KernelIdeal.sig Kind.scVector Space.hbm Cert.KernelIdeal.S1024x200 EltTy.i32)
local notation "outV" => (Memref.whole Cert.KernelIdeal.main_v1_scv : Memref Cert.KernelIdeal.sig Kind.scVector Space.hbm Cert.KernelIdeal.S1024x200 EltTy.f32)
local notation "shV" => (Memref.whole Cert.KernelIdeal.cc0_scratch0 : Memref Cert.KernelIdeal.sig Kind.scVector Space.shared Cert.KernelIdeal.S100000 EltTy.f32)
local notation "tV" => (Memref.whole Cert.KernelIdeal.cc0_scratch1 : Memref Cert.KernelIdeal.sig Kind.scVector Space.vmem Cert.KernelIdeal.S100000 EltTy.f32)
local notation "iV" => (Memref.whole Cert.KernelIdeal.cc0_scratch2 : Memref Cert.KernelIdeal.sig Kind.scVector Space.vmem Cert.KernelIdeal.S32x200 EltTy.i32)
local notation "oV" => (Memref.whole Cert.KernelIdeal.cc0_scratch3 : Memref Cert.KernelIdeal.sig Kind.scVector Space.vmem Cert.KernelIdeal.S32x200 EltTy.f32)

variable [FloatOps F]

section Tile

variable (d : Dev nD) (L : grid0.Coords)

set_option hygiene false in
/-- One indexed read of the table scratch (the load of the whole scratch it is made of), then the executor up to the next. -/
macro "gather_step" : tactic => `(tactic| (
  iapply (SparseCore.wp_vectorLoadIdx 𝒱₀ (V d (cV L) (jV L)) none Set.univ (base := tV) (S := Finset.univ) (q := fullShare) (Finset.subset_univ _)) $$ Ht
  iintro Ht
  sl_exec (disch := exact chk_range d L _ hI7 _ _)))

set_option maxHeartbeats 4000000 in
/-- One trip of the loop: row `k` of the output scratch is filled, thirteen pieces of sixteen lanes, each the table
    scratch read at the sixteen index words of the piece; the rows before it stay. -/
theorem trip (T6 : Buf (Elt F) ((V d (cV L) (jV L)).loc cc0_scratch1)) (I7 : Buf (Elt F) ((V d (cV L) (jV L)).loc cc0_scratch2))
    (hI7 : ∀ j, (I7 j).toNat < 100000) (k : Fin k0_t1_loop.trips) :
    inv d L T6 I7 k.val ⟨⟩
      ⊢ wp frame (wpE (defs₀ (F := F)) 𝒱₀ (V d (cV L) (jV L)) none) Set.univ
          (k0_t1_body L tabV (Memref.isWhole_whole _) idxV (Memref.isWhole_whole _) outV (Memref.isWhole_whole _) shV (Memref.isWhole_whole _)
            tV (Memref.isWhole_whole _) iV (Memref.isWhole_whole _) oV (Memref.isWhole_whole _) cc0_scratch4 cc0_scoped0 cc0_scoped1 cc0_scoped2 k ⟨⟩)
          (inv d L T6 I7 (k.val + 1)) := by
  unfold inv
  iintro ⟨Ht0, Hiv, %f, %hf, Hov⟩
  ihave Ht := (Entails.of_eq (pts_tV_acc (F := F) d L _).symm) $$ Ht0
  sl_exec (disch := exact chk_range d L _ hI7 _ _)
  gather_step
  gather_step
  gather_step
  gather_step
  gather_step
  gather_step
  gather_step
  gather_step
  gather_step
  gather_step
  gather_step
  gather_step
  gather_step
  sl_step
  isplitl [Ht]; · iapply (Entails.of_eq (pts_tV_acc (F := F) d L _)); iexact Ht
  isplitl [Hiv]; · iexact Hiv
  iexists _; isplitr
  swap; · iexact Hov
  ipureintro
  sl_unfold_run_names
  exact trip_rows d L T6 I7 hI7 k f hf

end Tile

end Cert.KernelIdeal.Sc

end
-- ==== Proof.ScBody.lean ====
/-
  One tile's task of the gather kernel, whole: the copy of the tile's rows of indices is started; tile 0 copies the table
  into its core's shared memory, splits what it holds of it into sixteen read shares and arrives at the barrier with
  them, each sibling arriving empty-handed; past the barrier every tile holds its read share, copies the shared table
  into its own memory, waits for its indices, runs the loop (every index word is below the table's extent, so every
  check passes) and copies the gathered rows out: its rows of the output then hold the table at its index words.
-/
import proofs.«206738_g15788299780114_cont_7to1_105_28_alg».proof.Proof.ScTrip
import proofs.«206738_g15788299780114_cont_7to1_105_28_alg».proof.Proof.GatherPure

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.KernelIdeal.main_v0_scv : Memref Cert.KernelIdeal.sig Kind.scVector Space.hbm Cert.KernelIdeal.S100000 EltTy.f32)
local notation "idxV" => (Memref.whole Cert.KernelIdeal.main_arg0_scv : Memref Cert.KernelIdeal.sig Kind.scVector Space.hbm Cert.KernelIdeal.S1024x200 EltTy.i32)
local notation "outV" => (Memref.whole Cert.KernelIdeal.main_v1_scv : Memref Cert.KernelIdeal.sig Kind.scVector Space.hbm Cert.KernelIdeal.S1024x200 EltTy.f32)
local notation "shV" => (Memref.whole Cert.KernelIdeal.cc0_scratch0 : Memref Cert.KernelIdeal.sig Kind.scVector Space.shared Cert.KernelIdeal.S100000 EltTy.f32)
local notation "tV" => (Memref.whole Cert.KernelIdeal.cc0_scratch1 : Memref Cert.KernelIdeal.sig Kind.scVector Space.vmem Cert.KernelIdeal.S100000 EltTy.f32)
local notation "iV" => (Memref.whole Cert.KernelIdeal.cc0_scratch2 : Memref Cert.KernelIdeal.sig Kind.scVector Space.vmem Cert.KernelIdeal.S32x200 EltTy.i32)
local notation "oV" => (Memref.whole Cert.KernelIdeal.cc0_scratch3 : Memref Cert.KernelIdeal.sig Kind.scVector Space.vmem Cert.KernelIdeal.S32x200 EltTy.f32)

variable [FloatOps F]

section Tile

variable (d : Dev nD) (L : grid0.Coords)

omit [FloatOps F] in
theorem cond_ne (n : Fin 16) (h : n.val ≠ 0) : ¬ (Scalar.cmpi .ne (Scalar.extui (Scalar.cmpi .eq (BitVec.ofNat 32 n.val) 0#32)) 0#32 = 1#1) := by
  revert n; decide

/-- A tile other than tile 0 arrives empty-handed: its duty in every sibling's round carries nothing. -/
theorem arrive_nz (h0 : (L 1).val ≠ 0) :
    iprop((bigSep Finset.univ fun j : Fin (grid0.bound 1) => reached EB (bcell d (cV L) (j.castLE hsub0)) 0)
        ∗ (bigSep Finset.univ fun j : Fin (grid0.bound 1) => dutyTok EB (bcell d (cV L) (j.castLE hsub0)) 0 (jV L).val))
      ⊢ (bigSep Finset.univ fun j : Fin (grid0.bound 1) => iprop(dutyTok EB (bcell d (cV L) (j.castLE hsub0)) 0 (jV L).val
          ∗ (bRd (F := F) m).payload (bcell d (cV L) (j.castLE hsub0)) 0 (jV L).val ∗ reached EB (bcell d (cV L) (j.castLE hsub0)) 0) : sProp 𝕄) := by
  rw [bigSep_sep', bigSep_sep']
  have hp : (bigSep Finset.univ fun j : Fin (grid0.bound 1) => (bRd (F := F) m).payload (bcell d (cV L) (j.castLE hsub0)) 0 (jV L).val) = (iprop(emp) : sProp 𝕄) := by
    rw [← bigSep_emp' (F := F) (Finset.univ : Finset (Fin (grid0.bound 1)))]
    exact bigSep_congr fun j _ => if_neg h0
  rw [hp]
  iintro ⟨Hr, Ht⟩
  isplitl [Ht]; · iexact Ht
  isplitr; · iempintro
  iexact Hr

/-- What a tile reads on leaving the barrier: among its round's payloads, tile 0's — its read share of the shared table. -/
theorem leave_share :
    (bigSep ((bRd (F := F) m).duties (bcell d (cV L) (jV L)) 0 \ ∅) fun n => (bRd (F := F) m).payload (bcell d (cV L) (jV L)) 0 n)
      ⊢ shShare m d (cV L) (jL L) := by
  rw [Finset.sdiff_empty, bRd_duties₀]
  have hmem : (0 : ℕ) ∈ (Finset.univ : Finset (Fin τ.nSub)).image Fin.val :=
    Finset.mem_image.mpr ⟨(⟨0, by decide⟩ : Fin τ.nSub), Finset.mem_univ _, rfl⟩
  exact (bigSep_elim (Φ := fun n => (bRd (F := F) m).payload (bcell d (cV L) (jV L)) 0 n) hmem).trans
    (Entails.of_eq (by
      show (if (0 : ℕ) = 0 then shShare m d (cV L) (Fin.cast nSub_eq (jV L)) else iprop(emp)) = shShare m d (cV L) (jL L)
      exact if_pos rfl))

omit [FloatOps F] in
theorem cond_eq (n : Fin 16) (h : n.val = 0) : Scalar.cmpi .ne (Scalar.extui (Scalar.cmpi .eq (BitVec.ofNat 32 n.val) 0#32)) 0#32 = 1#1 := by
  revert n; decide

/-- Tile 0 arrives with the sixteen read shares of the shared table: its duty in sibling `j`'s round carries share `j`. -/
theorem arrive_z (h0 : (L 1).val = 0) :
    iprop((bigSep Finset.univ fun j : Fin (grid0.bound 1) => reached EB (bcell d (cV L) (j.castLE hsub0)) 0)
        ∗ (bigSep Finset.univ fun j : Fin (grid0.bound 1) => dutyTok EB (bcell d (cV L) (j.castLE hsub0)) 0 (jV L).val)
        ∗ (bigSep Finset.univ fun i : Fin 16 => shLoc d (cV L) ↦{shareTok fullShare 16 i} tabSh m d (cV L)))
      ⊢ (bigSep Finset.univ fun j : Fin (grid0.bound 1) => iprop(dutyTok EB (bcell d (cV L) (j.castLE hsub0)) 0 (jV L).val
          ∗ (bRd (F := F) m).payload (bcell d (cV L) (j.castLE hsub0)) 0 (jV L).val ∗ reached EB (bcell d (cV L) (j.castLE hsub0)) 0) : sProp 𝕄) := by
  rw [bigSep_sep', bigSep_sep']
  have hp : (bigSep Finset.univ fun j : Fin (grid0.bound 1) => (bRd (F := F) m).payload (bcell d (cV L) (j.castLE hsub0)) 0 (jV L).val)
      = (bigSep Finset.univ fun i : Fin 16 => shLoc d (cV L) ↦{shareTok fullShare 16 i} tabSh m d (cV L) : sProp 𝕄) :=
    bigSep_congr fun j _ => if_pos h0
  rw [hp]
  iintro ⟨Hr, Ht, Hs⟩
  isplitl [Ht]; · iexact Ht
  isplitl [Hs]; · iexact Hs
  iexact Hr

omit [FloatOps F] in
/-- The table read out of HBM is the contents the shared memory's read shares are stated at. -/
theorem pts_sh_tab (q : PosShare TreeShare) :
    ((shLoc d (cV L) ↦{q} View.read (Elt F) (tabV).view (tab m d) : sProp 𝕄)) = (shLoc d (cV L) ↦{q} tabSh m d (cV L)) := rfl

set_option maxHeartbeats 4000000 in
/-- The task on a tile other than tile 0. -/
theorem tile_body_nz (hF : (K (F := F)).Facts) (hin : ∀ j, (m (idxLoc d) j).toNat < 100000) (h0 : (L 1).val ≠ 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (idxBlk m d (wL L) ∗ outBlk d (wL L) (m (outLoc d))
            ∗ if (L 1).val = 0 then iprop(tabShare m d (cL L) ∗ ∃ f, shLoc d (cV L) ↦{fullShare} f) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L tabV (Memref.isWhole_whole _) idxV (Memref.isWhole_whole _) outV (Memref.isWhole_whole _) shV (Memref.isWhole_whole _)
            tV (Memref.isWhole_whole _) iV (Memref.isWhole_whole _) oV (Memref.isWhole_whole _) cc0_scratch4 cc0_scoped0 cc0_scoped1 cc0_scoped2)
          fun _ => iprop((idxBlk m d (wL L) ∗ outBlk d (wL L) (gat m d) ∗ shShare m d (cV L) (jL L)
              ∗ if (L 1).val = 0 then iprop(tabShare m d (cL L) ∗ shLoc d (cV L) ↦{shareDrop fullShare 16} tabSh m d (cV L)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hc := cond_ne (jL L) h0
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold bkit
  rw [if_neg h0, if_neg h0]
  iintro ⟨#Hlv, ⟨⟨%κ, #Hinv⟩, Htoks, #Hreached, Hat, Hcred⟩, ⟨Hi, Ho, -⟩, ⟨⟨%ft, Ht⟩, ⟨%fi, Hiv⟩, ⟨%fo, Hov⟩, Hbufs⟩, ⟨HsemI, HsemA, HsemB, HsemC, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_idxSl (F := F) d L _).symm) $$ Hi
  ihave Ho' := (Entails.of_eq (pts_outSl (F := F) d L _).symm) $$ Ho
  ihave Ht' := (Entails.of_eq (pts_tV (F := F) d L _).symm) $$ Ht
  ihave Hiv' := (Entails.of_eq (pts_iV (F := F) d L _).symm) $$ Hiv
  ihave Hov' := (Entails.of_eq (pts_oV (F := F) d L _).symm) $$ Hov
  sl_exec
  -- the barrier
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]
    · iapply (arrive_nz m d L h0)
      isplitr; · iexact Hreached
      iexact Htoks
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hpay⟩
  ihave Hsh := (leave_share m d L) $$ Hpay
  ihave Hsh' := (Entails.of_eq (pts_shV (F := F) d L _ _).symm) $$ Hsh
  sl_exec
  rw [show ∀ f w, View.write (Elt F) (tV).view f w Finset.univ = w from fun f w => View.write_whole_univ _ f w,
    show ∀ f w, View.write (Elt F) (iV).view f w Finset.univ = w from fun f w => View.write_whole_univ _ f w]
  sl_unfold_run_names
  have hI7 : ∀ j, ((View.read (Elt F) (idxSl L).view (m (idxLoc d)) : Buf (Elt F) ((V d (cV L) (jV L)).loc cc0_scratch2)) j).toNat < 100000 :=
    fun j => hin _
  sl_for (inv d L (View.read (Elt F) (shV).view (tabSh m d (cV L))) (View.read (Elt F) (idxSl L).view (m (idxLoc d)))) $$ [Ht' Hiv' Hov']
  case region =>
    intro k acc
    exact trip d L _ _ hI7 k
  · unfold inv
    isplitl [Ht']; · iexact Ht'
    isplitl [Hiv']; · iexact Hiv'
    iexists fo; isplitr
    · ipureintro; intro r c hr; exact absurd hr (Nat.not_lt_zero _)
    · iexact Hov'
  iintro %_ HI
  unfold inv
  icases HI with ⟨Ht', Hiv', %f, %hf, Hov'⟩
  sl_exec
  sl_step
  isplitl [Hi' Ho' Hsh']
  · isplitl [Hi']; · iapply (Entails.of_eq (pts_idxSl (F := F) d L _)); iexact Hi'
    isplitl [Ho']
    · iapply (Entails.of_eq (pts_outSl (F := F) d L _))
      iapply (Entails.of_eq (pointsTo_congr (out_rows m d L f hf)))
      iexact Ho'
    isplitl [Hsh']
    · iapply (Entails.of_eq (pts_shV (F := F) d L _ _)); iexact Hsh'
    iempintro
  isplitl [Ht' Hiv' Hov' Hbufs]
  · isplitl [Ht']; · iexists _; iexact Ht'
    isplitl [Hiv']; · iexists _; iexact Hiv'
    isplitl [Hov']; · iexists _; iexact Hov'
    iexact Hbufs
  isplitl [HsemI HsemA HsemB HsemC Hsems]
  · isplitl [HsemI]; · iexact HsemI
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  exact .inl hp

set_option maxHeartbeats 4000000 in
/-- The task on tile 0. -/
theorem tile_body_z (hF : (K (F := F)).Facts) (hin : ∀ j, (m (idxLoc d) j).toNat < 100000) (h0 : (L 1).val = 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (idxBlk m d (wL L) ∗ outBlk d (wL L) (m (outLoc d))
            ∗ if (L 1).val = 0 then iprop(tabShare m d (cL L) ∗ ∃ f, shLoc d (cV L) ↦{fullShare} f) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L tabV (Memref.isWhole_whole _) idxV (Memref.isWhole_whole _) outV (Memref.isWhole_whole _) shV (Memref.isWhole_whole _)
            tV (Memref.isWhole_whole _) iV (Memref.isWhole_whole _) oV (Memref.isWhole_whole _) cc0_scratch4 cc0_scoped0 cc0_scoped1 cc0_scoped2)
          fun _ => iprop((idxBlk m d (wL L) ∗ outBlk d (wL L) (gat m d) ∗ shShare m d (cV L) (jL L)
              ∗ if (L 1).val = 0 then iprop(tabShare m d (cL L) ∗ shLoc d (cV L) ↦{shareDrop fullShare 16} tabSh m d (cV L)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hc := cond_eq (jL L) h0
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold bkit
  rw [if_pos h0, if_pos h0]
  iintro ⟨#Hlv, ⟨⟨%κ, #Hinv⟩, Htoks, #Hreached, Hat, Hcred⟩, ⟨Hi, Ho, Htab, ⟨%fsh, Hshw⟩⟩, ⟨⟨%ft, Ht⟩, ⟨%fi, Hiv⟩, ⟨%fo, Hov⟩, Hbufs⟩, ⟨HsemI, HsemA, HsemB, HsemC, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_idxSl (F := F) d L _).symm) $$ Hi
  ihave Ho' := (Entails.of_eq (pts_outSl (F := F) d L _).symm) $$ Ho
  ihave Ht' := (Entails.of_eq (pts_tV (F := F) d L _).symm) $$ Ht
  ihave Hiv' := (Entails.of_eq (pts_iV (F := F) d L _).symm) $$ Hiv
  ihave Hov' := (Entails.of_eq (pts_oV (F := F) d L _).symm) $$ Hov
  ihave Htab' := (Entails.of_eq (pts_tabV (F := F) d L _ _).symm) $$ Htab
  ihave Hshw' := (Entails.of_eq (pts_shV (F := F) d L _ _).symm) $$ Hshw
  sl_exec
  -- the shared memory now holds the table: split it into the sixteen read shares
  rw [show ∀ f w, View.write (Elt F) (shV).view f w Finset.univ = w from fun f w => View.write_whole_univ _ f w]
  sl_unfold_run_names
  ihave Hshw2 := (Entails.of_eq (pts_shV (F := F) d L fullShare _)) $$ Hshw'
  ihave Hshw3 := (Entails.of_eq (pts_sh_tab (F := F) m d L fullShare)) $$ Hshw2
  ihave Hsp := (pointsTo_toks_split (ℓ := shLoc d (cV L)) (S := Finset.univ) (f := tabSh m d (cV L)) fullShare 16) $$ Hshw3
  icases Hsp with ⟨Hdrop, Hshares⟩
  -- the barrier
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat Hshares]
  · isplitr; · iexact Hinv
    isplitl [HO]; · iexact HO
    isplitl [Htoks Hshares]
    · iapply (arrive_z m d L h0)
      isplitr; · iexact Hreached
      isplitl [Htoks]; · iexact Htoks
      iexact Hshares
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hpay⟩
  ihave Hsh := (leave_share m d L) $$ Hpay
  ihave Hsh' := (Entails.of_eq (pts_shV (F := F) d L _ _).symm) $$ Hsh
  sl_exec
  rw [show ∀ f w, View.write (Elt F) (tV).view f w Finset.univ = w from fun f w => View.write_whole_univ _ f w,
    show ∀ f w, View.write (Elt F) (iV).view f w Finset.univ = w from fun f w => View.write_whole_univ _ f w]
  sl_unfold_run_names
  have hI7 : ∀ j, ((View.read (Elt F) (idxSl L).view (m (idxLoc d)) : Buf (Elt F) ((V d (cV L) (jV L)).loc cc0_scratch2)) j).toNat < 100000 :=
    fun j => hin _
  sl_for (inv d L (View.read (Elt F) (shV).view (tabSh m d (cV L))) (View.read (Elt F) (idxSl L).view (m (idxLoc d)))) $$ [Ht' Hiv' Hov']
  case region =>
    intro k acc
    exact trip d L _ _ hI7 k
  · unfold inv
    isplitl [Ht']; · iexact Ht'
    isplitl [Hiv']; · iexact Hiv'
    iexists fo; isplitr
    · ipureintro; intro r c hr; exact absurd hr (Nat.not_lt_zero _)
    · iexact Hov'
  iintro %_ HI
  unfold inv
  icases HI with ⟨Ht', Hiv', %f, %hf, Hov'⟩
  sl_exec
  sl_step
  isplitl [Hi' Ho' Hsh' Htab' Hdrop]
  · isplitl [Hi']; · iapply (Entails.of_eq (pts_idxSl (F := F) d L _)); iexact Hi'
    isplitl [Ho']
    · iapply (Entails.of_eq (pts_outSl (F := F) d L _))
      iapply (Entails.of_eq (pointsTo_congr (out_rows m d L f hf)))
      iexact Ho'
    isplitl [Hsh']
    · iapply (Entails.of_eq (pts_shV (F := F) d L _ _)); iexact Hsh'
    isplitl [Htab']
    · iapply (Entails.of_eq (pts_tabV (F := F) d L _ _)); iexact Htab'
    iexact Hdrop
  isplitl [Ht' Hiv' Hov' Hbufs]
  · isplitl [Ht']; · iexists _; iexact Ht'
    isplitl [Hiv']; · iexists _; iexact Hiv'
    isplitl [Hov']; · iexists _; iexact Hov'
    iexact Hbufs
  isplitl [HsemI HsemA HsemB HsemC Hsems]
  · isplitl [HsemI]; · iexact HsemI
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

/-- The task at any tile: tile 0's way or the others'. -/
theorem tile_body (hF : (K (F := F)).Facts) (hin : ∀ j, (m (idxLoc d) j).toNat < 100000) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (idxBlk m d (wL L) ∗ outBlk d (wL L) (m (outLoc d))
            ∗ if (L 1).val = 0 then iprop(tabShare m d (cL L) ∗ ∃ f, shLoc d (cV L) ↦{fullShare} f) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L tabV (Memref.isWhole_whole _) idxV (Memref.isWhole_whole _) outV (Memref.isWhole_whole _) shV (Memref.isWhole_whole _)
            tV (Memref.isWhole_whole _) iV (Memref.isWhole_whole _) oV (Memref.isWhole_whole _) cc0_scratch4 cc0_scoped0 cc0_scoped1 cc0_scoped2)
          fun _ => iprop((idxBlk m d (wL L) ∗ outBlk d (wL L) (gat m d) ∗ shShare m d (cV L) (jL L)
              ∗ if (L 1).val = 0 then iprop(tabShare m d (cL L) ∗ shLoc d (cV L) ↦{shareDrop fullShare 16} tabSh m d (cV L)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h0 : (L 1).val = 0
  · exact tile_body_z m d L hF hin h0 O W hO hOlev
  · exact tile_body_nz m d L hF hin h0 O W hO hOlev

end Tile

/-! ## The obligation -/

/-- What the proof asks of the launch memory: every index word names a row of the table. -/
def PreOK : Prop := ∀ (d : Dev nD) j, (m (idxLoc d) j).toNat < 100000

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tabV (Memref.isWhole_whole _) idxV (Memref.isWhole_whole _) outV (Memref.isWhole_whole _) shV (Memref.isWhole_whole _)
          tV (Memref.isWhole_whole _) iV (Memref.isWhole_whole _) oV (Memref.isWhole_whole _) cc0_scratch4 cc0_scoped0 cc0_scoped1 cc0_scoped2) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hpre d) O W hO hOlev

end Cert.KernelIdeal.Sc

end
-- ==== Proof.ScSplit.lean ====
/-
  How the gather call's operands are dealt: the index array and the output split into the 32 tiles' blocks of rows
  (numbered by core and tile), the table in HBM into one read share per core, and each core's operands into its sixteen
  tasks'; at the end the tasks' read shares of the core's shared memory rejoin into the whole.
-/
import proofs.«206738_g15788299780114_cont_7to1_105_28_alg».proof.Proof.ScSetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.KernelIdeal.main_v0_scv : Memref Cert.KernelIdeal.sig Kind.scVector Space.hbm Cert.KernelIdeal.S100000 EltTy.f32)
local notation "idxV" => (Memref.whole Cert.KernelIdeal.main_arg0_scv : Memref Cert.KernelIdeal.sig Kind.scVector Space.hbm Cert.KernelIdeal.S1024x200 EltTy.i32)
local notation "outV" => (Memref.whole Cert.KernelIdeal.main_v1_scv : Memref Cert.KernelIdeal.sig Kind.scVector Space.hbm Cert.KernelIdeal.S1024x200 EltTy.f32)
local notation "shV" => (Memref.whole Cert.KernelIdeal.cc0_scratch0 : Memref Cert.KernelIdeal.sig Kind.scVector Space.shared Cert.KernelIdeal.S100000 EltTy.f32)
local notation "tV" => (Memref.whole Cert.KernelIdeal.cc0_scratch1 : Memref Cert.KernelIdeal.sig Kind.scVector Space.vmem Cert.KernelIdeal.S100000 EltTy.f32)
local notation "iV" => (Memref.whole Cert.KernelIdeal.cc0_scratch2 : Memref Cert.KernelIdeal.sig Kind.scVector Space.vmem Cert.KernelIdeal.S32x200 EltTy.i32)
local notation "oV" => (Memref.whole Cert.KernelIdeal.cc0_scratch3 : Memref Cert.KernelIdeal.sig Kind.scVector Space.vmem Cert.KernelIdeal.S32x200 EltTy.f32)

variable [FloatOps F]

/-! ## The 32 blocks of rows partition the arrays -/

omit [FloatOps F] in
theorem blkSet_eq (w : Fin 32) : blkSet w = (blk w).set := by
  show ((View.whole (main_arg0_scv : Ref sig .scVector)).slice (blk w)).set = _
  rw [View.set_slice]; exact Finset.map_refl
omit [FloatOps F] in
theorem blks_disjoint : ∀ i ∈ (Finset.univ : Finset (Fin 32)), ∀ j ∈ (Finset.univ : Finset (Fin 32)), i ≠ j → Disjoint (blkSet i) (blkSet j) :=
  fun i _ j _ h => by rw [blkSet_eq, blkSet_eq]; exact Rect.part_disjoint hdiv h
omit [FloatOps F] in
theorem blks_cover : (Finset.univ : Finset (Fin 32)).biUnion blkSet = Finset.univ :=
  (Finset.biUnion_congr rfl fun i _ => blkSet_eq i).trans (Rect.biUnion_part hdiv)

omit [FloatOps F] in
theorem idx_blks (d : Dev nD) (f : Buf (Elt F) (idxLoc d)) :
    (idxLoc d ↦{fullShare} f : sProp 𝕄) = bigSep Finset.univ fun w : Fin 32 => idxLoc d ↦[blkSet w]{fullShare} f := by
  rw [← pointsTo_biUnion Finset.univ (ℓ := idxLoc d) blkSet blks_disjoint, blks_cover]; try rfl
omit [FloatOps F] in
theorem out_blks (d : Dev nD) (f : Buf (Elt F) (outLoc d)) :
    (outLoc d ↦{fullShare} f : sProp 𝕄) = bigSep Finset.univ fun w : Fin 32 => outLoc d ↦[blkSet w]{fullShare} f := by
  rw [← pointsTo_biUnion Finset.univ (ℓ := outLoc d) blkSet blks_disjoint, blks_cover]; try rfl

/-- The blocks, numbered by core and tile. -/
def widEquiv : Fin 2 × Fin 16 ≃ Fin 32 where
  toFun p := wid p.1 p.2
  invFun w := (⟨w.val % 2, Nat.mod_lt _ (by decide)⟩, ⟨w.val / 2, by omega⟩)
  left_inv := by rintro ⟨c, s⟩; ext <;> simp [wid] <;> omega
  right_inv := by intro w; ext; simp [wid]; omega

omit [FloatOps F] in
theorem blks_by_tile (Φ : Fin 32 → sProp 𝕄) :
    bigSep Finset.univ Φ = bigSep Finset.univ fun c : Fin 2 => bigSep Finset.univ fun s : Fin 16 => Φ (wid c s) :=
  (bigSep_univ_equiv widEquiv Φ).trans (bigSep_univ_prod fun p : Fin 2 × Fin 16 => Φ (widEquiv p))

/-! ## What only tile 0 carries -/

omit [FloatOps F] in
theorem zero_mem : (⟨0, by decide⟩ : Fin 16) ∈ (Finset.univ : Finset (Fin 16)) := Finset.mem_univ _

omit [FloatOps F] in
/-- A resource is the family that is it at tile 0 and nothing elsewhere. -/
theorem extra_intro (X : sProp 𝕄) : X ⊢ bigSep Finset.univ fun i : Fin 16 => if i.val = 0 then X else iprop(emp) := by
  rw [show (Finset.univ : Finset (Fin 16)) = insert 0 (Finset.univ.erase 0) from (Finset.insert_erase (Finset.mem_univ _)).symm,
    SparseCore.bigSep_insert' (Finset.notMem_erase _ _)]
  have h0 : (if ((0 : Fin 16).val = 0) then X else iprop(emp)) = X := if_pos rfl
  have he : (bigSep ((Finset.univ : Finset (Fin 16)).erase 0) fun i : Fin 16 => if i.val = 0 then X else iprop(emp))
      = bigSep ((Finset.univ : Finset (Fin 16)).erase 0) fun _ => (iprop(emp) : sProp 𝕄) :=
    bigSep_congr fun i hi => if_neg (fun h => (Finset.mem_erase.mp hi).1 (Fin.ext h))
  rw [h0, he, bigSep_emp']
  iintro H
  isplitl [H]
  · iexact H
  iempintro
omit [FloatOps F] in
theorem extra_elim (X : sProp 𝕄) : (bigSep Finset.univ fun i : Fin 16 => if i.val = 0 then X else iprop(emp)) ⊢ X := by
  rw [show (Finset.univ : Finset (Fin 16)) = insert 0 (Finset.univ.erase 0) from (Finset.insert_erase (Finset.mem_univ _)).symm,
    SparseCore.bigSep_insert' (Finset.notMem_erase _ _)]
  have h0 : (if ((0 : Fin 16).val = 0) then X else iprop(emp)) = X := if_pos rfl
  rw [h0]
  iintro ⟨H, -⟩
  iexact H

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- A core's operands split into its sixteen tasks' (tile 0 also taking the core's read share of the table and the
    shared memory whole), and the tasks' results gather: the sixteen read shares of the shared memory and the rest of
    it rejoin. -/
theorem vecSplit : (K (F := F)).VecSplit (P m) 0 := by
  intro d c
  show iprop(iprop((bigSep Finset.univ fun i : Fin 16 => iprop(idxBlk m d (wid (c2 c) i) ∗ outBlk d (wid (c2 c) i) (m (outLoc d)))) ∗ tabShare m d (c2 c))
        ∗ ownBufs (S d (coreOf c)))
    ⊢ |={Set.univ}=> iprop((bigSep Finset.univ fun i : Fin 16 => iprop(idxBlk m d (wid (c2 c) i) ∗ outBlk d (wid (c2 c) i) (m (outLoc d))
            ∗ if i.val = 0 then iprop(tabShare m d (c2 c) ∗ ∃ f, shLoc d (coreOf c) ↦{fullShare} f) else iprop(emp)))
        ∗ ((bigSep Finset.univ fun i : Fin 16 => iprop(idxBlk m d (wid (c2 c) i) ∗ outBlk d (wid (c2 c) i) (gat m d) ∗ shShare m d (coreOf c) i
              ∗ if i.val = 0 then iprop(tabShare m d (c2 c) ∗ shLoc d (coreOf c) ↦{shareDrop fullShare 16} tabSh m d (coreOf c)) else iprop(emp)))
          -∗ iprop(iprop((bigSep Finset.univ fun i : Fin 16 => iprop(idxBlk m d (wid (c2 c) i) ∗ outBlk d (wid (c2 c) i) (gat m d))) ∗ tabShare m d (c2 c))
            ∗ ownBufs (S d (coreOf c)))))
  rw [ownBufs_S]
  rw [bigSep_sep', bigSep_sep', bigSep_sep', bigSep_sep', bigSep_sep', bigSep_sep', bigSep_sep']
  iintro ⟨⟨⟨Hi, Ho⟩, Htab⟩, Hsh, Hrest⟩; imodintro
  isplitl [Hi Ho Htab Hsh]
  · isplitl [Hi]; · iexact Hi
    isplitl [Ho]; · iexact Ho
    iapply (extra_intro (F := F) _)
    isplitl [Htab]; · iexact Htab
    iexact Hsh
  iintro ⟨Hi, Ho, Hshares, Hx⟩
  ihave Hx' := (extra_elim (F := F) _) $$ Hx
  icases Hx' with ⟨Htab, Hdrop⟩
  isplitl [Hi Ho Htab]
  · isplitl [Hi Ho]
    · isplitl [Hi]; · iexact Hi
      iexact Ho
    iexact Htab
  isplitl [Hdrop Hshares]
  · iexists tabSh m d (coreOf c)
    iapply (pointsTo_toks_join (ℓ := shLoc d (coreOf c)) (S := Finset.univ) (f := tabSh m d (coreOf c)) fullShare 16)
    isplitl [Hdrop]; · iexact Hdrop
    iexact Hshares
  iexact Hrest

end Cert.KernelIdeal.Sc

end
-- ==== Proof.ScFund.lean ====
/-
  The launch element of the gather program's ghost state: the handshakes' rounds, the barrier cells' rounds (every
  tile's barrier semaphore a cell with one round of sixteen unit duties; the cells' invariants are allocated here for
  all tiles at once and each tile is dealt its kit: its tokens, its position, the credit for its own round) and the
  rounds of the staging cells of the TensorCore's pipeline, handed to @main.
-/
import proofs.«206738_g15788299780114_cont_7to1_105_28_alg».proof.Proof.ScSetup
import Idealize.ShloMosaic.Lib.Pipeline.Sound

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.KernelIdeal.main_v0_scv : Memref Cert.KernelIdeal.sig Kind.scVector Space.hbm Cert.KernelIdeal.S100000 EltTy.f32)
local notation "idxV" => (Memref.whole Cert.KernelIdeal.main_arg0_scv : Memref Cert.KernelIdeal.sig Kind.scVector Space.hbm Cert.KernelIdeal.S1024x200 EltTy.i32)
local notation "outV" => (Memref.whole Cert.KernelIdeal.main_v1_scv : Memref Cert.KernelIdeal.sig Kind.scVector Space.hbm Cert.KernelIdeal.S1024x200 EltTy.f32)
local notation "shV" => (Memref.whole Cert.KernelIdeal.cc0_scratch0 : Memref Cert.KernelIdeal.sig Kind.scVector Space.shared Cert.KernelIdeal.S100000 EltTy.f32)
local notation "tV" => (Memref.whole Cert.KernelIdeal.cc0_scratch1 : Memref Cert.KernelIdeal.sig Kind.scVector Space.vmem Cert.KernelIdeal.S100000 EltTy.f32)
local notation "iV" => (Memref.whole Cert.KernelIdeal.cc0_scratch2 : Memref Cert.KernelIdeal.sig Kind.scVector Space.vmem Cert.KernelIdeal.S32x200 EltTy.i32)
local notation "oV" => (Memref.whole Cert.KernelIdeal.cc0_scratch3 : Memref Cert.KernelIdeal.sig Kind.scVector Space.vmem Cert.KernelIdeal.S32x200 EltTy.f32)

variable [FloatOps F]

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a core. -/
def bToks : Finset (GSem nD τ sig × ℕ × ℕ) :=
  Finset.univ.image fun x : DCI × Fin (grid0.bound 1) => (bcell x.1.1 x.1.2.1 (x.2.castLE hsub0), 0, x.1.2.2.val)
/-- The launch element: the handshakes' rounds, the barrier cells' rounds, the pipeline's staging cells' rounds, no counters. -/
def u₀ : UU := (initOf (K (F := F)).hsCells (K (F := F)).hsToks, (initOf bCells bToks,
  (initOf (Pipeline.cells (nD := nD) (τ := τ) cfgs Gen.cellOf_inj) (Pipeline.launchToks (nD := nD) (τ := τ) cfgs Gen.cellOf_inj), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The launch element splits into its three libraries' elements. -/
theorem ownU_split (a : UH) (b : UB) (c : UP) : (ownU ((a, (b, (c, 1))) : UU) : sProp 𝕄) ⊢ iprop(BI.own (EH a) ∗ BI.own (EB b) ∗ BI.own (EP c)) := by
  iintro H
  ihave H1 := (ownU_pair (nD := nD) (τ := τ) (sig := sig) (Ix := HIx 1) (Val := Elt F) (Name := ℕ) (Lvl := ℕ) a (b, (c, (1 : Counters)))) $$ H
  icases H1 with ⟨Ha, Hr⟩
  ihave H2 := (own_pair_emb (embR : Emb (UB × (UP × Counters)) (MT nD τ sig (HIx 1) (Elt F) ℕ UU ℕ)) b (c, (1 : Counters))) $$ Hr
  icases H2 with ⟨Hb, Hr2⟩
  ihave H3 := (own_pair_emb ((Emb.inr : Emb (UP × Counters) (UB × (UP × Counters))).trans (embR : Emb (UB × (UP × Counters)) (MT nD τ sig (HIx 1) (Elt F) ℕ UU ℕ))) c (1 : Counters)) $$ Hr2
  icases H3 with ⟨Hc, -⟩
  isplitl [Ha]; · iexact Ha
  isplitl [Hb]; · iexact Hb
  iexact Hc

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' arrivals, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- What @main on device `d`'s TensorCore starts from, beyond its arrays: the pipeline's staging cells' ghost state. -/
def G (d : Dev nD) : sProp 𝕄 :=
  iprop((bigSep Finset.univ fun p : Fin 1 => Pipeline.cellsGhost (nD := nD) (τ := τ) cfgs EP p d)
    ∗ bigSep Finset.univ fun p : Fin 1 => (Pipeline.toksInit (nD := nD) (τ := τ) cfgs EP p d : sProp 𝕄))

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P m).x q thr) : sProp 𝕄) := by
  unfold u₀
  iintro ⟨Hu, Hcred, Hfree⟩
  ihave H := (ownU_split (F := F) _ _ _) $$ Hu
  icases H with ⟨HH, HB, HP⟩
  imod (Rounds.fund EB (bRd (F := F) m) bCells bToks) $$ HB with ⟨Hst, #Hr, Hat, Htok⟩
  imod (Pipeline.fund_ghost (nD := nD) (τ := τ) cfgs EP Gen.cellOf_inj) $$ HP with ⟨Hcg, Hti⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Hti]
  · unfold G; rw [bigSep_sep']
    isplitl [Hcg]; · iexact Hcg
    iexact Hti
  iapply (kits_deal m)
  isplitr
  · isplitl; · iexists κ; iexact Hinv'
    iexact Hr'
  isplitl [Hat']; · iexact Hat'
  isplitl [Htok']; · iexact Htok'
  iexact Hcred'

end Cert.KernelIdeal.Sc

end
-- ==== Proof.PoolBody.lean ====
/-
  The pooling body on one block: it reads three whole staging buffers (the gathered weights, the mask, the values
  of 128 rows), computes the pooled block as one pure function of them, reads the output buffer and overwrites
  the whole of it. So whatever the output buffer held, afterwards it holds the payload of the three inputs, and
  the inputs' buffers are as they were.
-/
import proofs.«206738_g15788299780114_cont_7to1_105_28_alg».proof.Proof.ScSetup
import Idealize.ShloMosaic.Lib.Pipeline.FrameBody
import Idealize.ShloMosaic.Lib.Ring
import Idealize.ShloMosaic.Lib.Tactic

noncomputable section

namespace Cert.KernelIdeal.Pool

open Cert.KernelIdeal Cert.KernelIdeal.Gen Cert.KernelIdeal.Sc

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig (HIx 1) (Elt F) ℕ UU ℕ

/-! ## The body's accesses: each buffer whole -/

abbrev rW : Rect S128x200 := Rect.unit (s := S128x200) ![0, 0] S128x200.size inb_S128x200_S128x200_0_0
abbrev rX : Rect S128x200x128 := Rect.unit (s := S128x200x128) ![0, 0, 0] S128x200x128.size inb_S128x200x128_S128x200x128_0_0_0
abbrev rO : Rect S128x128 := Rect.unit (s := S128x128) ![0, 0] S128x128.size inb_S128x128_S128x128_0_0

/-- What the output buffer holds after the body, from the three input buffers: its one store, of the payload. -/
def outBlk (x0 : Vec F S128x200 .f32) (x1 : Vec F S128x200 .f32) (x2 : Vec F S128x200x128 .f32) : Vec F S128x128 .f32 :=
  View.canon [⟨rO, k1_pay1 (View.ld x0 rW) (View.ld x1 rW) (View.ld x2 rX)⟩]

/-- The one store covers the buffer. -/
theorem cover_out (p0 : Vec F S128x128 .f32) (y : S128x128.Idx) :
    ∃ pc ∈ ([⟨rO, p0⟩] : List (View.Piece (Elt F) S128x128 .f32)), y ∈ pc.1.set :=
  View.cover_of_tiled [⟨rO, p0⟩] S128x128.size (by rfl) y

/-! ## The body's triple -/

set_option maxHeartbeats 1000000 in
/-- On whole staging memrefs, the inputs' at contents `x0`, `x1`, `x2` and the output's at anything, the body runs to
    the continuation holding the inputs' as they were and the output's at `outBlk x0 x1 x2`. -/
theorem sound_kernel (c : Dev nD) (E : Set ℕ) (i : grid1.Coords)
    (arg1 : Memref sig .tc .vmem S128x200 .f32) (harg1 : arg1.IsWhole) (arg2 : Memref sig .tc .vmem S128x200 .f32) (harg2 : arg2.IsWhole)
    (arg3 : Memref sig .tc .vmem S128x200x128 .f32) (harg3 : arg3.IsWhole) (arg4 : Memref sig .tc .vmem S128x128 .f32) (harg4 : arg4.IsWhole)
    (x0 : Vec F S128x200 .f32) (x1 : Vec F S128x200 .f32) (x2 : Vec F S128x200x128 .f32) (Kt : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ Kt ⟨⟩))
      ⊢ wp frame (wpE (defs₀ (F := F)) Variants.none c none) E (cc1__pool_body i arg1 harg1 arg2 harg2 arg3 harg3 arg4 harg4) Kt := by
  simp only [cc1__pool_body_eq_skeleton]; unfold cc1__pool_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The windows' blocks, read off the arrays as the region finds them -/

variable (V : (c : Dev nD) → (b : Ref sig .tc) → Buf (Elt F) ((c : Thread nD τ).loc b))

/-- Window `w`'s block at point `t`: the 128 rows from `128 t` of its array, as the region finds the array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry one and whose body leaves the block in place. -/
theorem before_0_of {c : Dev nD} (dat : Dat τ (Elt F) (HIx 1) ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry one and whose body leaves the block in place. -/
theorem before_1_of {c : Dev nD} (dat : Dat τ (Elt F) (HIx 1) ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry one and whose body leaves the block in place. -/
theorem before_2_of {c : Dev nD} (dat : Dat τ (Elt F) (HIx 1) ℕ UU ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block
    and the output's at the payload of the three input blocks; the invariant the scoped buffers no window stages
    (there are none), untouched; nothing owed; full shares. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.scopedRest (Ix := HIx 1) (Name := ℕ) (U := UU) (Lvl := ℕ) (Val := Elt F) spec1 c
  q _ := fullShare
  owed _ := 0

theorem A_eq (c : Dev nD) (w : Fin cfg1.W) : (dats V 0 c).A w = V c (Pipeline.arrRef spec1 w) := by
  dsimp only [dats]

theorem after_0 (c : Dev nD) (t : Fin cfg1.N) : (dats V 0 c).after 0 t = iblk V c 0 t := by dsimp only [dats]
theorem after_1 (c : Dev nD) (t : Fin cfg1.N) : (dats V 0 c).after 1 t = iblk V c 1 t := by dsimp only [dats]
theorem after_2 (c : Dev nD) (t : Fin cfg1.N) : (dats V 0 c).after 2 t = iblk V c 2 t := by dsimp only [dats]
/-- What point `t` leaves in the output's buffer: the payload of the three input blocks at `t`. -/
theorem after_3 (c : Dev nD) (t : Fin cfg1.N) :
    (dats V 0 c).after 3 t = outBlk (iblk V c 0 t) (iblk V c 1 t) (iblk V c 2 t) := by dsimp only [dats]

theorem before_0 (c : Dev nD) (t : Fin cfg1.N) (d) : (dats V 0 c).before 0 t d = iblk V c 0 t :=
  before_0_of V (dats V 0 c) (A_eq V c 0) (after_0 V c) t d
theorem before_1 (c : Dev nD) (t : Fin cfg1.N) (d) : (dats V 0 c).before 1 t d = iblk V c 1 t :=
  before_1_of V (dats V 0 c) (A_eq V c 1) (after_1 V c) t d
theorem before_2 (c : Dev nD) (t : Fin cfg1.N) (d) : (dats V 0 c).before 2 t d = iblk V c 2 t :=
  before_2_of V (dats V 0 c) (A_eq V c 2) (after_2 V c) t d

theorem share_full (c : Dev nD) (w : Fin cfg1.W) : (dats V 0 c).share w = fullShare :=
  (dats V 0 c).share_full (fun _ => rfl) w

/-! ## The body obligation, at any point -/

/-- What the body is called with at point `t`, the windows one by one, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d))
    ∗ (∃ d, owns (c : Thread nD τ) (st1_2 t) fullShare ((dats V 0 c).before 2 t d))
    ∗ (∃ d, owns (c : Thread nD τ) (st1_3 t) fullShare ((dats V 0 c).before 3 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t)
    ∗ owns (c : Thread nD τ) (st1_2 t) fullShare ((dats V 0 c).after 2 t)
    ∗ owns (c : Thread nD τ) (st1_3 t) fullShare ((dats V 0 c).after 3 t))

/-- The body at any point: the inputs' buffers hold their blocks, so the body's triple applies; the invariant and
    the core's tallies pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dats V 0 c).Φ t.succ = (dats V 0 c).Φ t.castSucc from rfl,
    show (dats V 0 c).owesAt none t.succ = (dats V 0 c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) :
    BodyObligation (dats (F := F) V 0 c) (defs₀ (F := F)) Variants.none (none : HIx 1) Set.univ := fun t => by
  rw [bigSep_W1, bigSep_W1]
  exact sound_body V c t

end Cert.KernelIdeal.Pool

end
-- ==== Proof.PoolRegion.lean ====
/-
  The pooling region on a TensorCore, entered after the gather: from the four windows' arrays held whole (the
  gathered weights, the mask, the values, and the result's array at any contents) and the core owing nothing,
  the pipeline fetches each point's three input blocks, runs the body, and writes the output block back; it leaves
  the three inputs as they were and the result's array at the contents the write-backs of the eight points build
  from the entry contents. The core's handshake state passes by the region untouched: the only waits the region
  adds are the staging buffers', at the lowest level.
-/
import proofs.«206738_g15788299780114_cont_7to1_105_28_alg».proof.Proof.PoolBody
import Idealize.ShloMosaic.Lib.Pipeline.Regions

noncomputable section

namespace Cert.KernelIdeal.Pool

open Cert.KernelIdeal Cert.KernelIdeal.Gen Cert.KernelIdeal.Sc

open Idealize.ShloMosaic Idealize.ShloMosaic.TcCoe Idealize.ShloMosaic.Tactic
open Idealize.ShloMosaic.SparseCore (T)
open Idealize.ShloMosaic.SparseCore.Cfg (HIx callsFrom)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The pipeline, with no prefetched table -/

/-- The one pipeline's tables: none. -/
abbrev adm : (p : Fin 1) → (pcfgs (F := F) p).Adm := fun p => (cfgs p).toPCfg_adm

/-- The proof data, at the pipeline with its (empty) tables put in. -/
def pdats (p : Fin 1) (c : Dev nD) : Dat τ (Elt F) (HIx 1) ℕ UU ℕ (Pipeline.pin (pcfgs (F := F)) adm p) c := dats V p c

/-! ## The core's handshake state: what it owes, and the rest -/

/-- What the TensorCore owes after the one gather call (nothing), with its recorded waits bounded. -/
def tcOwes (c : Dev nD) : sProp 𝕄 :=
  iprop(∃ W, ⌜(K (F := F)).WBelow (T c) W (8 * 1)⌝ ∗ owes (T c) ((K (F := F)).Otc c 1) W)

/-- The rest of its handshake state after that call: its position and rounds on the handshake cells. -/
def tcRest (c : Dev nD) : sProp 𝕄 :=
  iprop(atPos EH ((K (F := F)).doneCell c) 1 ∅ 0 ∗ reached EH ((K (F := F)).doneCell c) 1
    ∗ (bigSep Finset.univ fun s : Fin τ.nSC => reached EH ((K (F := F)).startCell c s) ((K (F := F)).sRank s 1))
    ∗ bigSep (callsFrom 1) fun q => bigSep Finset.univ fun s : Fin ((K (F := F)).nCore q) =>
        iprop(dutyTok EH ((K (F := F)).startCell c ((K (F := F)).core q s)) ((K (F := F)).sRank ((K (F := F)).core q s) q.val) 0
          ∗ cred (tallyAt ((K (F := F)).doneCell c) (some q) 1)))

theorem tcSt_split (c : Dev nD) : ((K (F := F)).tcSt EH c 1 : sProp 𝕄) = iprop(tcOwes c ∗ tcRest c) := by
  unfold SparseCore.Cfg.tcSt tcOwes tcRest; rfl

/-- After the one call nothing is owed. -/
theorem Otc_one (c : Dev nD) : (K (F := F)).Otc c 1 = 0 := (K (F := F)).Otc_end c (le_refl 1)

/-- With one call, every (cell, index) pair sits at level 7 or below: any recorded set is bounded. -/
theorem wbelow_any (c : Dev nD) (W : Waits sig (HIx 1)) : (K (F := F)).WBelow (T c) W (8 * 1) := fun p _ => by
  rcases p with ⟨sm, ι⟩
  cases ι with
  | none => exact Nat.zero_le _
  | some q =>
    have h := (K (F := F)).lev_some_le (T c, sm) q
    have hq : q.val = 0 := by have := q.isLt; omega
    show (K (F := F)).lev (T c, sm) (some q) ≤ 8 * 1
    omega

/-! ## The four windows' arrays, one by one -/

/-- The windows' arrays at contents `G`: each whole, at the full share. -/
theorem arrays_eq (c : Dev nD) (G : (w : Fin cfg1.W) → Buf (Elt F) ((cfg1.win w).arr.view.loc (c.tc : Thread nD τ))) :
    ((dats V 0 c).arrays G : sProp 𝕄)
      = iprop(((cfg1.win 0).arr.view.loc (c.tc : Thread nD τ) ↦{fullShare} G 0) ∗ ((cfg1.win 1).arr.view.loc (c.tc : Thread nD τ) ↦{fullShare} G 1)
          ∗ ((cfg1.win 2).arr.view.loc (c.tc : Thread nD τ) ↦{fullShare} G 2) ∗ ((cfg1.win 3).arr.view.loc (c.tc : Thread nD τ) ↦{fullShare} G 3)) := by
  have e0 : (cfg1.win 0).arr.view.set = Finset.univ := Memref.IsWhole.set_eq_univ (arr_whole1 0)
  have e1 : (cfg1.win 1).arr.view.set = Finset.univ := Memref.IsWhole.set_eq_univ (arr_whole1 1)
  have e2 : (cfg1.win 2).arr.view.set = Finset.univ := Memref.IsWhole.set_eq_univ (arr_whole1 2)
  have e3 : (cfg1.win 3).arr.view.set = Finset.univ := Memref.IsWhole.set_eq_univ (arr_whole1 3)
  unfold Dat.arrays
  rw [bigSep_W1, share_full V c 0, share_full V c 1, share_full V c 2, share_full V c 3, e0, e1, e2, e3]

/-- The table-less pipeline holds no table. -/
theorem prefHeld_none (c : Dev nD) :
    (emp : sProp 𝕄) ⊢ Pipeline.prefHeld (pcfgs (F := F) 0).pre c (fun _ => fullShare) (adm (F := F) 0).1 := by
  unfold Pipeline.prefHeld
  rw [show (Finset.univ : Finset (Fin (pcfgs (F := F) 0).pre.K)) = ∅ from Finset.univ_eq_empty, bigSep_empty]
  exact Entails.refl _

/-! ## The region's record -/

variable (lv : GSem nD τ sig → HIx 1 → ℕ)

/-- What the region is entered from on core `c`: its handshake state after the gather call and the four windows' arrays
    whole, at the region-entry contents. -/
def pre (c : Dev nD) : sProp 𝕄 :=
  iprop((K (F := F)).tcSt EH c 1
    ∗ ((cfg1.win 0).arr.view.loc (c.tc : Thread nD τ) ↦{fullShare} (dats V 0 c).arrAt 0 0)
    ∗ ((cfg1.win 1).arr.view.loc (c.tc : Thread nD τ) ↦{fullShare} (dats V 0 c).arrAt 1 0)
    ∗ ((cfg1.win 2).arr.view.loc (c.tc : Thread nD τ) ↦{fullShare} (dats V 0 c).arrAt 2 0)
    ∗ ((cfg1.win 3).arr.view.loc (c.tc : Thread nD τ) ↦{fullShare} (dats V 0 c).arrAt 3 0))

/-- What it leaves: the same handshake state, and each array at what the eight points' write-backs made of it. -/
def post (c : Dev nD) : sProp 𝕄 :=
  iprop((K (F := F)).tcSt EH c 1
    ∗ ((cfg1.win 0).arr.view.loc (c.tc : Thread nD τ) ↦{fullShare} (dats V 0 c).arrAt 0 cfg1.N)
    ∗ ((cfg1.win 1).arr.view.loc (c.tc : Thread nD τ) ↦{fullShare} (dats V 0 c).arrAt 1 cfg1.N)
    ∗ ((cfg1.win 2).arr.view.loc (c.tc : Thread nD τ) ↦{fullShare} (dats V 0 c).arrAt 2 cfg1.N)
    ∗ ((cfg1.win 3).arr.view.loc (c.tc : Thread nD τ) ↦{fullShare} (dats V 0 c).arrAt 3 cfg1.N))

/-! ## The record's four entailments -/

/-- The invariant is the scoped buffers no window stages, at every point. -/
theorem Φ_eq (c : Dev nD) (t : Fin (cfg1.N + 1)) :
    ((pdats V 0 c).Φ t : sProp 𝕄) = Pipeline.scopedRest (Ix := HIx 1) (Name := ℕ) (U := UU) (Lvl := ℕ) (Val := Elt F) spec1 c := by
  unfold pdats; dsimp only [dats]

/-- There are none: the core's scoped buffers are all staging buffers. -/
theorem rest_emp (c : Dev nD) :
    (Pipeline.scopedRest (Ix := HIx 1) (Name := ℕ) (U := UU) (Lvl := ℕ) (Val := Elt F) (Pipeline.pin (pcfgs (F := F)) adm 0).spec c : sProp 𝕄) = BI.emp :=
  scopedRest1_eq c

theorem hentry_pf (c : Dev nD) :
    iprop(pre V c ∗ Pipeline.ownSems0 (fun k : PEmpty => k.elim) c ∗ levAts (K (F := F)).L lv)
      ⊢ |={Set.univ}=> iprop((pdats V 0 c).arrays ((pdats V 0 c).arrAt · 0)
          ∗ Pipeline.prefHeld (pcfgs (F := F) 0).pre c (fun _ => fullShare) (adm (F := F) 0).1
          ∗ (pdats V 0 c).owesAt none 0 ∗ (emp : sProp 𝕄) ∗ tcRest c) := by
  unfold pre pdats
  rw [tcSt_split, arrays_eq]
  unfold tcOwes
  iintro ⟨⟨⟨⟨%W, %hW, HO⟩, HR⟩, H0, H1, H2, H3⟩, -, -⟩
  imodintro
  isplitl [H0 H1 H2 H3]
  · isplitl [H0]; · iexact H0
    isplitl [H1]; · iexact H1
    isplitl [H2]; · iexact H2
    iexact H3
  isplitr
  · iapply (prefHeld_none c); iempintro
  isplitl [HO]
  · iexists W; isplitr
    · ipureintro; exact Set.subset_union_of_subset_left (Set.subset_univ _) _
    rw [Otc_one]; iexact HO
  isplitr
  · iempintro
  iexact HR

theorem hin_pf (c : Dev nD) :
    iprop((emp : sProp 𝕄) ∗ Pipeline.prefHeld (pcfgs (F := F) 0).pre c (fun _ => fullShare) (adm (F := F) 0).1
        ∗ Pipeline.scopedRest (Pipeline.pin (pcfgs (F := F)) adm 0).spec c) ⊢ (pdats V 0 c).Φ 0 := by
  rw [Φ_eq, rest_emp]
  exact fun _ _ => trivial

theorem hout_pf (c : Dev nD) :
    (pdats V 0 c).Φ (Fin.last (Pipeline.pin (pcfgs (F := F)) adm 0).N)
      ⊢ iprop((emp : sProp 𝕄) ∗ Pipeline.ownSems0 (fun k : PEmpty => k.elim) c ∗ Pipeline.scopedRest (Pipeline.pin (pcfgs (F := F)) adm 0).spec c) := by
  rw [Φ_eq, rest_emp, Pipeline.ownSems0_none]
  iintro -
  isplitr; · iempintro
  isplitr; · iempintro
  iempintro

theorem hexit_pf (c : Dev nD) :
    iprop((pdats V 0 c).arrays ((pdats V 0 c).arrAt · (Pipeline.pin (pcfgs (F := F)) adm 0).N)
        ∗ (pdats V 0 c).owesAt none (Fin.last (Pipeline.pin (pcfgs (F := F)) adm 0).N) ∗ (emp : sProp 𝕄) ∗ tcRest c)
      ⊢ |={Set.univ}=> post V c := by
  unfold post pdats
  rw [tcSt_split, arrays_eq]
  unfold tcOwes
  iintro ⟨⟨H0, H1, H2, H3⟩, ⟨%W, %hW, HO⟩, -, HR⟩
  imodintro
  isplitl [HO HR]
  · isplitl [HO]
    · iexists W; isplitr
      · ipureintro; exact wbelow_any c W
      rw [Otc_one]; iexact HO
    iexact HR
  isplitl [H0]; · iexact H0
  isplitl [H1]; · iexact H1
  isplitl [H2]; · iexact H2
  iexact H3

/-- The region's record: the decided layout, no semaphore of the kernel's own, the body obligation, no debt across
    the staging waits, and the handshake state passing by. -/
def poolSeg : Pipeline.RegionSeg (pcfgs (F := F)) adm (pdats V) (none : HIx 1) (defs₀ (F := F)) Variants.none (K (F := F)).L lv (0 : Fin 1) where
  win := winFacts1.to₀
  block_pos := block_pos1
  stage_whole := stage_whole1
  K := PEmpty
  osem := fun k => k.elim
  ho := Pipeline.OwnSemFacts.none _
  hbody := fun c => (body_obligation V c).loose
  hwaits := fun c =>
    (show (levAts (K (F := F)).L lv : sProp 𝕄) ⊢ (emp : sProp 𝕄) from fun _ _ => trivial).trans
      (Pipeline.cellsWaits_of_owed_zero (Pipeline.pin (pcfgs (F := F)) adm) (pdats V) none 0 c fun _ => rfl)
  pre := pre V
  post := post V
  X := fun _ => iprop(emp)
  Y := fun _ => iprop(emp)
  Z := fun c => tcRest c
  hentry := hentry_pf V lv
  hin := hin_pf V
  hout := hout_pf V
  hexit := hexit_pf V

/-! ## The record's pre and post, buffer by buffer -/

/-- Entered from: the gathered weights, the mask, the values and the result's array, each whole as the region finds it. -/
theorem pre_eq (c : Dev nD) :
    pre V c = iprop((K (F := F)).tcSt EH c 1
      ∗ ((c : Thread nD τ).loc main_v1 ↦{fullShare} V c main_v1) ∗ ((c : Thread nD τ).loc main_arg2 ↦{fullShare} V c main_arg2)
      ∗ ((c : Thread nD τ).loc main_arg1 ↦{fullShare} V c main_arg1) ∗ ((c : Thread nD τ).loc main_v2 ↦{fullShare} V c main_v2)) := rfl

/-- Left at: the three inputs as found (no write-back touches an input), the result's array at what the eight
    write-backs made of it. -/
theorem post_eq (c : Dev nD) :
    post V c = iprop((K (F := F)).tcSt EH c 1
      ∗ ((c : Thread nD τ).loc main_v1 ↦{fullShare} V c main_v1) ∗ ((c : Thread nD τ).loc main_arg2 ↦{fullShare} V c main_arg2)
      ∗ ((c : Thread nD τ).loc main_arg1 ↦{fullShare} V c main_arg1)
      ∗ ((c : Thread nD τ).loc main_v2 ↦{fullShare} (dats V 0 c).arrAt 3 cfg1.N)) := by
  unfold post
  rw [(dats V 0 c).arrAt_in 0 rfl, (dats V 0 c).arrAt_in 1 rfl, (dats V 0 c).arrAt_in 2 rfl]
  rfl

/-! ## The region's step -/

/-- From the region boundary, the record's `pre`, the level facts and the staging cells' launch ghost state, the
    region's call runs to the boundary and `post` for what follows it. -/
theorem wp_pool [∀ e, Nonempty (Elt F e)] (c : Dev nD) {α : Type}
    (k : PUnit → Prog (TpuEff nD τ sig (Elt F) (ΛP (F := F)) .tc) α) (Q : α → sProp 𝕄) :
    iprop((iprop(boundary (c.tc : Thread nD τ) ∗ post V c) -∗ wp frame (wpE (D (F := F)) 𝒱 (c.tc : Thread nD τ) none) Set.univ (k ⟨⟩) Q)
        ∗ boundary (c.tc : Thread nD τ) ∗ pre V c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q :=
  Pipeline.RegionSeg.wp (pcfgs (F := F)) adm (pdats V) (none : HIx 1) cellOf_inj EP (defs₀ (F := F)) Variants.none (K (F := F)).L lv
    (poolSeg V lv) c none (fun _ h => absurd h (Option.not_mem_none _)) k Q

/-- The program's last line is the region's call, read in the launch's signature. -/
theorem tail_eq :
    (Prog.lift (.customCall (SparseCore.inner (Pipeline.entry 0)) ()) >>= fun _ => pure ⟨⟩ :
        Prog (TpuEff nD τ sig (Elt F) (SparseCore.Sig (ΛP (F := F)) 1) .tc) PUnit)
      = SparseCore.liftProg (.op (.customCall (Pipeline.entry 0) ()) fun _ => .ret ⟨⟩) := rfl

/-- The same step as the program's last line, under the launch's body table: what follows the call is the return. -/
theorem wp_pool_tail [∀ e, Nonempty (Elt F e)] (c : Dev nD) (Φ : PUnit → sProp 𝕄) :
    iprop((iprop(boundary (c.tc : Thread nD τ) ∗ post V c) -∗ Φ ⟨⟩)
        ∗ boundary (c.tc : Thread nD τ) ∗ pre V c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (c.tc : Thread nD τ) none) Set.univ
          (SparseCore.liftProg (.op (.customCall (Pipeline.entry 0) ()) fun _ => .ret ⟨⟩)) Φ := by
  have h1 := wp_pool V lv c (α := PUnit) (fun _ => Prog.ret PUnit.unit) Φ
  have key : ∀ (p : Prog (TpuEff nD τ sig (Elt F) (ΛP (F := F)) .tc) PUnit) (A : sProp 𝕄),
      (A ⊢ wp frame (wpE (D (F := F)) 𝒱 (c.tc : Thread nD τ) none) Set.univ p Φ) →
      A ⊢ wp frame (wpE ((K (F := F)).defs (D (F := F))) 𝒱 (c.tc : Thread nD τ) none) Set.univ (SparseCore.liftProg p) Φ :=
    fun p A h => BI.Entails.trans h ((K (F := F)).wp_liftProg (D (F := F)) 𝒱 (c.tc : Thread nD τ) Set.univ none p Φ)
  refine key (Prog.op (TpuEff.customCall (Pipeline.entry 0) ()) fun _ => Prog.ret PUnit.unit) _ (BI.Entails.trans ?_ h1)
  simp only [wp_ret]
  show (_ : sProp 𝕄) ⊢ _
  iintro ⟨Hk, Hb, Hp, Hl, Hg, Ht⟩
  isplitl [Hk]
  · iintro H
    imodintro
    iapply Hk
    iexact H
  isplitl [Hb]; · iexact Hb
  isplitl [Hp]; · iexact Hp
  isplitl [Hl]; · iexact Hl
  isplitl [Hg]; · iexact Hg
  iexact Ht

end Cert.KernelIdeal.Pool

end
-- ==== Proof.ScMain.lean ====
/-
  The gather-and-pool program as a whole: @main on the TensorCore reads the weight column as a vector, starts the gather
  on the two SparseCores (each core its tiles' rows of the index array and of the output and a read share of the table)
  and, when it has them back, runs the pooling region over the gathered weights, the mask and the values; the launch
  theorem then gives the run: every weakly fair execution terminates, nothing faulting, the four arguments unchanged and
  the result array at the value the region's write-backs leave.
-/
import proofs.«206738_g15788299780114_cont_7to1_105_28_alg».proof.Proof.ScBody
import proofs.«206738_g15788299780114_cont_7to1_105_28_alg».proof.Proof.ScSplit
import proofs.«206738_g15788299780114_cont_7to1_105_28_alg».proof.Proof.ScFund
import proofs.«206738_g15788299780114_cont_7to1_105_28_alg».proof.Proof.PoolRegion

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.KernelIdeal.main_v0_scv : Memref Cert.KernelIdeal.sig Kind.scVector Space.hbm Cert.KernelIdeal.S100000 EltTy.f32)
local notation "idxV" => (Memref.whole Cert.KernelIdeal.main_arg0_scv : Memref Cert.KernelIdeal.sig Kind.scVector Space.hbm Cert.KernelIdeal.S1024x200 EltTy.i32)
local notation "outV" => (Memref.whole Cert.KernelIdeal.main_v1_scv : Memref Cert.KernelIdeal.sig Kind.scVector Space.hbm Cert.KernelIdeal.S1024x200 EltTy.f32)
local notation "shV" => (Memref.whole Cert.KernelIdeal.cc0_scratch0 : Memref Cert.KernelIdeal.sig Kind.scVector Space.shared Cert.KernelIdeal.S100000 EltTy.f32)
local notation "tV" => (Memref.whole Cert.KernelIdeal.cc0_scratch1 : Memref Cert.KernelIdeal.sig Kind.scVector Space.vmem Cert.KernelIdeal.S100000 EltTy.f32)
local notation "iV" => (Memref.whole Cert.KernelIdeal.cc0_scratch2 : Memref Cert.KernelIdeal.sig Kind.scVector Space.vmem Cert.KernelIdeal.S32x200 EltTy.i32)
local notation "oV" => (Memref.whole Cert.KernelIdeal.cc0_scratch3 : Memref Cert.KernelIdeal.sig Kind.scVector Space.vmem Cert.KernelIdeal.S32x200 EltTy.f32)

variable [FloatOps F]

open Idealize.ShloMosaic.TcCoe
open Idealize.ShloMosaic.StableHlo (held held_split held_sdiff_result wp_hlo_within)

variable (ρ : Dev nD → PrngReg)

/-! ## The arrays of @main -/

abbrev a1Loc (d : Dev nD) : Loc nD τ sig := (SparseCore.T d).loc main_arg1
abbrev a2Loc (d : Dev nD) : Loc nD τ sig := (SparseCore.T d).loc main_arg2
abbrev resLoc (d : Dev nD) : Loc nD τ sig := (SparseCore.T d).loc main_v2

abbrev a3' : DevRef τ sig := Proc.devRef .tc (main_arg3 : Ref sig .tc)
abbrev t' : DevRef τ sig := Proc.devRef .tc (main_v0 : Ref sig .tc)
/-- The weight column read as a vector: @main's first line. -/
abbrev opR : HloOp τ sig (Elt F) := StableHlo.reshape main_arg3 main_v0 rfl shapeCasts_S100000x1_S100000
abbrev S2 : Finset (DevRef τ sig) := {a3', t'}

omit [FloatOps F] in
theorem unscopedBufs_eq (d : Dev nD) (W : (b : Ref sig .tc) → Buf (Elt F) ((d.tc : Thread nD τ).loc b)) :
    (unscopedBufs d W : sProp 𝕄) = iprop((idxLoc d ↦{fullShare} W main_arg0) ∗ (a1Loc d ↦{fullShare} W main_arg1) ∗ (a2Loc d ↦{fullShare} W main_arg2)
      ∗ (wgtLoc d ↦{fullShare} W main_arg3) ∗ (tabLoc d ↦{fullShare} W main_v0) ∗ (outLoc d ↦{fullShare} W main_v1) ∗ (resLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_S2 (d : Dev nD) (W : Valuation τ sig (Elt F)) :
    (held (T d) S2 W : sProp 𝕄) = iprop((wgtLoc d ↦{fullShare} W a3') ∗ (tabLoc d ↦{fullShare} W t')) := by
  unfold held S2
  rw [SparseCore.bigSep_insert' (by decide), bigSep_singleton]

/-- The launch valuation. -/
def V0 (d : Dev nD) : Valuation τ sig (Elt F) := fun b => m (d, b)

theorem hR : (opR (F := F)).bufs ⊆ S2 := show ({a3', t'} : Finset (DevRef τ sig)) ⊆ S2 from Finset.Subset.refl _

/-- After the reshape the column is as it was and the vector is the table. -/
theorem held_S2_result (d : Dev nD) :
    (held (T d) S2 ((opR (F := F)).result (V0 m d)) : sProp 𝕄) = iprop((wgtLoc d ↦{fullShare} m (wgtLoc d)) ∗ (tabLoc d ↦{fullShare} tab m d)) := by
  rw [held_S2, (opR (F := F)).result_of_not_mem (V0 m d) (b := a3') (show a3' ∉ ({t'} : Finset (DevRef τ sig)) by decide)]
  rfl

/-! ## The call's operands, core by core -/

theorem st_intro (d : Dev nD) (f : Buf (Elt F) (outLoc d)) :
    iprop((bigSep Finset.univ fun c : Fin 2 => bigSep Finset.univ fun s : Fin 16 => idxBlk m d (wid c s))
        ∗ (bigSep Finset.univ fun c : Fin 2 => bigSep Finset.univ fun s : Fin 16 => outBlk d (wid c s) f)
        ∗ (bigSep Finset.univ fun c : Fin 2 => tabShare m d c))
      ⊢ (bigSep Finset.univ fun c : Fin 2 => iprop((bigSep Finset.univ fun s : Fin 16 => iprop(idxBlk m d (wid c s) ∗ outBlk d (wid c s) f)) ∗ tabShare m d c) : sProp 𝕄) := by
  rw [bigSep_sep', bigSep_congr (fun c _ => bigSep_sep' (Finset.univ : Finset (Fin 16)) _ _), bigSep_sep']
  iintro ⟨Hi, Ho, Ht⟩
  isplitl [Hi Ho]
  · isplitl [Hi]; · iexact Hi
    iexact Ho
  iexact Ht

theorem dn_elim' (d : Dev nD) (f : Buf (Elt F) (outLoc d)) :
    (bigSep Finset.univ fun c : Fin 2 => iprop((bigSep Finset.univ fun s : Fin 16 => iprop(idxBlk m d (wid c s) ∗ outBlk d (wid c s) f)) ∗ tabShare m d c) : sProp 𝕄)
      ⊢ iprop((bigSep Finset.univ fun c : Fin 2 => bigSep Finset.univ fun s : Fin 16 => idxBlk m d (wid c s))
        ∗ (bigSep Finset.univ fun c : Fin 2 => bigSep Finset.univ fun s : Fin 16 => outBlk d (wid c s) f)
        ∗ (bigSep Finset.univ fun c : Fin 2 => tabShare m d c)) := by
  rw [bigSep_sep', bigSep_congr (fun c _ => bigSep_sep' (Finset.univ : Finset (Fin 16)) _ _), bigSep_sep']
  iintro ⟨⟨Hi, Ho⟩, Ht⟩
  isplitl [Hi]; · iexact Hi
  isplitl [Ho]; · iexact Ho
  iexact Ht

/-- What the call brings back, core by core, regrouped. -/
theorem dn_elim (d : Dev nD) :
    (bigSep Finset.univ fun c : Fin ((K (F := F)).nCore 0) => (P m).dn 0 d c : sProp 𝕄)
      ⊢ iprop((bigSep Finset.univ fun c : Fin 2 => bigSep Finset.univ fun s : Fin 16 => idxBlk m d (wid c s))
        ∗ (bigSep Finset.univ fun c : Fin 2 => bigSep Finset.univ fun s : Fin 16 => outBlk d (wid c s) (gat m d))
        ∗ (bigSep Finset.univ fun c : Fin 2 => tabShare m d c)) :=
  dn_elim' m d (gat m d)

/-! ## The pooling region's arrays -/

/-- The TensorCore's buffers as the pooling region finds them: the gathered weights in place of the launch contents. -/
def Vr (c : Dev nD) : (b : Ref sig .tc) → Buf (Elt F) ((c : Thread nD τ).loc b) :=
  Function.update (fun b => m ((c : Thread nD τ).loc b)) main_v1 (gat m c)

theorem Vr_v1 (c : Dev nD) : Vr m c main_v1 = gat m c := Function.update_self _ _ _
theorem Vr_a2 (c : Dev nD) : Vr m c main_arg2 = m (a2Loc c) := Function.update_of_ne (by decide) _ _
theorem Vr_a1 (c : Dev nD) : Vr m c main_arg1 = m (a1Loc c) := Function.update_of_ne (by decide) _ _
theorem Vr_v2 (c : Dev nD) : Vr m c main_v2 = m (resLoc c) := Function.update_of_ne (by decide) _ _

/-- What the result array holds at the end: what the region's eight write-backs make of it. -/
def outVal (d : Dev nD) : Buf (Elt F) (resLoc d) := (Pool.dats (Vr m) 0 d).arrAt 3 cfg1.N

/-- What @main leaves the claim: the four arguments at their launch contents, the result named. -/
def FIN (d : Dev nD) : sProp 𝕄 :=
  iprop((idxLoc d ↦{fullShare} m (idxLoc d)) ∗ (a1Loc d ↦{fullShare} m (a1Loc d)) ∗ (a2Loc d ↦{fullShare} m (a2Loc d))
    ∗ (wgtLoc d ↦{fullShare} m (wgtLoc d)) ∗ (resLoc d ↦{fullShare} outVal m d))

set_option maxHeartbeats 4000000 in
/-- @main on device `d`'s TensorCore: the reshape; the call, the index array and the output dealt block by block and
    the table share by share; the pooling region over the gathered weights, the mask and the values. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq]
  simp only [main, wp_bind, wp_pure]
  iintro ⟨#Hctx, Hst, ⟨Hb, ⟨Ha0, Ha1, Ha2, Ha3, Hv0, Hv1, Hv2⟩, -, -⟩, ⟨Hcg, Hti⟩⟩
  -- the reshape
  iapply (wp_hlo_within 𝒱 (SparseCore.T d) none Set.univ (op := opR) (S := S2) hR (V := V0 m d)) $$ [Hb Ha3 Hv0]
  · isplitl [Hb]; · iexact Hb
    rw [held_S2]
    isplitl [Ha3]; · iexact Ha3
    iexact Hv0
  iintro ⟨Hb, Hheld⟩
  rw [wp_ret]; imodintro
  ihave Hh := (Entails.of_eq (held_S2_result (F := F) m d)) $$ Hheld
  icases Hh with ⟨Ha3, Hv0⟩
  -- the operands, dealt
  ihave Hsp := (pointsTo_toks_split (ℓ := tabLoc d) (S := Finset.univ) (f := tab m d) fullShare 2) $$ Hv0
  icases Hsp with ⟨Htdrop, Htsh⟩
  ihave Hib := (Entails.of_eq ((idx_blks (F := F) d _).trans (blks_by_tile (F := F) _))) $$ Ha0
  ihave Hob := (Entails.of_eq ((out_blks (F := F) d _).trans (blks_by_tile (F := F) _))) $$ Hv1
  -- the call
  iapply ((K (F := F)).wp_run (D (F := F)) 𝒱 (EH := EH) (P := P m) κ d 0) $$ [Hst Hib Hob Htsh Hb Ha1 Ha2 Ha3 Hv2 Htdrop Hcg Hti]
  isplitr; · iexact Hctx
  isplitl [Hst]; · iexact Hst
  isplitl [Hib Hob Htsh]
  · iapply (st_intro m d (m (outLoc d)))
    isplitl [Hib]; · iexact Hib
    isplitl [Hob]; · iexact Hob
    iexact Htsh
  iintro ⟨Hst, Hdn⟩
  ihave Hdn' := (dn_elim m d) $$ Hdn
  icases Hdn' with ⟨Hib, Hob, Htsh⟩
  ihave Ha0 := (Entails.of_eq ((idx_blks (F := F) d _).trans (blks_by_tile (F := F) _)).symm) $$ Hib
  ihave Hv1 := (Entails.of_eq ((out_blks (F := F) d _).trans (blks_by_tile (F := F) _)).symm) $$ Hob
  -- the pooling region
  rw [show (Prog.lift (TpuEff.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) from rfl]
  ihave Hlev := (SparseCore.Cfg.ctx_levAts κ) $$ Hctx
  iapply (Pool.wp_pool_tail (F := F) (Vr m) (K (F := F)).lev d _) $$ [Hb Hst Hv1 Ha2 Ha1 Hv2 Hlev Hcg Hti Ha0 Ha3]
  isplitl [Ha0 Ha3]
  · iintro ⟨-, Hpost⟩
    ihave Hp := (Entails.of_eq (Pool.post_eq (F := F) (Vr m) d)) $$ Hpost
    icases Hp with ⟨Hst, -, Ha2, Ha1, Hv2⟩
    imodintro
    isplitl [Hst]; · iexact Hst
    unfold FIN
    isplitl [Ha0]; · iexact Ha0
    isplitl [Ha1]; · rw [← Vr_a1 m d]; iexact Ha1
    isplitl [Ha2]; · rw [← Vr_a2 m d]; iexact Ha2
    isplitl [Ha3]; · iexact Ha3
    iexact Hv2
  isplitl [Hb]; · iexact Hb
  isplitl [Hst Hv1 Ha2 Ha1 Hv2]
  · rw [Pool.pre_eq, Vr_v1, Vr_a2, Vr_a1, Vr_v2]
    isplitl [Hst]; · iexact Hst
    isplitl [Hv1]; · iexact Hv1
    isplitl [Ha2]; · iexact Ha2
    isplitl [Ha1]; · iexact Ha1
    iexact Hv2
  isplitl [Hlev]; · iexact Hlev
  isplitl [Hcg]
  · iapply (SparseCore.ent (bigSep_elim (Φ := fun p : Fin 1 => Pipeline.cellsGhost (nD := nD) (τ := τ) cfgs EP p d) (i := 0) (Finset.mem_univ _))); iexact Hcg
  iapply (SparseCore.ent (bigSep_elim (Φ := fun p : Fin 1 => (Pipeline.toksInit (nD := nD) (τ := τ) cfgs EP p d : sProp 𝕄)) (i := 0) (Finset.mem_univ _))); iexact Hti

/-! ## The final memory reads the claim -/

def fq (d : Dev nD) (s' : Phys nD τ sig (Elt F)) : Prop :=
  s'.mem.mem (resLoc d) = outVal m d ∧ s'.mem.mem (idxLoc d) = m (idxLoc d) ∧ s'.mem.mem (a1Loc d) = m (a1Loc d)
    ∧ s'.mem.mem (a2Loc d) = m (a2Loc d) ∧ s'.mem.mem (wgtLoc d) = m (wgtLoc d)

omit [FloatOps F] in
theorem agree (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have hr : iprop(FIN m d ∗ SI s') ⊢ (⌜s'.mem.mem (resLoc d) = outVal m d⌝ : sProp 𝕄) := by
    unfold FIN; iintro ⟨⟨-, -, -, -, Hr⟩, HSI⟩
    iapply (agree (F := F) s' _ _); isplitl [Hr]; · iexact Hr
    iexact HSI
  have h0 : iprop(FIN m d ∗ SI s') ⊢ (⌜s'.mem.mem (idxLoc d) = m (idxLoc d)⌝ : sProp 𝕄) := by
    unfold FIN; iintro ⟨⟨H, -, -, -, -⟩, HSI⟩
    iapply (agree (F := F) s' _ _); isplitl [H]; · iexact H
    iexact HSI
  have h1 : iprop(FIN m d ∗ SI s') ⊢ (⌜s'.mem.mem (a1Loc d) = m (a1Loc d)⌝ : sProp 𝕄) := by
    unfold FIN; iintro ⟨⟨-, H, -, -, -⟩, HSI⟩
    iapply (agree (F := F) s' _ _); isplitl [H]; · iexact H
    iexact HSI
  have h2 : iprop(FIN m d ∗ SI s') ⊢ (⌜s'.mem.mem (a2Loc d) = m (a2Loc d)⌝ : sProp 𝕄) := by
    unfold FIN; iintro ⟨⟨-, -, H, -, -⟩, HSI⟩
    iapply (agree (F := F) s' _ _); isplitl [H]; · iexact H
    iexact HSI
  have h3 : iprop(FIN m d ∗ SI s') ⊢ (⌜s'.mem.mem (wgtLoc d) = m (wgtLoc d)⌝ : sProp 𝕄) := by
    unfold FIN; iintro ⟨⟨-, -, -, H, -⟩, HSI⟩
    iapply (agree (F := F) s' _ _); isplitl [H]; · iexact H
    iexact HSI
  exact fun x hx => ⟨hr x hx, h0 x hx, h1 x hx, h2 x hx, h3 x hx⟩

/-! ## The program's run -/

/-- The run's post: the result array holds the named value and the four arguments are unchanged, on every device. -/
def QC : PUnit × MemSt nD τ sig (Elt F) → Prop := fun r => ∀ c : Dev nD,
  r.2.mem ((c.tc : Thread nD τ).loc main_v2) = outVal m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- Every weakly fair execution of the program's threads from a memory whose index words name rows of the table
    terminates, nothing faulting, with the result array at the named value and the arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (G (F := F)) (FIN m) (u₀ (F := F)) (hu₀ m) (hmain m ρ) (fq m) (hfin m) (QC m) (fun _ h => h)

end Cert.KernelIdeal.Sc

end
-- ==== Proof.KScSetup.lean ====
/-
  The gather kernel on the vector subcores, set up for the launch theorem: the program's threads, the ghost state,
  the arrays and their pieces, and the subcore barrier's protocol.

  Each of the 32 tiles (2 cores × 16 subcores) owns 32 consecutive rows of the index array and of the output: tile
  (c, s) the rows from 64 s + 32 c. Tile 0 of each core copies the whole table into its core's shared memory; every
  tile then meets its siblings at the barrier, copies the shared table into its own memory and gathers. The barrier
  carries the data dependency: tile 0's arrival at tile j's barrier semaphore hands tile j a read share of the shared
  table, holding the table's contents.
-/
import proofs.«206738_g15788299780114_cont_7to1_105_28_alg».proof.Kernel
import proofs.«206738_g15788299780114_cont_7to1_105_28_alg».proof.Proof.Gen.Kernel
import proofs.«206738_g15788299780114_cont_7to1_105_28_alg».proof.Proof.Gen.Kernel.Skeleton
import proofs.«206738_g15788299780114_cont_7to1_105_28_alg».proof.Proof.Gen.Kernel.Launch
import proofs.«206738_g15788299780114_cont_7to1_105_28_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the barrier cells' rounds, the pipeline's staging cells, the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipeline's staging cells' rounds library. -/
def EP : Emb UP (MT nD τ sig (HIx 1) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory, the arrays and their pieces -/

variable (m : (ℓ : Loc nD τ sig) → Buf (Elt F) ℓ) (ρ : Dev nD → PrngReg)

/-- The index array, the weight column, the table (the column as a vector), the gathered weights, the mask, the values
    and the result, as locations of device `d`. -/
abbrev idxLoc (d : Dev nD) : Loc nD τ sig := (SparseCore.T d).loc main_arg0
abbrev wgtLoc (d : Dev nD) : Loc nD τ sig := (SparseCore.T d).loc main_arg3
abbrev tabLoc (d : Dev nD) : Loc nD τ sig := (SparseCore.T d).loc main_v0
abbrev outLoc (d : Dev nD) : Loc nD τ sig := (SparseCore.T d).loc main_v1
/-- Core `c`'s shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

variable [FloatOps F]

/-- The table: the weight column read as a vector of 100000 entries. -/
def tab (d : Dev nD) : Buf (Elt F) (tabLoc d) := shapeCast S100000 (m (wgtLoc d)) shapeCasts_S100000x1_S100000

/-- The table entry an index word names: the word read unsigned, modulo the table's extent (in range, the word itself). -/
def entry (x : BitVec 32) : S100000.Idx := ValueIdx.ix1 (⟨x.toNat % 100000, Nat.mod_lt _ (by norm_num)⟩ : Fin 100000)

/-- The gathered weights: entry `j` is the table at the index word `j` of the index array. -/
def gat (d : Dev nD) : Buf (Elt F) (outLoc d) := fun j => tab m d (entry (m (idxLoc d) j))

theorem hdiv : 32 ∣ S1024x200.size 0 := ⟨32, rfl⟩
/-- Block `w` of 32 rows. -/
abbrev blk (w : Fin 32) : Rect S1024x200 := Rect.part (s := S1024x200) (a₀ := 0) hdiv w
abbrev blkSet (w : Fin 32) : Finset S1024x200.Idx := ((Memref.whole main_arg0_scv : Memref sig .scVector .hbm S1024x200 .i32).view.slice (blk w)).set
/-- The block of tile `s` of core `c`: number 2 s + c. -/
def wid (c : Fin 2) (s : Fin 16) : Fin 32 := ⟨2 * s.val + c.val, by omega⟩

/-- The table's contents as core `c`'s shared memory holds them once tile 0 has copied them there. -/
def tabSh (d : Dev nD) (c : Fin τ.nSC) : Buf (Elt F) (shLoc d c) := shapeCast S100000 (m (wgtLoc d)) shapeCasts_S100000x1_S100000

theorem nSub_eq : τ.nSub = 16 := rfl
theorem nSC_eq : τ.nSC = 2 := rfl

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- A read share of core `c`'s shared memory at the table's contents: share number `j` of sixteen. -/
abbrev shShare (d : Dev nD) (c : Fin τ.nSC) (j : Fin 16) : sProp 𝕄 := shLoc d c ↦{shareTok fullShare 16 j} tabSh m d c

/-- What a duty in tile `j`'s round hands over: tile 0's, a read share of the shared table; the others', nothing. -/
def bPay (g : GSem nD τ sig) (n : ℕ) : sProp 𝕄 :=
  match g with
  | ((d, .scVector c j), _) => if n = 0 then shShare m d c (Fin.cast nSub_eq j) else iprop(emp)
  | _ => iprop(emp)

/-- The barrier cells' schedule: one round on each, of one unit duty per tile of the core (named by its number),
    tile 0's handing over a read share of the shared table. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has tile `(c, i)` owe for the barrier: a unit on every tile's cell of its core, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every sibling's cell invariant and that each has reached round 0, its own duty token
    in every sibling's round 0, its own position at the origin of round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev coreOf (c : Fin ((K (F := F)).nCore 0)) : Fin τ.nSC := (K (F := F)).core 0 c
abbrev c2 (c : Fin ((K (F := F)).nCore 0)) : Fin 2 := Fin.cast nCore_zero c
abbrev s16 (i : Fin ((K (F := F)).nSub 0)) : Fin 16 := Fin.cast nSub_zero i

/-- A tile's rows of the index array at their launch contents, and of the output at contents `f`. -/
abbrev idxBlk (d : Dev nD) (w : Fin 32) : sProp 𝕄 := idxLoc d ↦[blkSet w]{fullShare} m (idxLoc d)
abbrev outBlk (d : Dev nD) (w : Fin 32) (f : Buf (Elt F) (outLoc d)) : sProp 𝕄 := outLoc d ↦[blkSet w]{fullShare} f
/-- Core `c`'s read share of the table in HBM. -/
abbrev tabShare (d : Dev nD) (c : Fin 2) : sProp 𝕄 := tabLoc d ↦{shareTok fullShare 2 c} tab m d

/-- What a task is handed: its rows of the index array and of the output; tile 0 also its core's read share of the
    table and the core's shared memory whole. -/
def goRes (d : Dev nD) (c : Fin ((K (F := F)).nCore 0)) (i : Fin ((K (F := F)).nSub 0)) : sProp 𝕄 :=
  iprop(idxBlk m d (wid (c2 c) (s16 i)) ∗ outBlk d (wid (c2 c) (s16 i)) (m (outLoc d))
    ∗ if i.val = 0 then iprop(tabShare m d (c2 c) ∗ ∃ f, shLoc d (coreOf c) ↦{fullShare} f) else iprop(emp))
/-- What a task hands back: its rows of the index array, its rows of the output at the gathered weights, its read share
    of the shared table; tile 0 also the core's share of the table and the rest of the shared memory. -/
def tdRes (d : Dev nD) (c : Fin ((K (F := F)).nCore 0)) (i : Fin ((K (F := F)).nSub 0)) : sProp 𝕄 :=
  iprop(idxBlk m d (wid (c2 c) (s16 i)) ∗ outBlk d (wid (c2 c) (s16 i)) (gat m d)
    ∗ shShare m d (coreOf c) (s16 i)
    ∗ if i.val = 0 then iprop(tabShare m d (c2 c) ∗ shLoc d (coreOf c) ↦{shareDrop fullShare 16} tabSh m d (coreOf c)) else iprop(emp))

/-- The one call takes, per core, its tiles' rows of the index array and of the output and a read share of the table,
    and brings them back, the output's rows at the gathered weights; each task's proof consumes its barrier kit; each
    tile owes its sixteen arrivals. -/
def P : (K (F := F)).Pay (nD := nD) (Val := Elt F) (Name := ℕ) (U := UU) where
  st := fun q d c => match q with
    | 0 => iprop((bigSep Finset.univ fun i : Fin ((K (F := F)).nSub 0) => iprop(idxBlk m d (wid (c2 c) (s16 i)) ∗ outBlk d (wid (c2 c) (s16 i)) (m (outLoc d))))
        ∗ tabShare m d (c2 c))
  dn := fun q d c => match q with
    | 0 => iprop((bigSep Finset.univ fun i : Fin ((K (F := F)).nSub 0) => iprop(idxBlk m d (wid (c2 c) (s16 i)) ∗ outBlk d (wid (c2 c) (s16 i)) (gat m d)))
        ∗ tabShare m d (c2 c))
  go := fun q d c i => match q with | 0 => goRes m d c i
  td := fun q d c i => match q with | 0 => tdRes m d c i
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P goRes; dsimp only; split <;> infer_instance
  td q d c i := match q with
    | 0 => by unfold P tdRes; dsimp only; split <;> infer_instance

end Cert.Kernel.Sc

end
-- ==== Proof.KScTile.lean ====
/-
  One tile's task of the gather kernel, proved once at a symbolic tile.

  The task: start the copy of the tile's 32 rows of indices; on tile 0, copy the table into the core's shared memory and
  wait for it; meet the siblings at the barrier (tile 0 hands each sibling a read share of the shared table there);
  copy the shared table into the tile's own memory; wait for the indices; then, row by row, read sixteen indices at a
  time, read the table at them and store the sixteen weights into the row of the output scratch (thirteen pieces cover
  a row of 200, the last overlapping the one before with the same values); copy the output scratch to the tile's rows of
  the output array. What the rows of the output hold at the end is the table at the index words: the gathered weights.
-/
import proofs.«206738_g15788299780114_cont_7to1_105_28_alg».proof.Proof.KScSetup

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

-- the kernel's memrefs, spelt as the body table passes them
local notation "tabV" => (Memref.whole Cert.Kernel.main_v0_scv : Memref Cert.Kernel.sig Kind.scVector Space.hbm Cert.Kernel.S100000 EltTy.f32)
local notation "idxV" => (Memref.whole Cert.Kernel.main_arg0_scv : Memref Cert.Kernel.sig Kind.scVector Space.hbm Cert.Kernel.S1024x200 EltTy.i32)
local notation "outV" => (Memref.whole Cert.Kernel.main_v1_scv : Memref Cert.Kernel.sig Kind.scVector Space.hbm Cert.Kernel.S1024x200 EltTy.f32)
local notation "shV" => (Memref.whole Cert.Kernel.cc0_scratch0 : Memref Cert.Kernel.sig Kind.scVector Space.shared Cert.Kernel.S100000 EltTy.f32)
local notation "tV" => (Memref.whole Cert.Kernel.cc0_scratch1 : Memref Cert.Kernel.sig Kind.scVector Space.vmem Cert.Kernel.S100000 EltTy.f32)
local notation "iV" => (Memref.whole Cert.Kernel.cc0_scratch2 : Memref Cert.Kernel.sig Kind.scVector Space.vmem Cert.Kernel.S32x200 EltTy.i32)
local notation "oV" => (Memref.whole Cert.Kernel.cc0_scratch3 : Memref Cert.Kernel.sig Kind.scVector Space.vmem Cert.Kernel.S32x200 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
/-- The tile's block of rows. -/
abbrev wL (L : grid0.Coords) : Fin 32 := wid (cL L) (jL L)

/-- The tile's rows, as the kernel slices them out of the index array and of the output. -/
abbrev rowsK (L : grid0.Coords) : Rect S1024x200 := Rect.unit (s := S1024x200) (k0_off1 L) S32x200.size (k0_off1_inb L)
abbrev idxSl (L : grid0.Coords) : Memref sig .scVector .hbm S32x200 .i32 := (idxV).slice (rowsK L) (fun _ => rfl)
abbrev outSl (L : grid0.Coords) : Memref sig .scVector .hbm S32x200 .f32 := (outV).slice (rowsK L) (fun _ => rfl)

omit [FloatOps F] in
theorem rowsK_eq : rowsK L = blk (wL L) := by
  unfold rowsK blk Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_idxSl : (idxSl L).view.set = blkSet (wL L) := by
  show ((idxV).view.slice (rowsK L)).set = ((idxV).view.slice (blk (wL L))).set
  rw [rowsK_eq]
omit [FloatOps F] in
theorem set_outSl : (outSl L).view.set = blkSet (wL L) := by
  show ((outV).view.slice (rowsK L)).set = ((idxV).view.slice (blk (wL L))).set
  rw [rowsK_eq]; rfl

omit [FloatOps F] in
theorem pts_idxSl (f : Buf (Elt F) (idxLoc d)) :
    ((idxSl L).view.loc (V d (cV L) (jV L)) ↦[(idxSl L).view.set]{fullShare} f : sProp 𝕄) = idxLoc d ↦[blkSet (wL L)]{fullShare} f := by
  rw [set_idxSl]
omit [FloatOps F] in
theorem pts_outSl (f : Buf (Elt F) (outLoc d)) :
    ((outSl L).view.loc (V d (cV L) (jV L)) ↦[(outSl L).view.set]{fullShare} f : sProp 𝕄) = outLoc d ↦[blkSet (wL L)]{fullShare} f := by
  rw [set_outSl]

abbrev cIcell (d : Dev nD) (c : Fin τ.nSC) (i : Fin τ.nSub) : GSem nD τ sig := (V d c i, .dma cc0_scratch4.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- The tile's four transfer semaphores are among its own cells: they are them, at zero, and the rest. -/
theorem ownSems0_V :
    (ownSems0 (V d (cV L) (jV L)) : sProp 𝕄)
      = iprop(semVal (cIcell d (cV L) (jV L)) 0 ∗ semVal (cAcell d (cV L) (jV L)) 0 ∗ semVal (cBcell d (cV L) (jV L)) 0 ∗ semVal (cCcell d (cV L) (jV L)) 0
          ∗ bigSep (((((ownCells (V d (cV L) (jV L))).erase (cIcell d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cIcell d (cV L) (jV L))).mpr ⟨rfl, by
      show (SemLoc.dma cc0_scratch4.sem : SemLoc sig).isScoped .scVector = true; decide⟩),
    SparseCore.bigSep_erase' (Finset.mem_erase.mpr ⟨by simp [cIcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cIcell, cBcell]; decide,
      (mem_ownCells (g := cBcell d (cV L) (jV L))).mpr ⟨rfl, by show (SemLoc.dma cc0_scoped1.sem : SemLoc sig).isScoped .scVector = true; decide⟩⟩⟩),
    SparseCore.bigSep_erase' (Finset.mem_erase.mpr ⟨by simp [cBcell, cCcell]; decide, Finset.mem_erase.mpr ⟨by simp [cAcell, cCcell]; decide,
      Finset.mem_erase.mpr ⟨by simp [cIcell, cCcell]; decide,
      (mem_ownCells (g := cCcell d (cV L) (jV L))).mpr ⟨rfl, by show (SemLoc.dma cc0_scoped2.sem : SemLoc sig).isScoped .scVector = true; decide⟩⟩⟩⟩)]

omit [FloatOps F] in
/-- The three scratch buffers are among the tile's own: they are them, at some contents, and the rest. -/
theorem ownBufs_V :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f)
          ∗ (∃ f, (V d (cV L) (jV L)).loc cc0_scratch3 ↦{fullShare} f)
          ∗ bigSep ((((ownRefs (τ := τ) (.scVector (cV L) (jV L))).erase ((Proc.scVector (cV L) (jV L)).devRef cc0_scratch1)).erase
              ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch1) rfl)).trans ?_
  rw [SparseCore.bigSep_erase' (Finset.mem_erase.mpr ⟨fun e => absurd (Proc.devRef_injective _ e) (show (cc0_scratch2 : Ref sig .scVector) ≠ cc0_scratch1 by decide),
    SparseCore.Cfg.mem_ownRefs_of_owner (p := Proc.scVector (cV L) (jV L)) (b := (Proc.scVector (cV L) (jV L)).devRef cc0_scratch2) rfl⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
    SparseCore.Cfg.mem_ownRefs_of_owner (p := Proc.scVector (cV L) (jV L)) (b := (Proc.scVector (cV L) (jV L)).devRef cc0_scratch3) rfl⟩⟩)]

omit [FloatOps F] in
/-- The whole arrays and scratches as the tile's memrefs address them. -/
theorem pts_tabV (q : PosShare TreeShare) (f : Buf (Elt F) (tabLoc d)) :
    ((tabV).view.loc (V d (cV L) (jV L)) ↦{q} f : sProp 𝕄) = tabLoc d ↦{q} f := by
  simp only [Memref.view_whole, View.set_whole]
omit [FloatOps F] in
theorem pts_shV (q : PosShare TreeShare) (f : Buf (Elt F) (shLoc d (cV L))) :
    ((shV).view.loc (V d (cV L) (jV L)) ↦{q} f : sProp 𝕄) = shLoc d (cV L) ↦{q} f := by
  simp only [Memref.view_whole, View.set_whole]; rfl
omit [FloatOps F] in
theorem pts_tV (f : Buf (Elt F) ((V d (cV L) (jV L)).loc cc0_scratch1)) :
    ((tV).view.loc (V d (cV L) (jV L)) ↦{fullShare} f : sProp 𝕄) = (V d (cV L) (jV L)).loc cc0_scratch1 ↦{fullShare} f := rfl
omit [FloatOps F] in
theorem pts_iV (f : Buf (Elt F) ((V d (cV L) (jV L)).loc cc0_scratch2)) :
    ((iV).view.loc (V d (cV L) (jV L)) ↦{fullShare} f : sProp 𝕄) = (V d (cV L) (jV L)).loc cc0_scratch2 ↦{fullShare} f := rfl
omit [FloatOps F] in
theorem pts_oV (f : Buf (Elt F) ((V d (cV L) (jV L)).loc cc0_scratch3)) :
    ((oV).view.loc (V d (cV L) (jV L)) ↦{fullShare} f : sProp 𝕄) = (V d (cV L) (jV L)).loc cc0_scratch3 ↦{fullShare} f := rfl

/-- Every index word a row piece reads off the index scratch is below the table's extent when all the scratch's are. -/
theorem chk_range (I7 : Buf (Elt F) ((V d (cV L) (jV L)).loc cc0_scratch2)) (hI7 : ∀ j, (I7 j).toNat < 100000)
    (off : Fin 2 → Nat) (hoff : ∀ a, off a + S1x16.size a ≤ S32x200.size a) :
    ∀ a x, ((![shapeCast S16 ((iV).view.readAt (Elt F) (Rect.unit (s := S32x200) off S1x16.size hoff).toLoadRect I7) shapeCasts_S1x16_S16] : Fin 1 → IVec S16 32) a x).toNat < S100000.size a := by
  intro a x
  obtain rfl : a = 0 := Subsingleton.elim _ _
  exact hI7 _

/-- The first `k` rows of the output scratch hold the table at the index scratch's words. -/
def rowsDone (T6 : Buf (Elt F) ((V d (cV L) (jV L)).loc cc0_scratch1)) (I7 : Buf (Elt F) ((V d (cV L) (jV L)).loc cc0_scratch2))
    (k : ℕ) (f : Buf (Elt F) ((V d (cV L) (jV L)).loc cc0_scratch3)) : Prop :=
  ∀ (r : Fin 32) (c : Fin 200), r.val < k → f (ValueIdx.ix2 r c) = T6 (entry (I7 (ValueIdx.ix2 r c)))

/-- Before trip `k`: the table scratch and the index scratch as they stand, the output scratch with its first `k` rows done. -/
def inv (T6 : Buf (Elt F) ((V d (cV L) (jV L)).loc cc0_scratch1)) (I7 : Buf (Elt F) ((V d (cV L) (jV L)).loc cc0_scratch2))
    (k : ℕ) (_ : PUnit) : sProp 𝕄 :=
  iprop(((tV).view.loc (V d (cV L) (jV L)) ↦{fullShare} T6)
    ∗ ((iV).view.loc (V d (cV L) (jV L)) ↦{fullShare} I7)
    ∗ ∃ f, ⌜rowsDone d L T6 I7 k f⌝ ∗ (oV).view.loc (V d (cV L) (jV L)) ↦{fullShare} f)

omit [FloatOps F] in
/-- The table scratch through its whole-rectangle access is the table scratch. -/
theorem pts_tV_acc (f : Buf (Elt F) ((V d (cV L) (jV L)).loc cc0_scratch1)) :
    ((((tV).access (.whole S100000)).loc (V d (cV L) (jV L)) ↦{fullShare} f : sProp 𝕄)) = ((tV).view.loc (V d (cV L) (jV L)) ↦{fullShare} f) := rfl

end Tile

end Cert.Kernel.Sc

end
-- ==== Proof.KGatherPure.lean ====
/-
  What one trip of the gather loop leaves in the output scratch, as plain functions.

  A trip handles one row `k` of the tile's 32 rows. Thirteen times it reads sixteen consecutive index words of the
  row, reads the table at those words, and stores the sixteen weights at the same sixteen columns of the row of the
  output scratch: twelve pieces at columns 0, 16, …, 176 and a last one at columns 184 … 199, which overlaps the
  piece before it and stores the same values there. One lane of a piece is the table at the entry its index word
  names (`gpiece_apply`). Pieces that all agree with one function of the index, lie in row `k` and cover its 200
  columns turn "rows below `k` done" into "rows below `k + 1` done" (`rows_step`): an index of row `k` reads the
  piece that covers it, an index of an earlier row is under no piece and keeps what it held. A piece loaded and stored
  at (k, c0) has the three properties the step asks (`pc_ok`); the trip's own thirteen pieces, whose offsets in closed
  form are (k, 0), (k, 16), …, (k, 176), (k, 184), are taken one by one in the module that lists them.
-/
import proofs.«206738_g15788299780114_cont_7to1_105_28_alg».proof.Proof.KScTile
import Idealize.ShloMosaic.Lib.Writes
import Idealize.ShloMosaic.Lib.ValueIdx

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "tV" => (Memref.whole Cert.Kernel.cc0_scratch1 : Memref Cert.Kernel.sig Kind.scVector Space.vmem Cert.Kernel.S100000 EltTy.f32)
local notation "iV" => (Memref.whole Cert.Kernel.cc0_scratch2 : Memref Cert.Kernel.sig Kind.scVector Space.vmem Cert.Kernel.S32x200 EltTy.i32)
local notation "oV" => (Memref.whole Cert.Kernel.cc0_scratch3 : Memref Cert.Kernel.sig Kind.scVector Space.vmem Cert.Kernel.S32x200 EltTy.f32)

variable [FloatOps F]

section Gather

variable (d : Dev nD) (L : grid0.Coords)
variable (T6 : Buf (Elt F) ((V d (cV L) (jV L)).loc cc0_scratch1)) (I7 : Buf (Elt F) ((V d (cV L) (jV L)).loc cc0_scratch2))

/-! ## One piece: sixteen lanes gathered -/

/-- The sixteen weights of one piece: the sixteen index words the index scratch holds at `off`, as a vector, name
    sixteen entries of the table scratch; those entries, as a [1, 16] block. -/
def gpiece (off : Fin 2 → Nat) (hoff : ∀ a, off a + S1x16.size a ≤ S32x200.size a)
    (h : ∀ a x, ((![shapeCast S16 ((iV).view.readAt (Elt F) (Rect.unit (s := S32x200) off S1x16.size hoff).toLoadRect I7) shapeCasts_S1x16_S16] : Fin 1 → IVec S16 32) a x).toNat < S100000.size a) :
    S1x16.Idx → F .f32 :=
  shapeCast S1x16 (loadIdx (View.read (Elt F) ((tV).access (Rect.whole cc0_scratch1.ty.shape)) T6)
    ![shapeCast S16 ((iV).view.readAt (Elt F) (Rect.unit (s := S32x200) off S1x16.size hoff).toLoadRect I7) shapeCasts_S1x16_S16] h) shapeCasts_S16_S1x16

omit [FloatOps F] in
/-- Lane `x` of the block, taken as a lane of the 16-vector, is the index word at `x`'s place in the rectangle. -/
theorem lane_word (off : Fin 2 → Nat) (hoff : ∀ a, off a + S1x16.size a ≤ S32x200.size a) (x : S1x16.Idx) :
    shapeCast S16 ((iV).view.readAt (Elt F) (Rect.unit (s := S32x200) off S1x16.size hoff).toLoadRect I7) shapeCasts_S1x16_S16
        (Shape.reshapeEquiv shapeCasts_S16_S1x16 x)
      = I7 ((Rect.unit (s := S32x200) off S1x16.size hoff).emb x) := by
  show (iV).view.readAt (Elt F) (Rect.unit (s := S32x200) off S1x16.size hoff).toLoadRect I7
    (Shape.reshapeEquiv shapeCasts_S1x16_S16 (Shape.reshapeEquiv shapeCasts_S16_S1x16 x)) = _
  rw [Shape.reshapeEquiv_reshapeEquiv, Shape.reshapeEquiv_self]
  rfl

/-- One lane of a piece is the table at the entry its index word names. -/
theorem gpiece_apply (off : Fin 2 → Nat) (hoff : ∀ a, off a + S1x16.size a ≤ S32x200.size a)
    (h : ∀ a x, ((![shapeCast S16 ((iV).view.readAt (Elt F) (Rect.unit (s := S32x200) off S1x16.size hoff).toLoadRect I7) shapeCasts_S1x16_S16] : Fin 1 → IVec S16 32) a x).toNat < S100000.size a)
    (x : S1x16.Idx) :
    gpiece d L T6 I7 off hoff h x = T6 (entry (I7 ((Rect.unit (s := S32x200) off S1x16.size hoff).emb x))) := by
  have hw := lane_word d L I7 off hoff x
  have hlt : (I7 ((Rect.unit (s := S32x200) off S1x16.size hoff).emb x)).toNat < 100000 := by
    have := h 0 (Shape.reshapeEquiv shapeCasts_S16_S1x16 x)
    rw [← hw]; exact this
  unfold gpiece
  show View.read (Elt F) ((tV).access (Rect.whole cc0_scratch1.ty.shape)) T6
    (idxAt _ h (Shape.reshapeEquiv shapeCasts_S16_S1x16 x)) = _
  rw [Memref.read_access_whole]
  refine congrArg T6 (funext fun a => Fin.ext ?_)
  match a with
  | ⟨0, _⟩ =>
    show (shapeCast S16 ((iV).view.readAt (Elt F) (Rect.unit (s := S32x200) off S1x16.size hoff).toLoadRect I7) shapeCasts_S1x16_S16
      (Shape.reshapeEquiv shapeCasts_S16_S1x16 x)).toNat = (I7 ((Rect.unit (s := S32x200) off S1x16.size hoff).emb x)).toNat % 100000
    rw [hw, Nat.mod_eq_of_lt hlt]

/-! ## Pieces that fill a row -/

/-- Pieces that agree with the gathered weights, lie in row `k` and cover it take "rows below `k` done" to "rows below
    `k + 1` done". -/
theorem rows_step (f : Buf (Elt F) ((V d (cV L) (jV L)).loc cc0_scratch3)) (k : Fin 32) (hf : rowsDone d L T6 I7 k.val f)
    (Ls : List (View.Piece (Elt F) S32x200 .f32))
    (hG : ∀ p ∈ Ls, ∀ x, p.2 x = T6 (entry (I7 (p.1.emb x))))
    (hrow : ∀ p ∈ Ls, ∀ y ∈ p.1.set, (y 0).val = k.val)
    (hcov : ∀ c : Fin 200, ∃ p ∈ Ls, ValueIdx.ix2 k c ∈ p.1.set) :
    rowsDone d L T6 I7 (k.val + 1) ((oV).view.writes (Elt F) f Ls) := by
  intro r c hr
  show (oV).view.read (Elt F) ((oV).view.writes (Elt F) f Ls) (ValueIdx.ix2 r c) = _
  by_cases hk : r.val = k.val
  · obtain rfl : r = k := Fin.ext hk
    exact View.read_writes_apply_of_pieces (oV).view f (fun y => T6 (entry (I7 y))) Ls hG _ (hcov c)
  · rw [View.read_writes_apply_of_forall_not_mem (oV).view f _ Ls fun p hp hy => hk (hrow p hp _ hy)]
    exact hf r c (by omega)

/-! ## The trip's thirteen pieces -/

omit [FloatOps F] in
theorem trips_eq : k0_t1_loop.trips = 32 := by decide

variable (hI7 : ∀ j, (I7 j).toNat < 100000)

/-- The piece stored at `offS`: the weights gathered at the words loaded at `offL`. -/
abbrev pc (offS : Fin 2 → Nat) (inbS : ∀ a, offS a + S1x16.size a ≤ S32x200.size a) (offL : Fin 2 → Nat)
    (inbL : ∀ a, offL a + S1x16.size a ≤ S32x200.size a) : View.Piece (Elt F) S32x200 .f32 :=
  ⟨Rect.unit (s := S32x200) offS S1x16.size inbS, gpiece d L T6 I7 offL inbL (chk_range d L I7 hI7 _ _)⟩

/-- A piece loaded and stored at (k, c0): it agrees with the gathered weights, lies in row `k`, and covers the columns
    from `c0` to `c0 + 15`. -/
theorem pc_ok (k : Fin 32) (c0 : Nat) (offS : Fin 2 → Nat) (inbS : ∀ a, offS a + S1x16.size a ≤ S32x200.size a)
    (offL : Fin 2 → Nat) (inbL : ∀ a, offL a + S1x16.size a ≤ S32x200.size a)
    (hS : offS = ![k.val, c0]) (hL : offL = ![k.val, c0]) :
    (∀ x, (pc d L T6 I7 hI7 offS inbS offL inbL).2 x = T6 (entry (I7 ((pc d L T6 I7 hI7 offS inbS offL inbL).1.emb x))))
    ∧ (∀ y ∈ (pc d L T6 I7 hI7 offS inbS offL inbL).1.set, (y 0).val = k.val)
    ∧ (∀ c : Fin 200, c0 ≤ c.val → c.val < c0 + 16 → ValueIdx.ix2 k c ∈ (pc d L T6 I7 hI7 offS inbS offL inbL).1.set) := by
  subst hS hL
  refine ⟨fun x => gpiece_apply d L T6 I7 _ inbL _ x, fun y hy => ?_, fun c h1 h2 => ?_⟩
  · have h0 : k.val ≤ (y 0).val ∧ (y 0).val < k.val + 1 :=
      (Rect.mem_set_unit (s := S32x200) (off := ![k.val, c0]) (size := S1x16.size) (inb := inbS) (i := y)).1 hy (0 : Fin 2)
    omega
  · refine (Rect.mem_set_unit (s := S32x200) (off := ![k.val, c0]) (size := S1x16.size) (inb := inbS)
      (i := ValueIdx.ix2 k c)).2 fun a => ?_
    match a with
    | ⟨0, _⟩ => exact (show k.val ≤ k.val ∧ k.val < k.val + 1 from ⟨le_rfl, Nat.lt_succ_self _⟩)
    | ⟨1, _⟩ => exact (show c0 ≤ c.val ∧ c.val < c0 + 16 from ⟨h1, h2⟩)

end Gather

/-! ## The tile's rows of the output after the final copy -/

section Out

local notation "shV" => (Memref.whole Cert.Kernel.cc0_scratch0 : Memref Cert.Kernel.sig Kind.scVector Space.shared Cert.Kernel.S100000 EltTy.f32)

variable (m : (ℓ : Loc nD τ sig) → Buf (Elt F) ℓ) (d : Dev nD) (L : grid0.Coords)

/-- Once all 32 rows of the output scratch hold the table (as the core's shared memory holds it) at the tile's index
    words (its rows of the index array), copying the scratch whole over the tile's rows of the output array leaves
    the gathered weights there: element (r, c) of the scratch lands on row (tile's first row + r), column c, which is
    where the tile's slice of the index array has its word (r, c). -/
theorem out_rows (f : Buf (Elt F) ((V d (cV L) (jV L)).loc cc0_scratch3))
    (hf : rowsDone d L (View.read (Elt F) (shV).view (tabSh m d (cV L))) (View.read (Elt F) (idxSl L).view (m (idxLoc d)))
      k0_t1_loop.trips f) :
    ∀ j ∈ (outSl L).view.set,
      ((outSl L).view.writes (Elt F) (m (outLoc d)) [⟨Rect.whole S32x200, View.read (Elt F) (oV).view f⟩]) j = gat m d j := by
  intro j hj
  obtain ⟨y, -, rfl⟩ := Finset.mem_map.mp hj
  obtain ⟨r, c, rfl⟩ : ∃ (r : Fin 32) (c : Fin 200), y = ValueIdx.ix2 r c := ⟨y 0, y 1, ValueIdx.eq_ix2 y⟩
  -- the copy writes the scratch's element (r, c) at the slice's place (r, c)
  have hw : ((outSl L).view.writes (Elt F) (m (outLoc d)) [⟨Rect.whole S32x200, View.read (Elt F) (oV).view f⟩])
      ((outSl L).view.emb (ValueIdx.ix2 r c)) = f (ValueIdx.ix2 r c) := by
    have e := View.read_writes_cons_emb (outSl L).view (m (outLoc d)) (Rect.whole S32x200) (View.read (Elt F) (oV).view f) []
      (ValueIdx.ix2 r c)
    rw [Rect.emb_whole_apply] at e
    exact e
  refine hw.trans ((hf r c (by rw [trips_eq]; exact r.isLt)).trans ?_)
  rfl

end Out

end Cert.Kernel.Sc

end
-- ==== Proof.KGatherRows.lean ====
/-
  One trip of the gather loop, at its own thirteen pieces.

  The trip's stores are at the offsets (k, 184), (k, 176), (k, 160), …, (k, 16), (k, 0) of the output scratch, last
  store first, each of the sixteen weights gathered at the index words loaded at the same offset of the index scratch.
  Every piece agrees with the gathered weights, lies in row k and covers sixteen columns; the twelve pieces at the
  multiples of 16 cover columns 0 … 191 and the one at 184 covers 184 … 199, so the row's 200 columns are covered and
  the row-filling step applies.
-/
import proofs.«206738_g15788299780114_cont_7to1_105_28_alg».proof.Proof.KGatherPure

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "oV" => (Memref.whole Cert.Kernel.cc0_scratch3 : Memref Cert.Kernel.sig Kind.scVector Space.vmem Cert.Kernel.S32x200 EltTy.f32)

variable [FloatOps F]

section Rows

variable (d : Dev nD) (L : grid0.Coords)
variable (T6 : Buf (Elt F) ((V d (cV L) (jV L)).loc cc0_scratch1)) (I7 : Buf (Elt F) ((V d (cV L) (jV L)).loc cc0_scratch2))
variable (hI7 : ∀ j, (I7 j).toNat < 100000)

/-- One trip of the loop: after its thirteen stores, one more row of the output scratch holds the gathered weights. -/
theorem trip_rows (k : Fin k0_t1_loop.trips) (f : Buf (Elt F) ((V d (cV L) (jV L)).loc cc0_scratch3))
    (hf : rowsDone d L T6 I7 k.val f) :
    rowsDone d L T6 I7 (k.val + 1) ((oV).view.writes (Elt F) f
      [pc d L T6 I7 hI7 (k0_off27 k) (k0_off27_inb k) (k0_off26 k) (k0_off26_inb k),
       pc d L T6 I7 hI7 (k0_off25 k) (k0_off25_inb k) (k0_off24 k) (k0_off24_inb k),
       pc d L T6 I7 hI7 (k0_off23 k) (k0_off23_inb k) (k0_off22 k) (k0_off22_inb k),
       pc d L T6 I7 hI7 (k0_off21 k) (k0_off21_inb k) (k0_off20 k) (k0_off20_inb k),
       pc d L T6 I7 hI7 (k0_off19 k) (k0_off19_inb k) (k0_off18 k) (k0_off18_inb k),
       pc d L T6 I7 hI7 (k0_off17 k) (k0_off17_inb k) (k0_off16 k) (k0_off16_inb k),
       pc d L T6 I7 hI7 (k0_off15 k) (k0_off15_inb k) (k0_off14 k) (k0_off14_inb k),
       pc d L T6 I7 hI7 (k0_off13 k) (k0_off13_inb k) (k0_off12 k) (k0_off12_inb k),
       pc d L T6 I7 hI7 (k0_off11 k) (k0_off11_inb k) (k0_off10 k) (k0_off10_inb k),
       pc d L T6 I7 hI7 (k0_off9 k) (k0_off9_inb k) (k0_off8 k) (k0_off8_inb k),
       pc d L T6 I7 hI7 (k0_off7 k) (k0_off7_inb k) (k0_off6 k) (k0_off6_inb k),
       pc d L T6 I7 hI7 (k0_off5 k) (k0_off5_inb k) (k0_off4 k) (k0_off4_inb k),
       pc d L T6 I7 hI7 (k0_off3 k) (k0_off3_inb k) (k0_off2 k) (k0_off2_inb k)]) := by
  have P27 := pc_ok d L T6 I7 hI7 (Fin.cast trips_eq k) 184 (k0_off27 k) (k0_off27_inb k) (k0_off26 k) (k0_off26_inb k) (k0_off27_eq k) (k0_off26_eq k)
  have P25 := pc_ok d L T6 I7 hI7 (Fin.cast trips_eq k) 176 (k0_off25 k) (k0_off25_inb k) (k0_off24 k) (k0_off24_inb k) (k0_off25_eq k) (k0_off24_eq k)
  have P23 := pc_ok d L T6 I7 hI7 (Fin.cast trips_eq k) 160 (k0_off23 k) (k0_off23_inb k) (k0_off22 k) (k0_off22_inb k) (k0_off23_eq k) (k0_off22_eq k)
  have P21 := pc_ok d L T6 I7 hI7 (Fin.cast trips_eq k) 144 (k0_off21 k) (k0_off21_inb k) (k0_off20 k) (k0_off20_inb k) (k0_off21_eq k) (k0_off20_eq k)
  have P19 := pc_ok d L T6 I7 hI7 (Fin.cast trips_eq k) 128 (k0_off19 k) (k0_off19_inb k) (k0_off18 k) (k0_off18_inb k) (k0_off19_eq k) (k0_off18_eq k)
  have P17 := pc_ok d L T6 I7 hI7 (Fin.cast trips_eq k) 112 (k0_off17 k) (k0_off17_inb k) (k0_off16 k) (k0_off16_inb k) (k0_off17_eq k) (k0_off16_eq k)
  have P15 := pc_ok d L T6 I7 hI7 (Fin.cast trips_eq k) 96 (k0_off15 k) (k0_off15_inb k) (k0_off14 k) (k0_off14_inb k) (k0_off15_eq k) (k0_off14_eq k)
  have P13 := pc_ok d L T6 I7 hI7 (Fin.cast trips_eq k) 80 (k0_off13 k) (k0_off13_inb k) (k0_off12 k) (k0_off12_inb k) (k0_off13_eq k) (k0_off12_eq k)
  have P11 := pc_ok d L T6 I7 hI7 (Fin.cast trips_eq k) 64 (k0_off11 k) (k0_off11_inb k) (k0_off10 k) (k0_off10_inb k) (k0_off11_eq k) (k0_off10_eq k)
  have P9 := pc_ok d L T6 I7 hI7 (Fin.cast trips_eq k) 48 (k0_off9 k) (k0_off9_inb k) (k0_off8 k) (k0_off8_inb k) (k0_off9_eq k) (k0_off8_eq k)
  have P7 := pc_ok d L T6 I7 hI7 (Fin.cast trips_eq k) 32 (k0_off7 k) (k0_off7_inb k) (k0_off6 k) (k0_off6_inb k) (k0_off7_eq k) (k0_off6_eq k)
  have P5 := pc_ok d L T6 I7 hI7 (Fin.cast trips_eq k) 16 (k0_off5 k) (k0_off5_inb k) (k0_off4 k) (k0_off4_inb k) (k0_off5_eq k) (k0_off4_eq k)
  have P3 := pc_ok d L T6 I7 hI7 (Fin.cast trips_eq k) 0 (k0_off3 k) (k0_off3_inb k) (k0_off2 k) (k0_off2_inb k) (k0_off3_eq k) (k0_off2_eq k)
  refine rows_step d L T6 I7 f (Fin.cast trips_eq k) hf _ ?_ ?_ ?_
  · intro p hp
    simp only [List.mem_cons, List.not_mem_nil, or_false] at hp
    rcases hp with rfl | rfl | rfl | rfl | rfl | rfl | rfl | rfl | rfl | rfl | rfl | rfl | rfl
    exacts [P27.1, P25.1, P23.1, P21.1, P19.1, P17.1, P15.1, P13.1, P11.1, P9.1, P7.1, P5.1, P3.1]
  · intro p hp
    simp only [List.mem_cons, List.not_mem_nil, or_false] at hp
    rcases hp with rfl | rfl | rfl | rfl | rfl | rfl | rfl | rfl | rfl | rfl | rfl | rfl | rfl
    exacts [P27.2.1, P25.2.1, P23.2.1, P21.2.1, P19.2.1, P17.2.1, P15.2.1, P13.2.1, P11.2.1, P9.2.1, P7.2.1, P5.2.1, P3.2.1]
  · intro c
    have hc := c.isLt
    have hcase : (0 ≤ c.val ∧ c.val < 16) ∨ (16 ≤ c.val ∧ c.val < 32) ∨ (32 ≤ c.val ∧ c.val < 48) ∨ (48 ≤ c.val ∧ c.val < 64) ∨ (64 ≤ c.val ∧ c.val < 80) ∨ (80 ≤ c.val ∧ c.val < 96) ∨ (96 ≤ c.val ∧ c.val < 112) ∨ (112 ≤ c.val ∧ c.val < 128) ∨ (128 ≤ c.val ∧ c.val < 144) ∨ (144 ≤ c.val ∧ c.val < 160) ∨ (160 ≤ c.val ∧ c.val < 176) ∨ (176 ≤ c.val ∧ c.val < 192) ∨ 192 ≤ c.val := by omega
    rcases hcase with h | h | h | h | h | h | h | h | h | h | h | h | h
    · exact ⟨_, by simp only [List.mem_cons, true_or, or_true], P3.2.2 c (by omega) (by omega)⟩
    · exact ⟨_, by simp only [List.mem_cons, true_or, or_true], P5.2.2 c (by omega) (by omega)⟩
    · exact ⟨_, by simp only [List.mem_cons, true_or, or_true], P7.2.2 c (by omega) (by omega)⟩
    · exact ⟨_, by simp only [List.mem_cons, true_or, or_true], P9.2.2 c (by omega) (by omega)⟩
    · exact ⟨_, by simp only [List.mem_cons, true_or, or_true], P11.2.2 c (by omega) (by omega)⟩
    · exact ⟨_, by simp only [List.mem_cons, true_or, or_true], P13.2.2 c (by omega) (by omega)⟩
    · exact ⟨_, by simp only [List.mem_cons, true_or, or_true], P15.2.2 c (by omega) (by omega)⟩
    · exact ⟨_, by simp only [List.mem_cons, true_or, or_true], P17.2.2 c (by omega) (by omega)⟩
    · exact ⟨_, by simp only [List.mem_cons, true_or, or_true], P19.2.2 c (by omega) (by omega)⟩
    · exact ⟨_, by simp only [List.mem_cons, true_or, or_true], P21.2.2 c (by omega) (by omega)⟩
    · exact ⟨_, by simp only [List.mem_cons, true_or, or_true], P23.2.2 c (by omega) (by omega)⟩
    · exact ⟨_, by simp only [List.mem_cons, true_or, or_true], P25.2.2 c (by omega) (by omega)⟩
    · exact ⟨_, by simp only [List.mem_cons, true_or, or_true], P27.2.2 c (by omega) (by omega)⟩

end Rows

end Cert.Kernel.Sc

end
-- ==== Proof.KScTrip.lean ====
/-
  The loop of the gather kernel, one trip at a symbolic row: the executor runs the trip's loads, stores and index checks
  (each check holds because every word of the index scratch is below the table's extent), the thirteen indexed reads of
  the table scratch are taken by hand; what the trip leaves in the output scratch is the thirteen pieces written over
  what it held.
-/
import proofs.«206738_g15788299780114_cont_7to1_105_28_alg».proof.Proof.KScTile
import proofs.«206738_g15788299780114_cont_7to1_105_28_alg».proof.Proof.KGatherRows

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.Kernel.main_v0_scv : Memref Cert.Kernel.sig Kind.scVector Space.hbm Cert.Kernel.S100000 EltTy.f32)
local notation "idxV" => (Memref.whole Cert.Kernel.main_arg0_scv : Memref Cert.Kernel.sig Kind.scVector Space.hbm Cert.Kernel.S1024x200 EltTy.i32)
local notation "outV" => (Memref.whole Cert.Kernel.main_v1_scv : Memref Cert.Kernel.sig Kind.scVector Space.hbm Cert.Kernel.S1024x200 EltTy.f32)
local notation "shV" => (Memref.whole Cert.Kernel.cc0_scratch0 : Memref Cert.Kernel.sig Kind.scVector Space.shared Cert.Kernel.S100000 EltTy.f32)
local notation "tV" => (Memref.whole Cert.Kernel.cc0_scratch1 : Memref Cert.Kernel.sig Kind.scVector Space.vmem Cert.Kernel.S100000 EltTy.f32)
local notation "iV" => (Memref.whole Cert.Kernel.cc0_scratch2 : Memref Cert.Kernel.sig Kind.scVector Space.vmem Cert.Kernel.S32x200 EltTy.i32)
local notation "oV" => (Memref.whole Cert.Kernel.cc0_scratch3 : Memref Cert.Kernel.sig Kind.scVector Space.vmem Cert.Kernel.S32x200 EltTy.f32)

variable [FloatOps F]

section Tile

variable (d : Dev nD) (L : grid0.Coords)

set_option hygiene false in
/-- One indexed read of the table scratch (the load of the whole scratch it is made of), then the executor up to the next. -/
macro "gather_step" : tactic => `(tactic| (
  iapply (SparseCore.wp_vectorLoadIdx 𝒱₀ (V d (cV L) (jV L)) none Set.univ (base := tV) (S := Finset.univ) (q := fullShare) (Finset.subset_univ _)) $$ Ht
  iintro Ht
  sl_exec (disch := exact chk_range d L _ hI7 _ _)))

set_option maxHeartbeats 4000000 in
/-- One trip of the loop: row `k` of the output scratch is filled, thirteen pieces of sixteen lanes, each the table
    scratch read at the sixteen index words of the piece; the rows before it stay. -/
theorem trip (T6 : Buf (Elt F) ((V d (cV L) (jV L)).loc cc0_scratch1)) (I7 : Buf (Elt F) ((V d (cV L) (jV L)).loc cc0_scratch2))
    (hI7 : ∀ j, (I7 j).toNat < 100000) (k : Fin k0_t1_loop.trips) :
    inv d L T6 I7 k.val ⟨⟩
      ⊢ wp frame (wpE (defs₀ (F := F)) 𝒱₀ (V d (cV L) (jV L)) none) Set.univ
          (k0_t1_body L tabV (Memref.isWhole_whole _) idxV (Memref.isWhole_whole _) outV (Memref.isWhole_whole _) shV (Memref.isWhole_whole _)
            tV (Memref.isWhole_whole _) iV (Memref.isWhole_whole _) oV (Memref.isWhole_whole _) cc0_scratch4 cc0_scoped0 cc0_scoped1 cc0_scoped2 k ⟨⟩)
          (inv d L T6 I7 (k.val + 1)) := by
  unfold inv
  iintro ⟨Ht0, Hiv, %f, %hf, Hov⟩
  ihave Ht := (Entails.of_eq (pts_tV_acc (F := F) d L _).symm) $$ Ht0
  sl_exec (disch := exact chk_range d L _ hI7 _ _)
  gather_step
  gather_step
  gather_step
  gather_step
  gather_step
  gather_step
  gather_step
  gather_step
  gather_step
  gather_step
  gather_step
  gather_step
  gather_step
  sl_step
  isplitl [Ht]; · iapply (Entails.of_eq (pts_tV_acc (F := F) d L _)); iexact Ht
  isplitl [Hiv]; · iexact Hiv
  iexists _; isplitr
  swap; · iexact Hov
  ipureintro
  sl_unfold_run_names
  exact trip_rows d L T6 I7 hI7 k f hf

end Tile

end Cert.Kernel.Sc

end
-- ==== Proof.KScBody.lean ====
/-
  One tile's task of the gather kernel, whole: the copy of the tile's rows of indices is started; tile 0 copies the table
  into its core's shared memory, splits what it holds of it into sixteen read shares and arrives at the barrier with
  them, each sibling arriving empty-handed; past the barrier every tile holds its read share, copies the shared table
  into its own memory, waits for its indices, runs the loop (every index word is below the table's extent, so every
  check passes) and copies the gathered rows out: its rows of the output then hold the table at its index words.
-/
import proofs.«206738_g15788299780114_cont_7to1_105_28_alg».proof.Proof.KScTrip
import proofs.«206738_g15788299780114_cont_7to1_105_28_alg».proof.Proof.KGatherPure

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.Kernel.main_v0_scv : Memref Cert.Kernel.sig Kind.scVector Space.hbm Cert.Kernel.S100000 EltTy.f32)
local notation "idxV" => (Memref.whole Cert.Kernel.main_arg0_scv : Memref Cert.Kernel.sig Kind.scVector Space.hbm Cert.Kernel.S1024x200 EltTy.i32)
local notation "outV" => (Memref.whole Cert.Kernel.main_v1_scv : Memref Cert.Kernel.sig Kind.scVector Space.hbm Cert.Kernel.S1024x200 EltTy.f32)
local notation "shV" => (Memref.whole Cert.Kernel.cc0_scratch0 : Memref Cert.Kernel.sig Kind.scVector Space.shared Cert.Kernel.S100000 EltTy.f32)
local notation "tV" => (Memref.whole Cert.Kernel.cc0_scratch1 : Memref Cert.Kernel.sig Kind.scVector Space.vmem Cert.Kernel.S100000 EltTy.f32)
local notation "iV" => (Memref.whole Cert.Kernel.cc0_scratch2 : Memref Cert.Kernel.sig Kind.scVector Space.vmem Cert.Kernel.S32x200 EltTy.i32)
local notation "oV" => (Memref.whole Cert.Kernel.cc0_scratch3 : Memref Cert.Kernel.sig Kind.scVector Space.vmem Cert.Kernel.S32x200 EltTy.f32)

variable [FloatOps F]

section Tile

variable (d : Dev nD) (L : grid0.Coords)

omit [FloatOps F] in
theorem cond_ne (n : Fin 16) (h : n.val ≠ 0) : ¬ (Scalar.cmpi .ne (Scalar.extui (Scalar.cmpi .eq (BitVec.ofNat 32 n.val) 0#32)) 0#32 = 1#1) := by
  revert n; decide

/-- A tile other than tile 0 arrives empty-handed: its duty in every sibling's round carries nothing. -/
theorem arrive_nz (h0 : (L 1).val ≠ 0) :
    iprop((bigSep Finset.univ fun j : Fin (grid0.bound 1) => reached EB (bcell d (cV L) (j.castLE hsub0)) 0)
        ∗ (bigSep Finset.univ fun j : Fin (grid0.bound 1) => dutyTok EB (bcell d (cV L) (j.castLE hsub0)) 0 (jV L).val))
      ⊢ (bigSep Finset.univ fun j : Fin (grid0.bound 1) => iprop(dutyTok EB (bcell d (cV L) (j.castLE hsub0)) 0 (jV L).val
          ∗ (bRd (F := F) m).payload (bcell d (cV L) (j.castLE hsub0)) 0 (jV L).val ∗ reached EB (bcell d (cV L) (j.castLE hsub0)) 0) : sProp 𝕄) := by
  rw [bigSep_sep', bigSep_sep']
  have hp : (bigSep Finset.univ fun j : Fin (grid0.bound 1) => (bRd (F := F) m).payload (bcell d (cV L) (j.castLE hsub0)) 0 (jV L).val) = (iprop(emp) : sProp 𝕄) := by
    rw [← bigSep_emp' (F := F) (Finset.univ : Finset (Fin (grid0.bound 1)))]
    exact bigSep_congr fun j _ => if_neg h0
  rw [hp]
  iintro ⟨Hr, Ht⟩
  isplitl [Ht]; · iexact Ht
  isplitr; · iempintro
  iexact Hr

/-- What a tile reads on leaving the barrier: among its round's payloads, tile 0's — its read share of the shared table. -/
theorem leave_share :
    (bigSep ((bRd (F := F) m).duties (bcell d (cV L) (jV L)) 0 \ ∅) fun n => (bRd (F := F) m).payload (bcell d (cV L) (jV L)) 0 n)
      ⊢ shShare m d (cV L) (jL L) := by
  rw [Finset.sdiff_empty, bRd_duties₀]
  have hmem : (0 : ℕ) ∈ (Finset.univ : Finset (Fin τ.nSub)).image Fin.val :=
    Finset.mem_image.mpr ⟨(⟨0, by decide⟩ : Fin τ.nSub), Finset.mem_univ _, rfl⟩
  exact (bigSep_elim (Φ := fun n => (bRd (F := F) m).payload (bcell d (cV L) (jV L)) 0 n) hmem).trans
    (Entails.of_eq (by
      show (if (0 : ℕ) = 0 then shShare m d (cV L) (Fin.cast nSub_eq (jV L)) else iprop(emp)) = shShare m d (cV L) (jL L)
      exact if_pos rfl))

omit [FloatOps F] in
theorem cond_eq (n : Fin 16) (h : n.val = 0) : Scalar.cmpi .ne (Scalar.extui (Scalar.cmpi .eq (BitVec.ofNat 32 n.val) 0#32)) 0#32 = 1#1 := by
  revert n; decide

/-- Tile 0 arrives with the sixteen read shares of the shared table: its duty in sibling `j`'s round carries share `j`. -/
theorem arrive_z (h0 : (L 1).val = 0) :
    iprop((bigSep Finset.univ fun j : Fin (grid0.bound 1) => reached EB (bcell d (cV L) (j.castLE hsub0)) 0)
        ∗ (bigSep Finset.univ fun j : Fin (grid0.bound 1) => dutyTok EB (bcell d (cV L) (j.castLE hsub0)) 0 (jV L).val)
        ∗ (bigSep Finset.univ fun i : Fin 16 => shLoc d (cV L) ↦{shareTok fullShare 16 i} tabSh m d (cV L)))
      ⊢ (bigSep Finset.univ fun j : Fin (grid0.bound 1) => iprop(dutyTok EB (bcell d (cV L) (j.castLE hsub0)) 0 (jV L).val
          ∗ (bRd (F := F) m).payload (bcell d (cV L) (j.castLE hsub0)) 0 (jV L).val ∗ reached EB (bcell d (cV L) (j.castLE hsub0)) 0) : sProp 𝕄) := by
  rw [bigSep_sep', bigSep_sep']
  have hp : (bigSep Finset.univ fun j : Fin (grid0.bound 1) => (bRd (F := F) m).payload (bcell d (cV L) (j.castLE hsub0)) 0 (jV L).val)
      = (bigSep Finset.univ fun i : Fin 16 => shLoc d (cV L) ↦{shareTok fullShare 16 i} tabSh m d (cV L) : sProp 𝕄) :=
    bigSep_congr fun j _ => if_pos h0
  rw [hp]
  iintro ⟨Hr, Ht, Hs⟩
  isplitl [Ht]; · iexact Ht
  isplitl [Hs]; · iexact Hs
  iexact Hr

omit [FloatOps F] in
/-- The table read out of HBM is the contents the shared memory's read shares are stated at. -/
theorem pts_sh_tab (q : PosShare TreeShare) :
    ((shLoc d (cV L) ↦{q} View.read (Elt F) (tabV).view (tab m d) : sProp 𝕄)) = (shLoc d (cV L) ↦{q} tabSh m d (cV L)) := rfl

set_option maxHeartbeats 4000000 in
/-- The task on a tile other than tile 0. -/
theorem tile_body_nz (hF : (K (F := F)).Facts) (hin : ∀ j, (m (idxLoc d) j).toNat < 100000) (h0 : (L 1).val ≠ 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (idxBlk m d (wL L) ∗ outBlk d (wL L) (m (outLoc d))
            ∗ if (L 1).val = 0 then iprop(tabShare m d (cL L) ∗ ∃ f, shLoc d (cV L) ↦{fullShare} f) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L tabV (Memref.isWhole_whole _) idxV (Memref.isWhole_whole _) outV (Memref.isWhole_whole _) shV (Memref.isWhole_whole _)
            tV (Memref.isWhole_whole _) iV (Memref.isWhole_whole _) oV (Memref.isWhole_whole _) cc0_scratch4 cc0_scoped0 cc0_scoped1 cc0_scoped2)
          fun _ => iprop((idxBlk m d (wL L) ∗ outBlk d (wL L) (gat m d) ∗ shShare m d (cV L) (jL L)
              ∗ if (L 1).val = 0 then iprop(tabShare m d (cL L) ∗ shLoc d (cV L) ↦{shareDrop fullShare 16} tabSh m d (cV L)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hc := cond_ne (jL L) h0
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold bkit
  rw [if_neg h0, if_neg h0]
  iintro ⟨#Hlv, ⟨⟨%κ, #Hinv⟩, Htoks, #Hreached, Hat, Hcred⟩, ⟨Hi, Ho, -⟩, ⟨⟨%ft, Ht⟩, ⟨%fi, Hiv⟩, ⟨%fo, Hov⟩, Hbufs⟩, ⟨HsemI, HsemA, HsemB, HsemC, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_idxSl (F := F) d L _).symm) $$ Hi
  ihave Ho' := (Entails.of_eq (pts_outSl (F := F) d L _).symm) $$ Ho
  ihave Ht' := (Entails.of_eq (pts_tV (F := F) d L _).symm) $$ Ht
  ihave Hiv' := (Entails.of_eq (pts_iV (F := F) d L _).symm) $$ Hiv
  ihave Hov' := (Entails.of_eq (pts_oV (F := F) d L _).symm) $$ Hov
  sl_exec
  -- the barrier
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]
    · iapply (arrive_nz m d L h0)
      isplitr; · iexact Hreached
      iexact Htoks
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hpay⟩
  ihave Hsh := (leave_share m d L) $$ Hpay
  ihave Hsh' := (Entails.of_eq (pts_shV (F := F) d L _ _).symm) $$ Hsh
  sl_exec
  rw [show ∀ f w, View.write (Elt F) (tV).view f w Finset.univ = w from fun f w => View.write_whole_univ _ f w,
    show ∀ f w, View.write (Elt F) (iV).view f w Finset.univ = w from fun f w => View.write_whole_univ _ f w]
  sl_unfold_run_names
  have hI7 : ∀ j, ((View.read (Elt F) (idxSl L).view (m (idxLoc d)) : Buf (Elt F) ((V d (cV L) (jV L)).loc cc0_scratch2)) j).toNat < 100000 :=
    fun j => hin _
  sl_for (inv d L (View.read (Elt F) (shV).view (tabSh m d (cV L))) (View.read (Elt F) (idxSl L).view (m (idxLoc d)))) $$ [Ht' Hiv' Hov']
  case region =>
    intro k acc
    exact trip d L _ _ hI7 k
  · unfold inv
    isplitl [Ht']; · iexact Ht'
    isplitl [Hiv']; · iexact Hiv'
    iexists fo; isplitr
    · ipureintro; intro r c hr; exact absurd hr (Nat.not_lt_zero _)
    · iexact Hov'
  iintro %_ HI
  unfold inv
  icases HI with ⟨Ht', Hiv', %f, %hf, Hov'⟩
  sl_exec
  sl_step
  isplitl [Hi' Ho' Hsh']
  · isplitl [Hi']; · iapply (Entails.of_eq (pts_idxSl (F := F) d L _)); iexact Hi'
    isplitl [Ho']
    · iapply (Entails.of_eq (pts_outSl (F := F) d L _))
      iapply (Entails.of_eq (pointsTo_congr (out_rows m d L f hf)))
      iexact Ho'
    isplitl [Hsh']
    · iapply (Entails.of_eq (pts_shV (F := F) d L _ _)); iexact Hsh'
    iempintro
  isplitl [Ht' Hiv' Hov' Hbufs]
  · isplitl [Ht']; · iexists _; iexact Ht'
    isplitl [Hiv']; · iexists _; iexact Hiv'
    isplitl [Hov']; · iexists _; iexact Hov'
    iexact Hbufs
  isplitl [HsemI HsemA HsemB HsemC Hsems]
  · isplitl [HsemI]; · iexact HsemI
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  exact .inl hp

set_option maxHeartbeats 4000000 in
/-- The task on tile 0. -/
theorem tile_body_z (hF : (K (F := F)).Facts) (hin : ∀ j, (m (idxLoc d) j).toNat < 100000) (h0 : (L 1).val = 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (idxBlk m d (wL L) ∗ outBlk d (wL L) (m (outLoc d))
            ∗ if (L 1).val = 0 then iprop(tabShare m d (cL L) ∗ ∃ f, shLoc d (cV L) ↦{fullShare} f) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L tabV (Memref.isWhole_whole _) idxV (Memref.isWhole_whole _) outV (Memref.isWhole_whole _) shV (Memref.isWhole_whole _)
            tV (Memref.isWhole_whole _) iV (Memref.isWhole_whole _) oV (Memref.isWhole_whole _) cc0_scratch4 cc0_scoped0 cc0_scoped1 cc0_scoped2)
          fun _ => iprop((idxBlk m d (wL L) ∗ outBlk d (wL L) (gat m d) ∗ shShare m d (cV L) (jL L)
              ∗ if (L 1).val = 0 then iprop(tabShare m d (cL L) ∗ shLoc d (cV L) ↦{shareDrop fullShare 16} tabSh m d (cV L)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hc := cond_eq (jL L) h0
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold bkit
  rw [if_pos h0, if_pos h0]
  iintro ⟨#Hlv, ⟨⟨%κ, #Hinv⟩, Htoks, #Hreached, Hat, Hcred⟩, ⟨Hi, Ho, Htab, ⟨%fsh, Hshw⟩⟩, ⟨⟨%ft, Ht⟩, ⟨%fi, Hiv⟩, ⟨%fo, Hov⟩, Hbufs⟩, ⟨HsemI, HsemA, HsemB, HsemC, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_idxSl (F := F) d L _).symm) $$ Hi
  ihave Ho' := (Entails.of_eq (pts_outSl (F := F) d L _).symm) $$ Ho
  ihave Ht' := (Entails.of_eq (pts_tV (F := F) d L _).symm) $$ Ht
  ihave Hiv' := (Entails.of_eq (pts_iV (F := F) d L _).symm) $$ Hiv
  ihave Hov' := (Entails.of_eq (pts_oV (F := F) d L _).symm) $$ Hov
  ihave Htab' := (Entails.of_eq (pts_tabV (F := F) d L _ _).symm) $$ Htab
  ihave Hshw' := (Entails.of_eq (pts_shV (F := F) d L _ _).symm) $$ Hshw
  sl_exec
  -- the shared memory now holds the table: split it into the sixteen read shares
  rw [show ∀ f w, View.write (Elt F) (shV).view f w Finset.univ = w from fun f w => View.write_whole_univ _ f w]
  sl_unfold_run_names
  ihave Hshw2 := (Entails.of_eq (pts_shV (F := F) d L fullShare _)) $$ Hshw'
  ihave Hshw3 := (Entails.of_eq (pts_sh_tab (F := F) m d L fullShare)) $$ Hshw2
  ihave Hsp := (pointsTo_toks_split (ℓ := shLoc d (cV L)) (S := Finset.univ) (f := tabSh m d (cV L)) fullShare 16) $$ Hshw3
  icases Hsp with ⟨Hdrop, Hshares⟩
  -- the barrier
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat Hshares]
  · isplitr; · iexact Hinv
    isplitl [HO]; · iexact HO
    isplitl [Htoks Hshares]
    · iapply (arrive_z m d L h0)
      isplitr; · iexact Hreached
      isplitl [Htoks]; · iexact Htoks
      iexact Hshares
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hpay⟩
  ihave Hsh := (leave_share m d L) $$ Hpay
  ihave Hsh' := (Entails.of_eq (pts_shV (F := F) d L _ _).symm) $$ Hsh
  sl_exec
  rw [show ∀ f w, View.write (Elt F) (tV).view f w Finset.univ = w from fun f w => View.write_whole_univ _ f w,
    show ∀ f w, View.write (Elt F) (iV).view f w Finset.univ = w from fun f w => View.write_whole_univ _ f w]
  sl_unfold_run_names
  have hI7 : ∀ j, ((View.read (Elt F) (idxSl L).view (m (idxLoc d)) : Buf (Elt F) ((V d (cV L) (jV L)).loc cc0_scratch2)) j).toNat < 100000 :=
    fun j => hin _
  sl_for (inv d L (View.read (Elt F) (shV).view (tabSh m d (cV L))) (View.read (Elt F) (idxSl L).view (m (idxLoc d)))) $$ [Ht' Hiv' Hov']
  case region =>
    intro k acc
    exact trip d L _ _ hI7 k
  · unfold inv
    isplitl [Ht']; · iexact Ht'
    isplitl [Hiv']; · iexact Hiv'
    iexists fo; isplitr
    · ipureintro; intro r c hr; exact absurd hr (Nat.not_lt_zero _)
    · iexact Hov'
  iintro %_ HI
  unfold inv
  icases HI with ⟨Ht', Hiv', %f, %hf, Hov'⟩
  sl_exec
  sl_step
  isplitl [Hi' Ho' Hsh' Htab' Hdrop]
  · isplitl [Hi']; · iapply (Entails.of_eq (pts_idxSl (F := F) d L _)); iexact Hi'
    isplitl [Ho']
    · iapply (Entails.of_eq (pts_outSl (F := F) d L _))
      iapply (Entails.of_eq (pointsTo_congr (out_rows m d L f hf)))
      iexact Ho'
    isplitl [Hsh']
    · iapply (Entails.of_eq (pts_shV (F := F) d L _ _)); iexact Hsh'
    isplitl [Htab']
    · iapply (Entails.of_eq (pts_tabV (F := F) d L _ _)); iexact Htab'
    iexact Hdrop
  isplitl [Ht' Hiv' Hov' Hbufs]
  · isplitl [Ht']; · iexists _; iexact Ht'
    isplitl [Hiv']; · iexists _; iexact Hiv'
    isplitl [Hov']; · iexists _; iexact Hov'
    iexact Hbufs
  isplitl [HsemI HsemA HsemB HsemC Hsems]
  · isplitl [HsemI]; · iexact HsemI
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

/-- The task at any tile: tile 0's way or the others'. -/
theorem tile_body (hF : (K (F := F)).Facts) (hin : ∀ j, (m (idxLoc d) j).toNat < 100000) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (idxBlk m d (wL L) ∗ outBlk d (wL L) (m (outLoc d))
            ∗ if (L 1).val = 0 then iprop(tabShare m d (cL L) ∗ ∃ f, shLoc d (cV L) ↦{fullShare} f) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L tabV (Memref.isWhole_whole _) idxV (Memref.isWhole_whole _) outV (Memref.isWhole_whole _) shV (Memref.isWhole_whole _)
            tV (Memref.isWhole_whole _) iV (Memref.isWhole_whole _) oV (Memref.isWhole_whole _) cc0_scratch4 cc0_scoped0 cc0_scoped1 cc0_scoped2)
          fun _ => iprop((idxBlk m d (wL L) ∗ outBlk d (wL L) (gat m d) ∗ shShare m d (cV L) (jL L)
              ∗ if (L 1).val = 0 then iprop(tabShare m d (cL L) ∗ shLoc d (cV L) ↦{shareDrop fullShare 16} tabSh m d (cV L)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h0 : (L 1).val = 0
  · exact tile_body_z m d L hF hin h0 O W hO hOlev
  · exact tile_body_nz m d L hF hin h0 O W hO hOlev

end Tile

/-! ## The obligation -/

/-- What the proof asks of the launch memory: every index word names a row of the table. -/
def PreOK : Prop := ∀ (d : Dev nD) j, (m (idxLoc d) j).toNat < 100000

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tabV (Memref.isWhole_whole _) idxV (Memref.isWhole_whole _) outV (Memref.isWhole_whole _) shV (Memref.isWhole_whole _)
          tV (Memref.isWhole_whole _) iV (Memref.isWhole_whole _) oV (Memref.isWhole_whole _) cc0_scratch4 cc0_scoped0 cc0_scoped1 cc0_scoped2) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hpre d) O W hO hOlev

end Cert.Kernel.Sc

end
-- ==== Proof.KScSplit.lean ====
/-
  How the gather call's operands are dealt: the index array and the output split into the 32 tiles' blocks of rows
  (numbered by core and tile), the table in HBM into one read share per core, and each core's operands into its sixteen
  tasks'; at the end the tasks' read shares of the core's shared memory rejoin into the whole.
-/
import proofs.«206738_g15788299780114_cont_7to1_105_28_alg».proof.Proof.KScSetup

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.Kernel.main_v0_scv : Memref Cert.Kernel.sig Kind.scVector Space.hbm Cert.Kernel.S100000 EltTy.f32)
local notation "idxV" => (Memref.whole Cert.Kernel.main_arg0_scv : Memref Cert.Kernel.sig Kind.scVector Space.hbm Cert.Kernel.S1024x200 EltTy.i32)
local notation "outV" => (Memref.whole Cert.Kernel.main_v1_scv : Memref Cert.Kernel.sig Kind.scVector Space.hbm Cert.Kernel.S1024x200 EltTy.f32)
local notation "shV" => (Memref.whole Cert.Kernel.cc0_scratch0 : Memref Cert.Kernel.sig Kind.scVector Space.shared Cert.Kernel.S100000 EltTy.f32)
local notation "tV" => (Memref.whole Cert.Kernel.cc0_scratch1 : Memref Cert.Kernel.sig Kind.scVector Space.vmem Cert.Kernel.S100000 EltTy.f32)
local notation "iV" => (Memref.whole Cert.Kernel.cc0_scratch2 : Memref Cert.Kernel.sig Kind.scVector Space.vmem Cert.Kernel.S32x200 EltTy.i32)
local notation "oV" => (Memref.whole Cert.Kernel.cc0_scratch3 : Memref Cert.Kernel.sig Kind.scVector Space.vmem Cert.Kernel.S32x200 EltTy.f32)

variable [FloatOps F]

/-! ## The 32 blocks of rows partition the arrays -/

omit [FloatOps F] in
theorem blkSet_eq (w : Fin 32) : blkSet w = (blk w).set := by
  show ((View.whole (main_arg0_scv : Ref sig .scVector)).slice (blk w)).set = _
  rw [View.set_slice]; exact Finset.map_refl
omit [FloatOps F] in
theorem blks_disjoint : ∀ i ∈ (Finset.univ : Finset (Fin 32)), ∀ j ∈ (Finset.univ : Finset (Fin 32)), i ≠ j → Disjoint (blkSet i) (blkSet j) :=
  fun i _ j _ h => by rw [blkSet_eq, blkSet_eq]; exact Rect.part_disjoint hdiv h
omit [FloatOps F] in
theorem blks_cover : (Finset.univ : Finset (Fin 32)).biUnion blkSet = Finset.univ :=
  (Finset.biUnion_congr rfl fun i _ => blkSet_eq i).trans (Rect.biUnion_part hdiv)

omit [FloatOps F] in
theorem idx_blks (d : Dev nD) (f : Buf (Elt F) (idxLoc d)) :
    (idxLoc d ↦{fullShare} f : sProp 𝕄) = bigSep Finset.univ fun w : Fin 32 => idxLoc d ↦[blkSet w]{fullShare} f := by
  rw [← pointsTo_biUnion Finset.univ (ℓ := idxLoc d) blkSet blks_disjoint, blks_cover]; try rfl
omit [FloatOps F] in
theorem out_blks (d : Dev nD) (f : Buf (Elt F) (outLoc d)) :
    (outLoc d ↦{fullShare} f : sProp 𝕄) = bigSep Finset.univ fun w : Fin 32 => outLoc d ↦[blkSet w]{fullShare} f := by
  rw [← pointsTo_biUnion Finset.univ (ℓ := outLoc d) blkSet blks_disjoint, blks_cover]; try rfl

/-- The blocks, numbered by core and tile. -/
def widEquiv : Fin 2 × Fin 16 ≃ Fin 32 where
  toFun p := wid p.1 p.2
  invFun w := (⟨w.val % 2, Nat.mod_lt _ (by decide)⟩, ⟨w.val / 2, by omega⟩)
  left_inv := by rintro ⟨c, s⟩; ext <;> simp [wid] <;> omega
  right_inv := by intro w; ext; simp [wid]; omega

omit [FloatOps F] in
theorem blks_by_tile (Φ : Fin 32 → sProp 𝕄) :
    bigSep Finset.univ Φ = bigSep Finset.univ fun c : Fin 2 => bigSep Finset.univ fun s : Fin 16 => Φ (wid c s) :=
  (bigSep_univ_equiv widEquiv Φ).trans (bigSep_univ_prod fun p : Fin 2 × Fin 16 => Φ (widEquiv p))

/-! ## What only tile 0 carries -/

omit [FloatOps F] in
theorem zero_mem : (⟨0, by decide⟩ : Fin 16) ∈ (Finset.univ : Finset (Fin 16)) := Finset.mem_univ _

omit [FloatOps F] in
/-- A resource is the family that is it at tile 0 and nothing elsewhere. -/
theorem extra_intro (X : sProp 𝕄) : X ⊢ bigSep Finset.univ fun i : Fin 16 => if i.val = 0 then X else iprop(emp) := by
  rw [show (Finset.univ : Finset (Fin 16)) = insert 0 (Finset.univ.erase 0) from (Finset.insert_erase (Finset.mem_univ _)).symm,
    SparseCore.bigSep_insert' (Finset.notMem_erase _ _)]
  have h0 : (if ((0 : Fin 16).val = 0) then X else iprop(emp)) = X := if_pos rfl
  have he : (bigSep ((Finset.univ : Finset (Fin 16)).erase 0) fun i : Fin 16 => if i.val = 0 then X else iprop(emp))
      = bigSep ((Finset.univ : Finset (Fin 16)).erase 0) fun _ => (iprop(emp) : sProp 𝕄) :=
    bigSep_congr fun i hi => if_neg (fun h => (Finset.mem_erase.mp hi).1 (Fin.ext h))
  rw [h0, he, bigSep_emp']
  iintro H
  isplitl [H]
  · iexact H
  iempintro
omit [FloatOps F] in
theorem extra_elim (X : sProp 𝕄) : (bigSep Finset.univ fun i : Fin 16 => if i.val = 0 then X else iprop(emp)) ⊢ X := by
  rw [show (Finset.univ : Finset (Fin 16)) = insert 0 (Finset.univ.erase 0) from (Finset.insert_erase (Finset.mem_univ _)).symm,
    SparseCore.bigSep_insert' (Finset.notMem_erase _ _)]
  have h0 : (if ((0 : Fin 16).val = 0) then X else iprop(emp)) = X := if_pos rfl
  rw [h0]
  iintro ⟨H, -⟩
  iexact H

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- A core's operands split into its sixteen tasks' (tile 0 also taking the core's read share of the table and the
    shared memory whole), and the tasks' results gather: the sixteen read shares of the shared memory and the rest of
    it rejoin. -/
theorem vecSplit : (K (F := F)).VecSplit (P m) 0 := by
  intro d c
  show iprop(iprop((bigSep Finset.univ fun i : Fin 16 => iprop(idxBlk m d (wid (c2 c) i) ∗ outBlk d (wid (c2 c) i) (m (outLoc d)))) ∗ tabShare m d (c2 c))
        ∗ ownBufs (S d (coreOf c)))
    ⊢ |={Set.univ}=> iprop((bigSep Finset.univ fun i : Fin 16 => iprop(idxBlk m d (wid (c2 c) i) ∗ outBlk d (wid (c2 c) i) (m (outLoc d))
            ∗ if i.val = 0 then iprop(tabShare m d (c2 c) ∗ ∃ f, shLoc d (coreOf c) ↦{fullShare} f) else iprop(emp)))
        ∗ ((bigSep Finset.univ fun i : Fin 16 => iprop(idxBlk m d (wid (c2 c) i) ∗ outBlk d (wid (c2 c) i) (gat m d) ∗ shShare m d (coreOf c) i
              ∗ if i.val = 0 then iprop(tabShare m d (c2 c) ∗ shLoc d (coreOf c) ↦{shareDrop fullShare 16} tabSh m d (coreOf c)) else iprop(emp)))
          -∗ iprop(iprop((bigSep Finset.univ fun i : Fin 16 => iprop(idxBlk m d (wid (c2 c) i) ∗ outBlk d (wid (c2 c) i) (gat m d))) ∗ tabShare m d (c2 c))
            ∗ ownBufs (S d (coreOf c)))))
  rw [ownBufs_S]
  rw [bigSep_sep', bigSep_sep', bigSep_sep', bigSep_sep', bigSep_sep', bigSep_sep', bigSep_sep']
  iintro ⟨⟨⟨Hi, Ho⟩, Htab⟩, Hsh, Hrest⟩; imodintro
  isplitl [Hi Ho Htab Hsh]
  · isplitl [Hi]; · iexact Hi
    isplitl [Ho]; · iexact Ho
    iapply (extra_intro (F := F) _)
    isplitl [Htab]; · iexact Htab
    iexact Hsh
  iintro ⟨Hi, Ho, Hshares, Hx⟩
  ihave Hx' := (extra_elim (F := F) _) $$ Hx
  icases Hx' with ⟨Htab, Hdrop⟩
  isplitl [Hi Ho Htab]
  · isplitl [Hi Ho]
    · isplitl [Hi]; · iexact Hi
      iexact Ho
    iexact Htab
  isplitl [Hdrop Hshares]
  · iexists tabSh m d (coreOf c)
    iapply (pointsTo_toks_join (ℓ := shLoc d (coreOf c)) (S := Finset.univ) (f := tabSh m d (coreOf c)) fullShare 16)
    isplitl [Hdrop]; · iexact Hdrop
    iexact Hshares
  iexact Hrest

end Cert.Kernel.Sc

end
-- ==== Proof.KScFund.lean ====
/-
  The launch element of the gather program's ghost state: the handshakes' rounds, the barrier cells' rounds (every
  tile's barrier semaphore a cell with one round of sixteen unit duties; the cells' invariants are allocated here for
  all tiles at once and each tile is dealt its kit: its tokens, its position, the credit for its own round) and the
  rounds of the staging cells of the TensorCore's pipeline, handed to @main.
-/
import proofs.«206738_g15788299780114_cont_7to1_105_28_alg».proof.Proof.KScSetup
import Idealize.ShloMosaic.Lib.Pipeline.Sound

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.Kernel.main_v0_scv : Memref Cert.Kernel.sig Kind.scVector Space.hbm Cert.Kernel.S100000 EltTy.f32)
local notation "idxV" => (Memref.whole Cert.Kernel.main_arg0_scv : Memref Cert.Kernel.sig Kind.scVector Space.hbm Cert.Kernel.S1024x200 EltTy.i32)
local notation "outV" => (Memref.whole Cert.Kernel.main_v1_scv : Memref Cert.Kernel.sig Kind.scVector Space.hbm Cert.Kernel.S1024x200 EltTy.f32)
local notation "shV" => (Memref.whole Cert.Kernel.cc0_scratch0 : Memref Cert.Kernel.sig Kind.scVector Space.shared Cert.Kernel.S100000 EltTy.f32)
local notation "tV" => (Memref.whole Cert.Kernel.cc0_scratch1 : Memref Cert.Kernel.sig Kind.scVector Space.vmem Cert.Kernel.S100000 EltTy.f32)
local notation "iV" => (Memref.whole Cert.Kernel.cc0_scratch2 : Memref Cert.Kernel.sig Kind.scVector Space.vmem Cert.Kernel.S32x200 EltTy.i32)
local notation "oV" => (Memref.whole Cert.Kernel.cc0_scratch3 : Memref Cert.Kernel.sig Kind.scVector Space.vmem Cert.Kernel.S32x200 EltTy.f32)

variable [FloatOps F]

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a core. -/
def bToks : Finset (GSem nD τ sig × ℕ × ℕ) :=
  Finset.univ.image fun x : DCI × Fin (grid0.bound 1) => (bcell x.1.1 x.1.2.1 (x.2.castLE hsub0), 0, x.1.2.2.val)
/-- The launch element: the handshakes' rounds, the barrier cells' rounds, the pipeline's staging cells' rounds, no counters. -/
def u₀ : UU := (initOf (K (F := F)).hsCells (K (F := F)).hsToks, (initOf bCells bToks,
  (initOf (Pipeline.cells (nD := nD) (τ := τ) cfgs Gen.cellOf_inj) (Pipeline.launchToks (nD := nD) (τ := τ) cfgs Gen.cellOf_inj), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The launch element splits into its three libraries' elements. -/
theorem ownU_split (a : UH) (b : UB) (c : UP) : (ownU ((a, (b, (c, 1))) : UU) : sProp 𝕄) ⊢ iprop(BI.own (EH a) ∗ BI.own (EB b) ∗ BI.own (EP c)) := by
  iintro H
  ihave H1 := (ownU_pair (nD := nD) (τ := τ) (sig := sig) (Ix := HIx 1) (Val := Elt F) (Name := ℕ) (Lvl := ℕ) a (b, (c, (1 : Counters)))) $$ H
  icases H1 with ⟨Ha, Hr⟩
  ihave H2 := (own_pair_emb (embR : Emb (UB × (UP × Counters)) (MT nD τ sig (HIx 1) (Elt F) ℕ UU ℕ)) b (c, (1 : Counters))) $$ Hr
  icases H2 with ⟨Hb, Hr2⟩
  ihave H3 := (own_pair_emb ((Emb.inr : Emb (UP × Counters) (UB × (UP × Counters))).trans (embR : Emb (UB × (UP × Counters)) (MT nD τ sig (HIx 1) (Elt F) ℕ UU ℕ))) c (1 : Counters)) $$ Hr2
  icases H3 with ⟨Hc, -⟩
  isplitl [Ha]; · iexact Ha
  isplitl [Hb]; · iexact Hb
  iexact Hc

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' arrivals, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- What @main on device `d`'s TensorCore starts from, beyond its arrays: the pipeline's staging cells' ghost state. -/
def G (d : Dev nD) : sProp 𝕄 :=
  iprop((bigSep Finset.univ fun p : Fin 1 => Pipeline.cellsGhost (nD := nD) (τ := τ) cfgs EP p d)
    ∗ bigSep Finset.univ fun p : Fin 1 => (Pipeline.toksInit (nD := nD) (τ := τ) cfgs EP p d : sProp 𝕄))

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P m).x q thr) : sProp 𝕄) := by
  unfold u₀
  iintro ⟨Hu, Hcred, Hfree⟩
  ihave H := (ownU_split (F := F) _ _ _) $$ Hu
  icases H with ⟨HH, HB, HP⟩
  imod (Rounds.fund EB (bRd (F := F) m) bCells bToks) $$ HB with ⟨Hst, #Hr, Hat, Htok⟩
  imod (Pipeline.fund_ghost (nD := nD) (τ := τ) cfgs EP Gen.cellOf_inj) $$ HP with ⟨Hcg, Hti⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Hti]
  · unfold G; rw [bigSep_sep']
    isplitl [Hcg]; · iexact Hcg
    iexact Hti
  iapply (kits_deal m)
  isplitr
  · isplitl; · iexists κ; iexact Hinv'
    iexact Hr'
  isplitl [Hat']; · iexact Hat'
  isplitl [Htok']; · iexact Htok'
  iexact Hcred'

end Cert.Kernel.Sc

end
-- ==== Proof.KPoolBody.lean ====
/-
  The pooling body on one block: it reads three whole staging buffers (the gathered weights, the mask, the values
  of 128 rows), computes the pooled block as one pure function of them, reads the output buffer and overwrites
  the whole of it. So whatever the output buffer held, afterwards it holds the payload of the three inputs, and
  the inputs' buffers are as they were.
-/
import proofs.«206738_g15788299780114_cont_7to1_105_28_alg».proof.Proof.KScSetup
import Idealize.ShloMosaic.Lib.Pipeline.FrameBody
import Idealize.ShloMosaic.Lib.Ring
import Idealize.ShloMosaic.Lib.Tactic

noncomputable section

namespace Cert.Kernel.Pool

open Cert.Kernel Cert.Kernel.Gen Cert.Kernel.Sc

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig (HIx 1) (Elt F) ℕ UU ℕ

/-! ## The body's accesses: each buffer whole -/

abbrev rW : Rect S128x200 := Rect.unit (s := S128x200) ![0, 0] S128x200.size inb_S128x200_S128x200_0_0
abbrev rX : Rect S128x200x128 := Rect.unit (s := S128x200x128) ![0, 0, 0] S128x200x128.size inb_S128x200x128_S128x200x128_0_0_0
abbrev rO : Rect S128x128 := Rect.unit (s := S128x128) ![0, 0] S128x128.size inb_S128x128_S128x128_0_0

/-- What the output buffer holds after the body, from the three input buffers: its one store, of the payload. -/
def outBlk (x0 : Vec F S128x200 .f32) (x1 : Vec F S128x200 .f32) (x2 : Vec F S128x200x128 .f32) : Vec F S128x128 .f32 :=
  View.canon [⟨rO, k1_pay1 (View.ld x0 rW) (View.ld x1 rW) (View.ld x2 rX)⟩]

/-- The one store covers the buffer. -/
theorem cover_out (p0 : Vec F S128x128 .f32) (y : S128x128.Idx) :
    ∃ pc ∈ ([⟨rO, p0⟩] : List (View.Piece (Elt F) S128x128 .f32)), y ∈ pc.1.set :=
  View.cover_of_tiled [⟨rO, p0⟩] S128x128.size (by rfl) y

/-! ## The body's triple -/

set_option maxHeartbeats 1000000 in
/-- On whole staging memrefs, the inputs' at contents `x0`, `x1`, `x2` and the output's at anything, the body runs to
    the continuation holding the inputs' as they were and the output's at `outBlk x0 x1 x2`. -/
theorem sound_kernel (c : Dev nD) (E : Set ℕ) (i : grid1.Coords)
    (arg1 : Memref sig .tc .vmem S128x200 .f32) (harg1 : arg1.IsWhole) (arg2 : Memref sig .tc .vmem S128x200 .f32) (harg2 : arg2.IsWhole)
    (arg3 : Memref sig .tc .vmem S128x200x128 .f32) (harg3 : arg3.IsWhole) (arg4 : Memref sig .tc .vmem S128x128 .f32) (harg4 : arg4.IsWhole)
    (x0 : Vec F S128x200 .f32) (x1 : Vec F S128x200 .f32) (x2 : Vec F S128x200x128 .f32) (Kt : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ Kt ⟨⟩))
      ⊢ wp frame (wpE (defs₀ (F := F)) Variants.none c none) E (cc1__pool_body i arg1 harg1 arg2 harg2 arg3 harg3 arg4 harg4) Kt := by
  simp only [cc1__pool_body_eq_skeleton]; unfold cc1__pool_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The windows' blocks, read off the arrays as the region finds them -/

variable (V : (c : Dev nD) → (b : Ref sig .tc) → Buf (Elt F) ((c : Thread nD τ).loc b))

/-- Window `w`'s block at point `t`: the 128 rows from `128 t` of its array, as the region finds the array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry one and whose body leaves the block in place. -/
theorem before_0_of {c : Dev nD} (dat : Dat τ (Elt F) (HIx 1) ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry one and whose body leaves the block in place. -/
theorem before_1_of {c : Dev nD} (dat : Dat τ (Elt F) (HIx 1) ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry one and whose body leaves the block in place. -/
theorem before_2_of {c : Dev nD} (dat : Dat τ (Elt F) (HIx 1) ℕ UU ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block
    and the output's at the payload of the three input blocks; the invariant the scoped buffers no window stages
    (there are none), untouched; nothing owed; full shares. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.scopedRest (Ix := HIx 1) (Name := ℕ) (U := UU) (Lvl := ℕ) (Val := Elt F) spec1 c
  q _ := fullShare
  owed _ := 0

theorem A_eq (c : Dev nD) (w : Fin cfg1.W) : (dats V 0 c).A w = V c (Pipeline.arrRef spec1 w) := by
  dsimp only [dats]

theorem after_0 (c : Dev nD) (t : Fin cfg1.N) : (dats V 0 c).after 0 t = iblk V c 0 t := by dsimp only [dats]
theorem after_1 (c : Dev nD) (t : Fin cfg1.N) : (dats V 0 c).after 1 t = iblk V c 1 t := by dsimp only [dats]
theorem after_2 (c : Dev nD) (t : Fin cfg1.N) : (dats V 0 c).after 2 t = iblk V c 2 t := by dsimp only [dats]
/-- What point `t` leaves in the output's buffer: the payload of the three input blocks at `t`. -/
theorem after_3 (c : Dev nD) (t : Fin cfg1.N) :
    (dats V 0 c).after 3 t = outBlk (iblk V c 0 t) (iblk V c 1 t) (iblk V c 2 t) := by dsimp only [dats]

theorem before_0 (c : Dev nD) (t : Fin cfg1.N) (d) : (dats V 0 c).before 0 t d = iblk V c 0 t :=
  before_0_of V (dats V 0 c) (A_eq V c 0) (after_0 V c) t d
theorem before_1 (c : Dev nD) (t : Fin cfg1.N) (d) : (dats V 0 c).before 1 t d = iblk V c 1 t :=
  before_1_of V (dats V 0 c) (A_eq V c 1) (after_1 V c) t d
theorem before_2 (c : Dev nD) (t : Fin cfg1.N) (d) : (dats V 0 c).before 2 t d = iblk V c 2 t :=
  before_2_of V (dats V 0 c) (A_eq V c 2) (after_2 V c) t d

theorem share_full (c : Dev nD) (w : Fin cfg1.W) : (dats V 0 c).share w = fullShare :=
  (dats V 0 c).share_full (fun _ => rfl) w

/-! ## The body obligation, at any point -/

/-- What the body is called with at point `t`, the windows one by one, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d))
    ∗ (∃ d, owns (c : Thread nD τ) (st1_2 t) fullShare ((dats V 0 c).before 2 t d))
    ∗ (∃ d, owns (c : Thread nD τ) (st1_3 t) fullShare ((dats V 0 c).before 3 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t)
    ∗ owns (c : Thread nD τ) (st1_2 t) fullShare ((dats V 0 c).after 2 t)
    ∗ owns (c : Thread nD τ) (st1_3 t) fullShare ((dats V 0 c).after 3 t))

/-- The body at any point: the inputs' buffers hold their blocks, so the body's triple applies; the invariant and
    the core's tallies pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dats V 0 c).Φ t.succ = (dats V 0 c).Φ t.castSucc from rfl,
    show (dats V 0 c).owesAt none t.succ = (dats V 0 c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) :
    BodyObligation (dats (F := F) V 0 c) (defs₀ (F := F)) Variants.none (none : HIx 1) Set.univ := fun t => by
  rw [bigSep_W1, bigSep_W1]
  exact sound_body V c t

end Cert.Kernel.Pool

end
-- ==== Proof.KPoolRegion.lean ====
/-
  The pooling region on a TensorCore, entered after the gather: from the four windows' arrays held whole (the
  gathered weights, the mask, the values, and the result's array at any contents) and the core owing nothing,
  the pipeline fetches each point's three input blocks, runs the body, and writes the output block back; it leaves
  the three inputs as they were and the result's array at the contents the write-backs of the eight points build
  from the entry contents. The core's handshake state passes by the region untouched: the only waits the region
  adds are the staging buffers', at the lowest level.
-/
import proofs.«206738_g15788299780114_cont_7to1_105_28_alg».proof.Proof.KPoolBody
import Idealize.ShloMosaic.Lib.Pipeline.Regions

noncomputable section

namespace Cert.Kernel.Pool

open Cert.Kernel Cert.Kernel.Gen Cert.Kernel.Sc

open Idealize.ShloMosaic Idealize.ShloMosaic.TcCoe Idealize.ShloMosaic.Tactic
open Idealize.ShloMosaic.SparseCore (T)
open Idealize.ShloMosaic.SparseCore.Cfg (HIx callsFrom)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The pipeline, with no prefetched table -/

/-- The one pipeline's tables: none. -/
abbrev adm : (p : Fin 1) → (pcfgs (F := F) p).Adm := fun p => (cfgs p).toPCfg_adm

/-- The proof data, at the pipeline with its (empty) tables put in. -/
def pdats (p : Fin 1) (c : Dev nD) : Dat τ (Elt F) (HIx 1) ℕ UU ℕ (Pipeline.pin (pcfgs (F := F)) adm p) c := dats V p c

/-! ## The core's handshake state: what it owes, and the rest -/

/-- What the TensorCore owes after the one gather call (nothing), with its recorded waits bounded. -/
def tcOwes (c : Dev nD) : sProp 𝕄 :=
  iprop(∃ W, ⌜(K (F := F)).WBelow (T c) W (8 * 1)⌝ ∗ owes (T c) ((K (F := F)).Otc c 1) W)

/-- The rest of its handshake state after that call: its position and rounds on the handshake cells. -/
def tcRest (c : Dev nD) : sProp 𝕄 :=
  iprop(atPos EH ((K (F := F)).doneCell c) 1 ∅ 0 ∗ reached EH ((K (F := F)).doneCell c) 1
    ∗ (bigSep Finset.univ fun s : Fin τ.nSC => reached EH ((K (F := F)).startCell c s) ((K (F := F)).sRank s 1))
    ∗ bigSep (callsFrom 1) fun q => bigSep Finset.univ fun s : Fin ((K (F := F)).nCore q) =>
        iprop(dutyTok EH ((K (F := F)).startCell c ((K (F := F)).core q s)) ((K (F := F)).sRank ((K (F := F)).core q s) q.val) 0
          ∗ cred (tallyAt ((K (F := F)).doneCell c) (some q) 1)))

theorem tcSt_split (c : Dev nD) : ((K (F := F)).tcSt EH c 1 : sProp 𝕄) = iprop(tcOwes c ∗ tcRest c) := by
  unfold SparseCore.Cfg.tcSt tcOwes tcRest; rfl

/-- After the one call nothing is owed. -/
theorem Otc_one (c : Dev nD) : (K (F := F)).Otc c 1 = 0 := (K (F := F)).Otc_end c (le_refl 1)

/-- With one call, every (cell, index) pair sits at level 7 or below: any recorded set is bounded. -/
theorem wbelow_any (c : Dev nD) (W : Waits sig (HIx 1)) : (K (F := F)).WBelow (T c) W (8 * 1) := fun p _ => by
  rcases p with ⟨sm, ι⟩
  cases ι with
  | none => exact Nat.zero_le _
  | some q =>
    have h := (K (F := F)).lev_some_le (T c, sm) q
    have hq : q.val = 0 := by have := q.isLt; omega
    show (K (F := F)).lev (T c, sm) (some q) ≤ 8 * 1
    omega

/-! ## The four windows' arrays, one by one -/

/-- The windows' arrays at contents `G`: each whole, at the full share. -/
theorem arrays_eq (c : Dev nD) (G : (w : Fin cfg1.W) → Buf (Elt F) ((cfg1.win w).arr.view.loc (c.tc : Thread nD τ))) :
    ((dats V 0 c).arrays G : sProp 𝕄)
      = iprop(((cfg1.win 0).arr.view.loc (c.tc : Thread nD τ) ↦{fullShare} G 0) ∗ ((cfg1.win 1).arr.view.loc (c.tc : Thread nD τ) ↦{fullShare} G 1)
          ∗ ((cfg1.win 2).arr.view.loc (c.tc : Thread nD τ) ↦{fullShare} G 2) ∗ ((cfg1.win 3).arr.view.loc (c.tc : Thread nD τ) ↦{fullShare} G 3)) := by
  have e0 : (cfg1.win 0).arr.view.set = Finset.univ := Memref.IsWhole.set_eq_univ (arr_whole1 0)
  have e1 : (cfg1.win 1).arr.view.set = Finset.univ := Memref.IsWhole.set_eq_univ (arr_whole1 1)
  have e2 : (cfg1.win 2).arr.view.set = Finset.univ := Memref.IsWhole.set_eq_univ (arr_whole1 2)
  have e3 : (cfg1.win 3).arr.view.set = Finset.univ := Memref.IsWhole.set_eq_univ (arr_whole1 3)
  unfold Dat.arrays
  rw [bigSep_W1, share_full V c 0, share_full V c 1, share_full V c 2, share_full V c 3, e0, e1, e2, e3]

/-- The table-less pipeline holds no table. -/
theorem prefHeld_none (c : Dev nD) :
    (emp : sProp 𝕄) ⊢ Pipeline.prefHeld (pcfgs (F := F) 0).pre c (fun _ => fullShare) (adm (F := F) 0).1 := by
  unfold Pipeline.prefHeld
  rw [show (Finset.univ : Finset (Fin (pcfgs (F := F) 0).pre.K)) = ∅ from Finset.univ_eq_empty, bigSep_empty]
  exact Entails.refl _

/-! ## The region's record -/

variable (lv : GSem nD τ sig → HIx 1 → ℕ)

/-- What the region is entered from on core `c`: its handshake state after the gather call and the four windows' arrays
    whole, at the region-entry contents. -/
def pre (c : Dev nD) : sProp 𝕄 :=
  iprop((K (F := F)).tcSt EH c 1
    ∗ ((cfg1.win 0).arr.view.loc (c.tc : Thread nD τ) ↦{fullShare} (dats V 0 c).arrAt 0 0)
    ∗ ((cfg1.win 1).arr.view.loc (c.tc : Thread nD τ) ↦{fullShare} (dats V 0 c).arrAt 1 0)
    ∗ ((cfg1.win 2).arr.view.loc (c.tc : Thread nD τ) ↦{fullShare} (dats V 0 c).arrAt 2 0)
    ∗ ((cfg1.win 3).arr.view.loc (c.tc : Thread nD τ) ↦{fullShare} (dats V 0 c).arrAt 3 0))

/-- What it leaves: the same handshake state, and each array at what the eight points' write-backs made of it. -/
def post (c : Dev nD) : sProp 𝕄 :=
  iprop((K (F := F)).tcSt EH c 1
    ∗ ((cfg1.win 0).arr.view.loc (c.tc : Thread nD τ) ↦{fullShare} (dats V 0 c).arrAt 0 cfg1.N)
    ∗ ((cfg1.win 1).arr.view.loc (c.tc : Thread nD τ) ↦{fullShare} (dats V 0 c).arrAt 1 cfg1.N)
    ∗ ((cfg1.win 2).arr.view.loc (c.tc : Thread nD τ) ↦{fullShare} (dats V 0 c).arrAt 2 cfg1.N)
    ∗ ((cfg1.win 3).arr.view.loc (c.tc : Thread nD τ) ↦{fullShare} (dats V 0 c).arrAt 3 cfg1.N))

/-! ## The record's four entailments -/

/-- The invariant is the scoped buffers no window stages, at every point. -/
theorem Φ_eq (c : Dev nD) (t : Fin (cfg1.N + 1)) :
    ((pdats V 0 c).Φ t : sProp 𝕄) = Pipeline.scopedRest (Ix := HIx 1) (Name := ℕ) (U := UU) (Lvl := ℕ) (Val := Elt F) spec1 c := by
  unfold pdats; dsimp only [dats]

/-- There are none: the core's scoped buffers are all staging buffers. -/
theorem rest_emp (c : Dev nD) :
    (Pipeline.scopedRest (Ix := HIx 1) (Name := ℕ) (U := UU) (Lvl := ℕ) (Val := Elt F) (Pipeline.pin (pcfgs (F := F)) adm 0).spec c : sProp 𝕄) = BI.emp :=
  scopedRest1_eq c

theorem hentry_pf (c : Dev nD) :
    iprop(pre V c ∗ Pipeline.ownSems0 (fun k : PEmpty => k.elim) c ∗ levAts (K (F := F)).L lv)
      ⊢ |={Set.univ}=> iprop((pdats V 0 c).arrays ((pdats V 0 c).arrAt · 0)
          ∗ Pipeline.prefHeld (pcfgs (F := F) 0).pre c (fun _ => fullShare) (adm (F := F) 0).1
          ∗ (pdats V 0 c).owesAt none 0 ∗ (emp : sProp 𝕄) ∗ tcRest c) := by
  unfold pre pdats
  rw [tcSt_split, arrays_eq]
  unfold tcOwes
  iintro ⟨⟨⟨⟨%W, %hW, HO⟩, HR⟩, H0, H1, H2, H3⟩, -, -⟩
  imodintro
  isplitl [H0 H1 H2 H3]
  · isplitl [H0]; · iexact H0
    isplitl [H1]; · iexact H1
    isplitl [H2]; · iexact H2
    iexact H3
  isplitr
  · iapply (prefHeld_none c); iempintro
  isplitl [HO]
  · iexists W; isplitr
    · ipureintro; exact Set.subset_union_of_subset_left (Set.subset_univ _) _
    rw [Otc_one]; iexact HO
  isplitr
  · iempintro
  iexact HR

theorem hin_pf (c : Dev nD) :
    iprop((emp : sProp 𝕄) ∗ Pipeline.prefHeld (pcfgs (F := F) 0).pre c (fun _ => fullShare) (adm (F := F) 0).1
        ∗ Pipeline.scopedRest (Pipeline.pin (pcfgs (F := F)) adm 0).spec c) ⊢ (pdats V 0 c).Φ 0 := by
  rw [Φ_eq, rest_emp]
  exact fun _ _ => trivial

theorem hout_pf (c : Dev nD) :
    (pdats V 0 c).Φ (Fin.last (Pipeline.pin (pcfgs (F := F)) adm 0).N)
      ⊢ iprop((emp : sProp 𝕄) ∗ Pipeline.ownSems0 (fun k : PEmpty => k.elim) c ∗ Pipeline.scopedRest (Pipeline.pin (pcfgs (F := F)) adm 0).spec c) := by
  rw [Φ_eq, rest_emp, Pipeline.ownSems0_none]
  iintro -
  isplitr; · iempintro
  isplitr; · iempintro
  iempintro

theorem hexit_pf (c : Dev nD) :
    iprop((pdats V 0 c).arrays ((pdats V 0 c).arrAt · (Pipeline.pin (pcfgs (F := F)) adm 0).N)
        ∗ (pdats V 0 c).owesAt none (Fin.last (Pipeline.pin (pcfgs (F := F)) adm 0).N) ∗ (emp : sProp 𝕄) ∗ tcRest c)
      ⊢ |={Set.univ}=> post V c := by
  unfold post pdats
  rw [tcSt_split, arrays_eq]
  unfold tcOwes
  iintro ⟨⟨H0, H1, H2, H3⟩, ⟨%W, %hW, HO⟩, -, HR⟩
  imodintro
  isplitl [HO HR]
  · isplitl [HO]
    · iexists W; isplitr
      · ipureintro; exact wbelow_any c W
      rw [Otc_one]; iexact HO
    iexact HR
  isplitl [H0]; · iexact H0
  isplitl [H1]; · iexact H1
  isplitl [H2]; · iexact H2
  iexact H3

/-- The region's record: the decided layout, no semaphore of the kernel's own, the body obligation, no debt across
    the staging waits, and the handshake state passing by. -/
def poolSeg : Pipeline.RegionSeg (pcfgs (F := F)) adm (pdats V) (none : HIx 1) (defs₀ (F := F)) Variants.none (K (F := F)).L lv (0 : Fin 1) where
  win := winFacts1.to₀
  block_pos := block_pos1
  stage_whole := stage_whole1
  K := PEmpty
  osem := fun k => k.elim
  ho := Pipeline.OwnSemFacts.none _
  hbody := fun c => (body_obligation V c).loose
  hwaits := fun c =>
    (show (levAts (K (F := F)).L lv : sProp 𝕄) ⊢ (emp : sProp 𝕄) from fun _ _ => trivial).trans
      (Pipeline.cellsWaits_of_owed_zero (Pipeline.pin (pcfgs (F := F)) adm) (pdats V) none 0 c fun _ => rfl)
  pre := pre V
  post := post V
  X := fun _ => iprop(emp)
  Y := fun _ => iprop(emp)
  Z := fun c => tcRest c
  hentry := hentry_pf V lv
  hin := hin_pf V
  hout := hout_pf V
  hexit := hexit_pf V

/-! ## The record's pre and post, buffer by buffer -/

/-- Entered from: the gathered weights, the mask, the values and the result's array, each whole as the region finds it. -/
theorem pre_eq (c : Dev nD) :
    pre V c = iprop((K (F := F)).tcSt EH c 1
      ∗ ((c : Thread nD τ).loc main_v1 ↦{fullShare} V c main_v1) ∗ ((c : Thread nD τ).loc main_arg2 ↦{fullShare} V c main_arg2)
      ∗ ((c : Thread nD τ).loc main_arg1 ↦{fullShare} V c main_arg1) ∗ ((c : Thread nD τ).loc main_v2 ↦{fullShare} V c main_v2)) := rfl

/-- Left at: the three inputs as found (no write-back touches an input), the result's array at what the eight
    write-backs made of it. -/
theorem post_eq (c : Dev nD) :
    post V c = iprop((K (F := F)).tcSt EH c 1
      ∗ ((c : Thread nD τ).loc main_v1 ↦{fullShare} V c main_v1) ∗ ((c : Thread nD τ).loc main_arg2 ↦{fullShare} V c main_arg2)
      ∗ ((c : Thread nD τ).loc main_arg1 ↦{fullShare} V c main_arg1)
      ∗ ((c : Thread nD τ).loc main_v2 ↦{fullShare} (dats V 0 c).arrAt 3 cfg1.N)) := by
  unfold post
  rw [(dats V 0 c).arrAt_in 0 rfl, (dats V 0 c).arrAt_in 1 rfl, (dats V 0 c).arrAt_in 2 rfl]
  rfl

/-! ## The region's step -/

/-- From the region boundary, the record's `pre`, the level facts and the staging cells' launch ghost state, the
    region's call runs to the boundary and `post` for what follows it. -/
theorem wp_pool [∀ e, Nonempty (Elt F e)] (c : Dev nD) {α : Type}
    (k : PUnit → Prog (TpuEff nD τ sig (Elt F) (ΛP (F := F)) .tc) α) (Q : α → sProp 𝕄) :
    iprop((iprop(boundary (c.tc : Thread nD τ) ∗ post V c) -∗ wp frame (wpE (D (F := F)) 𝒱 (c.tc : Thread nD τ) none) Set.univ (k ⟨⟩) Q)
        ∗ boundary (c.tc : Thread nD τ) ∗ pre V c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q :=
  Pipeline.RegionSeg.wp (pcfgs (F := F)) adm (pdats V) (none : HIx 1) cellOf_inj EP (defs₀ (F := F)) Variants.none (K (F := F)).L lv
    (poolSeg V lv) c none (fun _ h => absurd h (Option.not_mem_none _)) k Q

/-- The program's last line is the region's call, read in the launch's signature. -/
theorem tail_eq :
    (Prog.lift (.customCall (SparseCore.inner (Pipeline.entry 0)) ()) >>= fun _ => pure ⟨⟩ :
        Prog (TpuEff nD τ sig (Elt F) (SparseCore.Sig (ΛP (F := F)) 1) .tc) PUnit)
      = SparseCore.liftProg (.op (.customCall (Pipeline.entry 0) ()) fun _ => .ret ⟨⟩) := rfl

/-- The same step as the program's last line, under the launch's body table: what follows the call is the return. -/
theorem wp_pool_tail [∀ e, Nonempty (Elt F e)] (c : Dev nD) (Φ : PUnit → sProp 𝕄) :
    iprop((iprop(boundary (c.tc : Thread nD τ) ∗ post V c) -∗ Φ ⟨⟩)
        ∗ boundary (c.tc : Thread nD τ) ∗ pre V c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (c.tc : Thread nD τ) none) Set.univ
          (SparseCore.liftProg (.op (.customCall (Pipeline.entry 0) ()) fun _ => .ret ⟨⟩)) Φ := by
  have h1 := wp_pool V lv c (α := PUnit) (fun _ => Prog.ret PUnit.unit) Φ
  have key : ∀ (p : Prog (TpuEff nD τ sig (Elt F) (ΛP (F := F)) .tc) PUnit) (A : sProp 𝕄),
      (A ⊢ wp frame (wpE (D (F := F)) 𝒱 (c.tc : Thread nD τ) none) Set.univ p Φ) →
      A ⊢ wp frame (wpE ((K (F := F)).defs (D (F := F))) 𝒱 (c.tc : Thread nD τ) none) Set.univ (SparseCore.liftProg p) Φ :=
    fun p A h => BI.Entails.trans h ((K (F := F)).wp_liftProg (D (F := F)) 𝒱 (c.tc : Thread nD τ) Set.univ none p Φ)
  refine key (Prog.op (TpuEff.customCall (Pipeline.entry 0) ()) fun _ => Prog.ret PUnit.unit) _ (BI.Entails.trans ?_ h1)
  simp only [wp_ret]
  show (_ : sProp 𝕄) ⊢ _
  iintro ⟨Hk, Hb, Hp, Hl, Hg, Ht⟩
  isplitl [Hk]
  · iintro H
    imodintro
    iapply Hk
    iexact H
  isplitl [Hb]; · iexact Hb
  isplitl [Hp]; · iexact Hp
  isplitl [Hl]; · iexact Hl
  isplitl [Hg]; · iexact Hg
  iexact Ht

end Cert.Kernel.Pool

end
-- ==== Proof.KScMain.lean ====
/-
  The gather-and-pool program as a whole: @main on the TensorCore reads the weight column as a vector, starts the gather
  on the two SparseCores (each core its tiles' rows of the index array and of the output and a read share of the table)
  and, when it has them back, runs the pooling region over the gathered weights, the mask and the values; the launch
  theorem then gives the run: every weakly fair execution terminates, nothing faulting, the four arguments unchanged and
  the result array at the value the region's write-backs leave.
-/
import proofs.«206738_g15788299780114_cont_7to1_105_28_alg».proof.Proof.KScBody
import proofs.«206738_g15788299780114_cont_7to1_105_28_alg».proof.Proof.KScSplit
import proofs.«206738_g15788299780114_cont_7to1_105_28_alg».proof.Proof.KScFund
import proofs.«206738_g15788299780114_cont_7to1_105_28_alg».proof.Proof.KPoolRegion

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)

local notation "tabV" => (Memref.whole Cert.Kernel.main_v0_scv : Memref Cert.Kernel.sig Kind.scVector Space.hbm Cert.Kernel.S100000 EltTy.f32)
local notation "idxV" => (Memref.whole Cert.Kernel.main_arg0_scv : Memref Cert.Kernel.sig Kind.scVector Space.hbm Cert.Kernel.S1024x200 EltTy.i32)
local notation "outV" => (Memref.whole Cert.Kernel.main_v1_scv : Memref Cert.Kernel.sig Kind.scVector Space.hbm Cert.Kernel.S1024x200 EltTy.f32)
local notation "shV" => (Memref.whole Cert.Kernel.cc0_scratch0 : Memref Cert.Kernel.sig Kind.scVector Space.shared Cert.Kernel.S100000 EltTy.f32)
local notation "tV" => (Memref.whole Cert.Kernel.cc0_scratch1 : Memref Cert.Kernel.sig Kind.scVector Space.vmem Cert.Kernel.S100000 EltTy.f32)
local notation "iV" => (Memref.whole Cert.Kernel.cc0_scratch2 : Memref Cert.Kernel.sig Kind.scVector Space.vmem Cert.Kernel.S32x200 EltTy.i32)
local notation "oV" => (Memref.whole Cert.Kernel.cc0_scratch3 : Memref Cert.Kernel.sig Kind.scVector Space.vmem Cert.Kernel.S32x200 EltTy.f32)

variable [FloatOps F]

open Idealize.ShloMosaic.TcCoe
open Idealize.ShloMosaic.StableHlo (held held_split held_sdiff_result wp_hlo_within)

variable (ρ : Dev nD → PrngReg)

/-! ## The arrays of @main -/

abbrev a1Loc (d : Dev nD) : Loc nD τ sig := (SparseCore.T d).loc main_arg1
abbrev a2Loc (d : Dev nD) : Loc nD τ sig := (SparseCore.T d).loc main_arg2
abbrev resLoc (d : Dev nD) : Loc nD τ sig := (SparseCore.T d).loc main_v2

abbrev a3' : DevRef τ sig := Proc.devRef .tc (main_arg3 : Ref sig .tc)
abbrev t' : DevRef τ sig := Proc.devRef .tc (main_v0 : Ref sig .tc)
/-- The weight column read as a vector: @main's first line. -/
abbrev opR : HloOp τ sig (Elt F) := StableHlo.reshape main_arg3 main_v0 rfl shapeCasts_S100000x1_S100000
abbrev S2 : Finset (DevRef τ sig) := {a3', t'}

omit [FloatOps F] in
theorem unscopedBufs_eq (d : Dev nD) (W : (b : Ref sig .tc) → Buf (Elt F) ((d.tc : Thread nD τ).loc b)) :
    (unscopedBufs d W : sProp 𝕄) = iprop((idxLoc d ↦{fullShare} W main_arg0) ∗ (a1Loc d ↦{fullShare} W main_arg1) ∗ (a2Loc d ↦{fullShare} W main_arg2)
      ∗ (wgtLoc d ↦{fullShare} W main_arg3) ∗ (tabLoc d ↦{fullShare} W main_v0) ∗ (outLoc d ↦{fullShare} W main_v1) ∗ (resLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_S2 (d : Dev nD) (W : Valuation τ sig (Elt F)) :
    (held (T d) S2 W : sProp 𝕄) = iprop((wgtLoc d ↦{fullShare} W a3') ∗ (tabLoc d ↦{fullShare} W t')) := by
  unfold held S2
  rw [SparseCore.bigSep_insert' (by decide), bigSep_singleton]

/-- The launch valuation. -/
def V0 (d : Dev nD) : Valuation τ sig (Elt F) := fun b => m (d, b)

theorem hR : (opR (F := F)).bufs ⊆ S2 := show ({a3', t'} : Finset (DevRef τ sig)) ⊆ S2 from Finset.Subset.refl _

/-- After the reshape the column is as it was and the vector is the table. -/
theorem held_S2_result (d : Dev nD) :
    (held (T d) S2 ((opR (F := F)).result (V0 m d)) : sProp 𝕄) = iprop((wgtLoc d ↦{fullShare} m (wgtLoc d)) ∗ (tabLoc d ↦{fullShare} tab m d)) := by
  rw [held_S2, (opR (F := F)).result_of_not_mem (V0 m d) (b := a3') (show a3' ∉ ({t'} : Finset (DevRef τ sig)) by decide)]
  rfl

/-! ## The call's operands, core by core -/

theorem st_intro (d : Dev nD) (f : Buf (Elt F) (outLoc d)) :
    iprop((bigSep Finset.univ fun c : Fin 2 => bigSep Finset.univ fun s : Fin 16 => idxBlk m d (wid c s))
        ∗ (bigSep Finset.univ fun c : Fin 2 => bigSep Finset.univ fun s : Fin 16 => outBlk d (wid c s) f)
        ∗ (bigSep Finset.univ fun c : Fin 2 => tabShare m d c))
      ⊢ (bigSep Finset.univ fun c : Fin 2 => iprop((bigSep Finset.univ fun s : Fin 16 => iprop(idxBlk m d (wid c s) ∗ outBlk d (wid c s) f)) ∗ tabShare m d c) : sProp 𝕄) := by
  rw [bigSep_sep', bigSep_congr (fun c _ => bigSep_sep' (Finset.univ : Finset (Fin 16)) _ _), bigSep_sep']
  iintro ⟨Hi, Ho, Ht⟩
  isplitl [Hi Ho]
  · isplitl [Hi]; · iexact Hi
    iexact Ho
  iexact Ht

theorem dn_elim' (d : Dev nD) (f : Buf (Elt F) (outLoc d)) :
    (bigSep Finset.univ fun c : Fin 2 => iprop((bigSep Finset.univ fun s : Fin 16 => iprop(idxBlk m d (wid c s) ∗ outBlk d (wid c s) f)) ∗ tabShare m d c) : sProp 𝕄)
      ⊢ iprop((bigSep Finset.univ fun c : Fin 2 => bigSep Finset.univ fun s : Fin 16 => idxBlk m d (wid c s))
        ∗ (bigSep Finset.univ fun c : Fin 2 => bigSep Finset.univ fun s : Fin 16 => outBlk d (wid c s) f)
        ∗ (bigSep Finset.univ fun c : Fin 2 => tabShare m d c)) := by
  rw [bigSep_sep', bigSep_congr (fun c _ => bigSep_sep' (Finset.univ : Finset (Fin 16)) _ _), bigSep_sep']
  iintro ⟨⟨Hi, Ho⟩, Ht⟩
  isplitl [Hi]; · iexact Hi
  isplitl [Ho]; · iexact Ho
  iexact Ht

/-- What the call brings back, core by core, regrouped. -/
theorem dn_elim (d : Dev nD) :
    (bigSep Finset.univ fun c : Fin ((K (F := F)).nCore 0) => (P m).dn 0 d c : sProp 𝕄)
      ⊢ iprop((bigSep Finset.univ fun c : Fin 2 => bigSep Finset.univ fun s : Fin 16 => idxBlk m d (wid c s))
        ∗ (bigSep Finset.univ fun c : Fin 2 => bigSep Finset.univ fun s : Fin 16 => outBlk d (wid c s) (gat m d))
        ∗ (bigSep Finset.univ fun c : Fin 2 => tabShare m d c)) :=
  dn_elim' m d (gat m d)

/-! ## The pooling region's arrays -/

/-- The TensorCore's buffers as the pooling region finds them: the gathered weights in place of the launch contents. -/
def Vr (c : Dev nD) : (b : Ref sig .tc) → Buf (Elt F) ((c : Thread nD τ).loc b) :=
  Function.update (fun b => m ((c : Thread nD τ).loc b)) main_v1 (gat m c)

theorem Vr_v1 (c : Dev nD) : Vr m c main_v1 = gat m c := Function.update_self _ _ _
theorem Vr_a2 (c : Dev nD) : Vr m c main_arg2 = m (a2Loc c) := Function.update_of_ne (by decide) _ _
theorem Vr_a1 (c : Dev nD) : Vr m c main_arg1 = m (a1Loc c) := Function.update_of_ne (by decide) _ _
theorem Vr_v2 (c : Dev nD) : Vr m c main_v2 = m (resLoc c) := Function.update_of_ne (by decide) _ _

/-- What the result array holds at the end: what the region's eight write-backs make of it. -/
def outVal (d : Dev nD) : Buf (Elt F) (resLoc d) := (Pool.dats (Vr m) 0 d).arrAt 3 cfg1.N

/-- What @main leaves the claim: the four arguments at their launch contents, the result named. -/
def FIN (d : Dev nD) : sProp 𝕄 :=
  iprop((idxLoc d ↦{fullShare} m (idxLoc d)) ∗ (a1Loc d ↦{fullShare} m (a1Loc d)) ∗ (a2Loc d ↦{fullShare} m (a2Loc d))
    ∗ (wgtLoc d ↦{fullShare} m (wgtLoc d)) ∗ (resLoc d ↦{fullShare} outVal m d))

set_option maxHeartbeats 4000000 in
/-- @main on device `d`'s TensorCore: the reshape; the call, the index array and the output dealt block by block and
    the table share by share; the pooling region over the gathered weights, the mask and the values. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq]
  simp only [main, wp_bind, wp_pure]
  iintro ⟨#Hctx, Hst, ⟨Hb, ⟨Ha0, Ha1, Ha2, Ha3, Hv0, Hv1, Hv2⟩, -, -⟩, ⟨Hcg, Hti⟩⟩
  -- the reshape
  iapply (wp_hlo_within 𝒱 (SparseCore.T d) none Set.univ (op := opR) (S := S2) hR (V := V0 m d)) $$ [Hb Ha3 Hv0]
  · isplitl [Hb]; · iexact Hb
    rw [held_S2]
    isplitl [Ha3]; · iexact Ha3
    iexact Hv0
  iintro ⟨Hb, Hheld⟩
  rw [wp_ret]; imodintro
  ihave Hh := (Entails.of_eq (held_S2_result (F := F) m d)) $$ Hheld
  icases Hh with ⟨Ha3, Hv0⟩
  -- the operands, dealt
  ihave Hsp := (pointsTo_toks_split (ℓ := tabLoc d) (S := Finset.univ) (f := tab m d) fullShare 2) $$ Hv0
  icases Hsp with ⟨Htdrop, Htsh⟩
  ihave Hib := (Entails.of_eq ((idx_blks (F := F) d _).trans (blks_by_tile (F := F) _))) $$ Ha0
  ihave Hob := (Entails.of_eq ((out_blks (F := F) d _).trans (blks_by_tile (F := F) _))) $$ Hv1
  -- the call
  iapply ((K (F := F)).wp_run (D (F := F)) 𝒱 (EH := EH) (P := P m) κ d 0) $$ [Hst Hib Hob Htsh Hb Ha1 Ha2 Ha3 Hv2 Htdrop Hcg Hti]
  isplitr; · iexact Hctx
  isplitl [Hst]; · iexact Hst
  isplitl [Hib Hob Htsh]
  · iapply (st_intro m d (m (outLoc d)))
    isplitl [Hib]; · iexact Hib
    isplitl [Hob]; · iexact Hob
    iexact Htsh
  iintro ⟨Hst, Hdn⟩
  ihave Hdn' := (dn_elim m d) $$ Hdn
  icases Hdn' with ⟨Hib, Hob, Htsh⟩
  ihave Ha0 := (Entails.of_eq ((idx_blks (F := F) d _).trans (blks_by_tile (F := F) _)).symm) $$ Hib
  ihave Hv1 := (Entails.of_eq ((out_blks (F := F) d _).trans (blks_by_tile (F := F) _)).symm) $$ Hob
  -- the pooling region
  rw [show (Prog.lift (TpuEff.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) from rfl]
  ihave Hlev := (SparseCore.Cfg.ctx_levAts κ) $$ Hctx
  iapply (Pool.wp_pool_tail (F := F) (Vr m) (K (F := F)).lev d _) $$ [Hb Hst Hv1 Ha2 Ha1 Hv2 Hlev Hcg Hti Ha0 Ha3]
  isplitl [Ha0 Ha3]
  · iintro ⟨-, Hpost⟩
    ihave Hp := (Entails.of_eq (Pool.post_eq (F := F) (Vr m) d)) $$ Hpost
    icases Hp with ⟨Hst, -, Ha2, Ha1, Hv2⟩
    imodintro
    isplitl [Hst]; · iexact Hst
    unfold FIN
    isplitl [Ha0]; · iexact Ha0
    isplitl [Ha1]; · rw [← Vr_a1 m d]; iexact Ha1
    isplitl [Ha2]; · rw [← Vr_a2 m d]; iexact Ha2
    isplitl [Ha3]; · iexact Ha3
    iexact Hv2
  isplitl [Hb]; · iexact Hb
  isplitl [Hst Hv1 Ha2 Ha1 Hv2]
  · rw [Pool.pre_eq, Vr_v1, Vr_a2, Vr_a1, Vr_v2]
    isplitl [Hst]; · iexact Hst
    isplitl [Hv1]; · iexact Hv1
    isplitl [Ha2]; · iexact Ha2
    isplitl [Ha1]; · iexact Ha1
    iexact Hv2
  isplitl [Hlev]; · iexact Hlev
  isplitl [Hcg]
  · iapply (SparseCore.ent (bigSep_elim (Φ := fun p : Fin 1 => Pipeline.cellsGhost (nD := nD) (τ := τ) cfgs EP p d) (i := 0) (Finset.mem_univ _))); iexact Hcg
  iapply (SparseCore.ent (bigSep_elim (Φ := fun p : Fin 1 => (Pipeline.toksInit (nD := nD) (τ := τ) cfgs EP p d : sProp 𝕄)) (i := 0) (Finset.mem_univ _))); iexact Hti

/-! ## The final memory reads the claim -/

def fq (d : Dev nD) (s' : Phys nD τ sig (Elt F)) : Prop :=
  s'.mem.mem (resLoc d) = outVal m d ∧ s'.mem.mem (idxLoc d) = m (idxLoc d) ∧ s'.mem.mem (a1Loc d) = m (a1Loc d)
    ∧ s'.mem.mem (a2Loc d) = m (a2Loc d) ∧ s'.mem.mem (wgtLoc d) = m (wgtLoc d)

omit [FloatOps F] in
theorem agree (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have hr : iprop(FIN m d ∗ SI s') ⊢ (⌜s'.mem.mem (resLoc d) = outVal m d⌝ : sProp 𝕄) := by
    unfold FIN; iintro ⟨⟨-, -, -, -, Hr⟩, HSI⟩
    iapply (agree (F := F) s' _ _); isplitl [Hr]; · iexact Hr
    iexact HSI
  have h0 : iprop(FIN m d ∗ SI s') ⊢ (⌜s'.mem.mem (idxLoc d) = m (idxLoc d)⌝ : sProp 𝕄) := by
    unfold FIN; iintro ⟨⟨H, -, -, -, -⟩, HSI⟩
    iapply (agree (F := F) s' _ _); isplitl [H]; · iexact H
    iexact HSI
  have h1 : iprop(FIN m d ∗ SI s') ⊢ (⌜s'.mem.mem (a1Loc d) = m (a1Loc d)⌝ : sProp 𝕄) := by
    unfold FIN; iintro ⟨⟨-, H, -, -, -⟩, HSI⟩
    iapply (agree (F := F) s' _ _); isplitl [H]; · iexact H
    iexact HSI
  have h2 : iprop(FIN m d ∗ SI s') ⊢ (⌜s'.mem.mem (a2Loc d) = m (a2Loc d)⌝ : sProp 𝕄) := by
    unfold FIN; iintro ⟨⟨-, -, H, -, -⟩, HSI⟩
    iapply (agree (F := F) s' _ _); isplitl [H]; · iexact H
    iexact HSI
  have h3 : iprop(FIN m d ∗ SI s') ⊢ (⌜s'.mem.mem (wgtLoc d) = m (wgtLoc d)⌝ : sProp 𝕄) := by
    unfold FIN; iintro ⟨⟨-, -, -, H, -⟩, HSI⟩
    iapply (agree (F := F) s' _ _); isplitl [H]; · iexact H
    iexact HSI
  exact fun x hx => ⟨hr x hx, h0 x hx, h1 x hx, h2 x hx, h3 x hx⟩

/-! ## The program's run -/

/-- The run's post: the result array holds the named value and the four arguments are unchanged, on every device. -/
def QC : PUnit × MemSt nD τ sig (Elt F) → Prop := fun r => ∀ c : Dev nD,
  r.2.mem ((c.tc : Thread nD τ).loc main_v2) = outVal m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- Every weakly fair execution of the program's threads from a memory whose index words name rows of the table
    terminates, nothing faulting, with the result array at the named value and the arguments unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (G (F := F)) (FIN m) (u₀ (F := F)) (hu₀ m) (hmain m ρ) (fq m) (hfin m) (QC m) (fun _ h => h)

end Cert.Kernel.Sc

end
-- ==== Proof.Spec.lean ====
/-
  The specification both programs are compared against: attention-style pooling with a gathered scalar weight.

  For a batch row `b` and a hidden coordinate `h`, with `w l = weight[inp[b, l]]` the gathered weight of position `l`,
  `m l = mask[b, l]` and `v l = values[b, l, h]`:
    logit l  = -∞ where 1 - m l > 1/2, else w l
    rowMax   = the maximum of the logits over the 200 positions (a fold of `max` from -∞)
    expo l   = exp (logit l - rowMax)
    denom    = the sum of expo over the positions
    prob l   = expo l / denom
    pooled   = the sum over the positions of prob l * m l * v l
  Everything is over the extended reals, with the operations of the ideal float instance, so no corner needs a
  side condition: the two programs apply these same operations, and differ only in the grouping of the product
  and in an extra `max` with -∞ and an extra `0 +` that change nothing.
-/
import Idealize.ShloMosaic.PureOps.Ideal
import Idealize.ShloMosaic.PureOps.Ideal.Laws
import Idealize.ShloMosaic.Lib.ValueIdx

noncomputable section

open scoped BigOperators

namespace Cert.PoolSpec

open Idealize.ShloMosaic Idealize.ShloMosaic.ValueIdx

/-- The float words the two programs share, at their exact values: 1, 1/2, -∞ and 0. -/
abbrev one : EReal := Ideal.ofBits .f32 0x3F800000#32
abbrev half : EReal := Ideal.ofBits .f32 0x3F000000#32
abbrev ninf : EReal := Ideal.ofBits .f32 0xFF800000#32
abbrev zero : EReal := Ideal.ofBits .f32 0x00000000#32

/-- A masked logit: -∞ where `1 - m > 1/2`, else the weight. -/
def logit (w m : EReal) : EReal := Scalar.select (Ideal.cmp .ogt (one - m) half) ninf w

/-- The maximum of a row's masked logits, folded from -∞. -/
def rowMax (w m : Fin 200 → EReal) : EReal :=
  (Finset.univ : Finset (Fin 200)).fold max ninf (fun l => logit (w l) (m l))

/-- The exponential of a logit taken relative to the row's maximum. -/
def expo (w m : Fin 200 → EReal) (l : Fin 200) : EReal := Ideal.exp (logit (w l) (m l) - rowMax w m)

/-- The softmax denominator of a row. -/
def denom (w m : Fin 200 → EReal) : EReal := ∑ l : Fin 200, expo w m l

/-- The softmax probability of position `l` of a row. -/
def prob (w m : Fin 200 → EReal) (l : Fin 200) : EReal := Ideal.div (expo w m l) (denom w m)

/-- The pooled value of a row: the probabilities, masked once more, against one hidden coordinate of the values. -/
def pooled (w m v : Fin 200 → EReal) : EReal := ∑ l : Fin 200, prob w m l * m l * v l

/-- The index a table of 100000 rows is read at for an index word: the word read unsigned, reduced modulo the
    table's extent so that the function is total (under the precondition the word is below 100000 already). -/
def row (x : BitVec 32) : Fin 100000 := ⟨x.toNat % 100000, Nat.mod_lt _ (by norm_num)⟩

/-- The gathered weights: entry `(b, l)` is the table's row `inp[b, l]`. -/
def gathered (inp : IVec ⟨2, ![1024, 200]⟩ 32) (weight : FVec Ideal ⟨2, ![100000, 1]⟩ .f32) :
    FVec Ideal ⟨2, ![1024, 200]⟩ .f32 :=
  fun j => weight (ix2 (row (inp j)) (0 : Fin 1))

/-- The pooling of already gathered weights `w` : entry `(b, h)` pools row `b` against hidden coordinate `h`. -/
def pool (w : FVec Ideal ⟨2, ![1024, 200]⟩ .f32) (mask : FVec Ideal ⟨2, ![1024, 200]⟩ .f32)
    (values : FVec Ideal ⟨3, ![1024, 200, 128]⟩ .f32) : FVec Ideal ⟨2, ![1024, 128]⟩ .f32 :=
  fun j => pooled (fun l => w (ix2 (n0 := 1024) (j 0) l)) (fun l => mask (ix2 (n0 := 1024) (j 0) l))
    (fun l => values (ix3 (n0 := 1024) (n2 := 128) (j 0) l (j 1)))

/-- The whole result as one function of the four argument arrays. -/
def G (inp : IVec ⟨2, ![1024, 200]⟩ 32) (values : FVec Ideal ⟨3, ![1024, 200, 128]⟩ .f32)
    (mask : FVec Ideal ⟨2, ![1024, 200]⟩ .f32) (weight : FVec Ideal ⟨2, ![100000, 1]⟩ .f32) :
    FVec Ideal ⟨2, ![1024, 128]⟩ .f32 :=
  pool (gathered inp weight) mask values

end Cert.PoolSpec

end
-- ==== Proof.PoolValue.lean ====
/-
  One entry of a pooled block is the specification's pooled value.

  A block holds 128 rows of 200 positions. For row `p` the body masks the gathered weights to logits
  (-∞ where `1 - m > 1/2`), takes the row's maximum, exponentiates the logits relative to it, divides by the
  row's sum of exponentials, multiplies by the mask once more, and contracts the 200 positions against the
  values' hidden coordinate `q`. Each of these steps is read here at one index; the row maximum and the row
  sum are the fold of `max` and the finite sum over the 200 positions, a column `[128] → [128, 1] → [128, 200]`
  repeats a row's scalar along the row, and the contraction with one batch axis and one contracted axis is the
  sum over the positions of the products. The grouping `(prob * m) * v` is already the specification's.
-/
import proofs.«206738_g15788299780114_cont_7to1_105_28_alg».proof.Proof.Spec
import proofs.«206738_g15788299780114_cont_7to1_105_28_alg».proof.Proof.Gen.KernelIdeal.Skeleton
import Idealize.ShloMosaic.Lib.ValueLayout
import Idealize.ShloMosaic.PureOps.Ideal.Laws

noncomputable section

open scoped BigOperators

namespace Cert.KernelIdeal.PoolValue

open Idealize.ShloMosaic Idealize.ShloMosaic.ValueIdx Cert.KernelIdeal Cert.PoolSpec

/-! ## A column kept as a unit axis, and repeated along the rows -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable [Cert.KernelIdeal.Facts]
open Facts₀

/-! ## The body's stages, named -/

/-- The masked logits of a block: -∞ where `1 - m > 1/2`, else the weight. -/
def lgt (w m : FVec Ideal S128x200 .f32) : FVec Ideal S128x200 .f32 :=
  select (cmpf .ogt (subf (broadcast S128x200 (Scalar.ofBits .f32 0x3F800000#32)) m)
      (broadcast S128x200 (Scalar.ofBits .f32 0x3F000000#32)))
    (broadcast S128x200 (Scalar.ofBits .f32 0xFF800000#32)) (shapeCast S128x200 w shapeCasts_S128x200_S128x200)

/-- Each row's maximum logit. -/
def rmax (w m : FVec Ideal S128x200 .f32) : FVec Ideal S128 .f32 :=
  multiReduction .maximumf [1] S128 (lgt w m) 0xFF800000#32 reduces_S128x200_S128 (.inl rfl) rfl

/-- The exponentials of the logits relative to their row's maximum. -/
def ex (w m : FVec Ideal S128x200 .f32) : FVec Ideal S128x200 .f32 :=
  exp (subf (lgt w m) (broadcastTo S128x200 (shapeCast S128x1 (rmax w m) shapeCasts_S128_S128x1) broadcasts_S128x1_S128x200))

/-- Each row's sum of exponentials. -/
def dn (w m : FVec Ideal S128x200 .f32) : FVec Ideal S128 .f32 :=
  multiReduction .add [1] S128 (ex w m) 0x00000000#32 reduces_S128x200_S128 (.inl rfl) rfl

/-- The probabilities, masked once more. -/
def pr (w m : FVec Ideal S128x200 .f32) : FVec Ideal S128x200 .f32 :=
  mulf (divf (ex w m) (broadcastTo S128x200 (shapeCast S128x1 (dn w m) shapeCasts_S128_S128x1) broadcasts_S128x1_S128x200)) m

/-- The body's payload is the contraction of the masked probabilities against the values, into zero. -/
theorem pay_eq (w m : FVec Ideal S128x200 .f32) (v : FVec Ideal S128x200x128 .f32) :
    Gen.k1_pay1 (F := Ideal) w m v
      = matmul dot_S128x200_S128x200x128_S128x128_1_1_n_2_0_0 none (pr w m) v (constant S128x128 .f32 0x00000000#32) := rfl

/-! ## Each stage at an index -/

/-- A row of a block, as a function of the position. -/
abbrev rowOf (x : FVec Ideal S128x200 .f32) (p : Fin 128) : Fin 200 → EReal := fun l => x (ix2 p l)

theorem lgt_apply (w m : FVec Ideal S128x200 .f32) (p : Fin 128) (l : Fin 200) :
    lgt w m (ix2 p l) = logit (w (ix2 p l)) (m (ix2 p l)) := by
  unfold lgt
  rw [shapeCast_self]
  rfl

/-- The inserted index of a row reduction: position `l` of row `p`. -/
theorem lift_eq (p : Fin 128) (l : Fin 200) :
    reduces_S128x200_S128.lift (ix1 p) l = ix2 p l := by
  funext a
  match a with
  | ⟨0, _⟩ => rfl
  | ⟨1, _⟩ => rfl

/-- A row maximum from -∞ is the fold of `max` over the row's 200 positions. -/
theorem rowmax_fold (src : FVec Ideal S128x200 .f32) (hφ : FKind.Formats .f32)
    (hacc : (0xFF800000#32 : BitVec 32) = 0xFF800000#32) (p : Fin 128) :
    multiReduction (F := Ideal) .maximumf [1] S128 src 0xFF800000#32 reduces_S128x200_S128 hφ hacc (ix1 p)
      = (Finset.univ : Finset (Fin 200)).fold max ninf (fun l => src (ix2 p l)) := by
  refine (Ideal.multiReduction_maximumf_single src 0xFF800000#32 reduces_S128x200_S128 hφ hacc (ix1 p)).trans ?_
  show (Finset.univ : Finset (Fin 200)).fold max ninf (fun l => src (reduces_S128x200_S128.lift (ix1 p) l)) = _
  exact congrArg (fun g : Fin 200 → EReal => (Finset.univ : Finset (Fin 200)).fold max ninf g)
    (funext fun l => congrArg src (lift_eq p l))

/-- A row sum into zero is the sum over the row's 200 positions. -/
theorem rowsum_sum (src : FVec Ideal S128x200 .f32) (hφ : FKind.Formats .f32)
    (hacc : (0x00000000#32 : BitVec 32) = 0x00000000#32) (p : Fin 128) :
    multiReduction (F := Ideal) .add [1] S128 src 0x00000000#32 reduces_S128x200_S128 hφ hacc (ix1 p)
      = ∑ l : Fin 200, src (ix2 p l) := by
  refine (Ideal.multiReduction_add_single src 0x00000000#32 reduces_S128x200_S128 hφ hacc (ix1 p)).trans ?_
  show ∑ l : Fin 200, src (reduces_S128x200_S128.lift (ix1 p) l) = _
  exact Finset.sum_congr rfl fun l _ => congrArg src (lift_eq p l)

theorem rmax_apply (w m : FVec Ideal S128x200 .f32) (p : Fin 128) :
    rmax w m (ix1 p) = rowMax (rowOf w p) (rowOf m p) := by
  unfold rmax
  refine (rowmax_fold (lgt w m) (.inl rfl) rfl p).trans ?_
  unfold rowMax
  exact congrArg (fun g : Fin 200 → EReal => (Finset.univ : Finset (Fin 200)).fold max ninf g)
    (funext fun l => lgt_apply w m p l)

/-- A row's scalar, kept as a column and repeated along the row. -/
theorem column_apply (x : FVec Ideal S128 .f32) (p : Fin 128) (l : Fin 200) :
    broadcastTo S128x200 (shapeCast S128x1 x shapeCasts_S128_S128x1) broadcasts_S128x1_S128x200 (ix2 p l) = x (ix1 p) :=
  (broadcastTo_a1_ab_apply _ broadcasts_S128x1_S128x200 p l).trans
    (shapeCast_a_a1_apply x shapeCasts_S128_S128x1 p (0 : Fin 1))

theorem ex_apply (w m : FVec Ideal S128x200 .f32) (p : Fin 128) (l : Fin 200) :
    ex w m (ix2 p l) = expo (rowOf w p) (rowOf m p) l := by
  unfold ex expo
  show Ideal.exp (lgt w m (ix2 p l) - broadcastTo S128x200 (shapeCast S128x1 (rmax w m) shapeCasts_S128_S128x1)
    broadcasts_S128x1_S128x200 (ix2 p l)) = _
  rw [column_apply, lgt_apply, rmax_apply]

theorem dn_apply (w m : FVec Ideal S128x200 .f32) (p : Fin 128) :
    dn w m (ix1 p) = denom (rowOf w p) (rowOf m p) := by
  unfold dn
  refine (rowsum_sum (ex w m) (.inl rfl) rfl p).trans ?_
  unfold denom
  exact Finset.sum_congr rfl fun l _ => ex_apply w m p l

theorem pr_apply (w m : FVec Ideal S128x200 .f32) (p : Fin 128) (l : Fin 200) :
    pr w m (ix2 p l) = prob (rowOf w p) (rowOf m p) l * m (ix2 p l) := by
  unfold pr prob
  show Ideal.div (ex w m (ix2 p l)) (broadcastTo S128x200 (shapeCast S128x1 (dn w m) shapeCasts_S128_S128x1)
    broadcasts_S128x1_S128x200 (ix2 p l)) * m (ix2 p l) = _
  rw [column_apply, ex_apply, dn_apply]

/-! ## The contraction over the positions -/

/-- The dot contracts one axis, of extent 200. -/
theorem contr_rank : dot_S128x200_S128x200x128_S128x128_1_1_n_2_0_0.contr.rank = 1 := rfl
theorem contr_size : dot_S128x200_S128x200x128_S128x128_1_1_n_2_0_0.contr.size ⟨0, by rw [contr_rank]; exact Nat.one_pos⟩ = 200 := rfl

/-- At output `(p, q)` and position `l` the left operand is read at `(p, l)` … -/
theorem lhs_at (p q : Fin 128) (l : Fin 200) :
    dot_S128x200_S128x200x128_S128x128_1_1_n_2_0_0.lhsIdx (ix2 p q)
      ((contrEquiv1 dot_S128x200_S128x200x128_S128x128_1_1_n_2_0_0 200 contr_rank contr_size).symm l) = ix2 p l := by
  funext a
  match a with
  | ⟨0, _⟩ => exact Fin.ext rfl
  | ⟨1, _⟩ =>
    refine Fin.ext ?_
    refine (DotDims.lhsIdx_val_of_single dot_S128x200_S128x200x128_S128x128_1_1_n_2_0_0 (cl := (1 : Fin 2)) rfl (ix2 p q) _).trans ?_
    exact contrEquiv1_symm_val _ 200 contr_rank contr_size l

/-- … and the right operand at `(p, l, q)`. -/
theorem rhs_at (p q : Fin 128) (l : Fin 200) :
    dot_S128x200_S128x200x128_S128x128_1_1_n_2_0_0.rhsIdx (ix2 p q)
      ((contrEquiv1 dot_S128x200_S128x200x128_S128x128_1_1_n_2_0_0 200 contr_rank contr_size).symm l) = ix3 p l q := by
  funext a
  match a with
  | ⟨0, _⟩ => exact Fin.ext rfl
  | ⟨1, _⟩ =>
    refine Fin.ext ?_
    refine (DotDims.rhsIdx_val_of_single dot_S128x200_S128x200x128_S128x128_1_1_n_2_0_0 (cr := (1 : Fin 3)) rfl (ix2 p q) _).trans ?_
    exact contrEquiv1_symm_val _ 200 contr_rank contr_size l
  | ⟨2, _⟩ => exact Fin.ext rfl

/-- The payload at entry `(p, q)` of a block is the pooled value of row `p` against hidden coordinate `q`. -/
theorem pool_pay_apply (w m : FVec Ideal Cert.KernelIdeal.S128x200 .f32) (v : FVec Ideal Cert.KernelIdeal.S128x200x128 .f32)
    (p q : Fin 128) :
    Cert.KernelIdeal.Gen.k1_pay1 (F := Ideal) w m v (ValueIdx.ix2 p q)
      = Cert.PoolSpec.pooled (fun l => w (ValueIdx.ix2 p l)) (fun l => m (ValueIdx.ix2 p l))
          (fun l => v (ValueIdx.ix3 p l q)) := by
  rw [pay_eq]
  refine (Ideal.matmul_constant_zero_apply dot_S128x200_S128x200x128_S128x128_1_1_n_2_0_0 none (pr w m) v (ix2 p q)).trans ?_
  rw [← Equiv.sum_comp (contrEquiv1 dot_S128x200_S128x200x128_S128x128_1_1_n_2_0_0 200 contr_rank contr_size).symm]
  unfold pooled
  refine Finset.sum_congr rfl fun l _ => ?_
  rw [lhs_at, rhs_at, pr_apply]

end Cert.KernelIdeal.PoolValue

end
-- ==== Proof.PoolFinal.lean ====
/-
  The result array after the pooling region is the specification's pooling of the three input arrays.

  The grid has eight points; point `t` stages rows `128 t … 128 t + 127` of each array. At an entry `(p, q)` of
  the output block the body's payload is the pooled value of row `p` of the three staged blocks, and row `p` of
  block `t` of an array is row `128 t + p` of the array: so point `t` writes back block `t` of the pooling of the
  whole arrays. Row `r` of the result lies in the block of point `r / 128`, so the eight blocks cover the result
  and it ends holding the pooling everywhere.
-/
import proofs.«206738_g15788299780114_cont_7to1_105_28_alg».proof.Proof.PoolValue
import proofs.«206738_g15788299780114_cont_7to1_105_28_alg».proof.Proof.PoolRegion
import Idealize.ShloMosaic.Lib.Pipeline.Value

noncomputable section

namespace Cert.KernelIdeal.PoolFinal

open Cert.KernelIdeal Cert.KernelIdeal.Gen Cert.KernelIdeal.Sc Cert.KernelIdeal.Pool
open Idealize.ShloMosaic Idealize.ShloMosaic.TcCoe Idealize.ShloMosaic.ValueIdx Idealize.SL.Sem
open Idealize.ShloMosaic.SparseCore.Cfg (HIx)
open Idealize.ShloMosaic.Pipeline (Dat)

variable (V : (c : Dev nD) → (b : Ref sig .tc) → Buf (Elt Ideal) ((c : Thread nD τ).loc b))

/-- The three input arrays as the region finds them: the gathered weights, the mask, the values. -/
abbrev Wt (c : Dev nD) : FVec Ideal ⟨2, ![1024, 200]⟩ .f32 := V c main_v1
abbrev Mk (c : Dev nD) : FVec Ideal ⟨2, ![1024, 200]⟩ .f32 := V c main_arg2
abbrev Vl (c : Dev nD) : FVec Ideal ⟨3, ![1024, 200, 128]⟩ .f32 := V c main_arg1

/-- The pooling of the whole arrays, as the result array's contents. -/
abbrev G (c : Dev nD) : Buf (Elt Ideal) ((cfg1.win 3).arr.view.loc (c.tc : Thread nD τ)) :=
  Cert.PoolSpec.pool (Wt V c) (Mk V c) (Vl V c)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the eight points: every window is at row-block `t`, and at block 0 on
    its other axes. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

/-- Point `t` writes back block `t` of the pooling of the whole arrays. -/
theorem flushed_eq (c : Dev nD) (t : Fin cfg1.N) :
    (dats V 0 c).flushed 3 t = ((cfg1.win 3).blk t).view.read (Elt Ideal) (G V c) := by
  show (cfg1.win 3).cut (grid1.coords t) ((dats V 0 c).after 3 t) = _
  rw [after_3]
  unfold Pool.outBlk
  rw [View.canon_unit_zero hz2]
  simp only [View.ld_unit_zero (S := S128x200) hz2, View.ld_unit_zero (S := S128x200x128) hz3]
  obtain ⟨a0, a1, b0, b1, c0, c1, c2, d0, d1⟩ := idx_facts t
  funext j
  obtain ⟨p, q, rfl⟩ : ∃ (p q : Fin 128), j = ix2 p q := ⟨j 0, j 1, eq_ix2 j⟩
  show k1_pay1 (F := Ideal) (iblk V c 0 t) (iblk V c 1 t) (iblk V c 2 t) (ix2 p q)
    = Cert.PoolSpec.pool (Wt V c) (Mk V c) (Vl V c) (((cfg1.win 3).blk t).view.emb (ix2 p q))
  refine (Cert.KernelIdeal.PoolValue.pool_pay_apply (iblk V c 0 t) (iblk V c 1 t) (iblk V c 2 t) p q).trans ?_
  have hp : p.val < 128 := p.isLt
  have hq : q.val < 128 := q.isLt
  -- the row of the result this entry is in
  have r0 : ((((cfg1.win 3).blk t).view.emb (ix2 p q)) 0).val = win1_3.index t (0 : Fin 2) * 128 + 1 * p.val := rfl
  have r1 : ((((cfg1.win 3).blk t).view.emb (ix2 p q)) 1).val = win1_3.index t (1 : Fin 2) * 128 + 1 * q.val := rfl
  have e0 : (fun l : Fin 200 => iblk V c 0 t (ix2 p l))
      = fun l : Fin 200 => Wt V c (ix2 (n0 := 1024) ((((cfg1.win 3).blk t).view.emb (ix2 p q)) 0) l) := by
    funext l
    show V c main_v1 (((cfg1.win 0).blk t).view.emb (ix2 p l)) = V c main_v1 _
    refine congrArg (V c main_v1) (funext fun a => Fin.ext ?_)
    match a with
    | ⟨0, _⟩ => show win1_0.index t (0 : Fin 2) * 128 + 1 * p.val = _; rw [r0]; omega
    | ⟨1, _⟩ => show win1_0.index t (1 : Fin 2) * 200 + 1 * l.val = l.val; omega
  have e1 : (fun l : Fin 200 => iblk V c 1 t (ix2 p l))
      = fun l : Fin 200 => Mk V c (ix2 (n0 := 1024) ((((cfg1.win 3).blk t).view.emb (ix2 p q)) 0) l) := by
    funext l
    show V c main_arg2 (((cfg1.win 1).blk t).view.emb (ix2 p l)) = V c main_arg2 _
    refine congrArg (V c main_arg2) (funext fun a => Fin.ext ?_)
    match a with
    | ⟨0, _⟩ => show win1_1.index t (0 : Fin 2) * 128 + 1 * p.val = _; rw [r0]; omega
    | ⟨1, _⟩ => show win1_1.index t (1 : Fin 2) * 200 + 1 * l.val = l.val; omega
  have e2 : (fun l : Fin 200 => iblk V c 2 t (ix3 p l q))
      = fun l : Fin 200 => Vl V c (ix3 (n0 := 1024) (n2 := 128) ((((cfg1.win 3).blk t).view.emb (ix2 p q)) 0) l
          ((((cfg1.win 3).blk t).view.emb (ix2 p q)) 1)) := by
    funext l
    show V c main_arg1 (((cfg1.win 2).blk t).view.emb (ix3 p l q)) = V c main_arg1 _
    refine congrArg (V c main_arg1) (funext fun a => Fin.ext ?_)
    match a with
    | ⟨0, _⟩ => show win1_2.index t (0 : Fin 3) * 128 + 1 * p.val = _; rw [r0]; omega
    | ⟨1, _⟩ => show win1_2.index t (1 : Fin 3) * 200 + 1 * l.val = l.val; omega
    | ⟨2, _⟩ => show win1_2.index t (2 : Fin 3) * 128 + 1 * q.val = _; rw [r1]; omega
  rw [e0, e1, e2]
  rfl

/-- An index of the result is in point `t`'s block iff its row is among the block's 128 rows. -/
theorem mem_blk (t : Fin cfg1.N) (i : S1024x128.Idx) :
    i ∈ ((cfg1.win 3).blk t).view.set
      ↔ ∀ a : Fin 2, win1_3.index t a * S128x128.size a ≤ (i a).val ∧ (i a).val < win1_3.index t a * S128x128.size a + S128x128.size a := by
  show i ∈ ((View.whole main_v2).slice (win1_3.rect t)).set ↔ _
  rw [View.set_slice_whole, Rect.mem_set_unit]
  exact Iff.rfl

/-- Row `r` of the result is covered by point `r / 128`. -/
theorem cover (i : S1024x128.Idx) :
    ∃ t : Fin cfg1.N, (cfg1.win 3).flush t = true ∧ i ∈ ((cfg1.win 3).blk t).view.set := by
  have hi0 : (i 0).val < 1024 := (i 0).isLt
  have hi1 : (i 1).val < 128 := (i 1).isLt
  have hN : cfg1.N = 8 := N_1
  refine ⟨⟨(i 0).val / 128, by rw [hN]; omega⟩, flush1_3 _, ?_⟩
  rw [mem_blk]
  obtain ⟨-, -, -, -, -, -, -, d0, d1⟩ := idx_facts ⟨(i 0).val / 128, by rw [hN]; omega⟩
  intro a
  match a with
  | ⟨0, _⟩ =>
    show win1_3.index _ (0 : Fin 2) * 128 ≤ (i 0).val ∧ (i 0).val < win1_3.index _ (0 : Fin 2) * 128 + 128
    rw [d0]; show (i 0).val / 128 * 128 ≤ (i 0).val ∧ (i 0).val < (i 0).val / 128 * 128 + 128; omega
  | ⟨1, _⟩ =>
    show win1_3.index _ (1 : Fin 2) * 128 ≤ (i 1).val ∧ (i 1).val < win1_3.index _ (1 : Fin 2) * 128 + 128
    rw [d1]; omega

/-- The result array after the region: the pooling of the gathered weights, the mask and the values as the region
    finds them. -/
theorem final (c : Dev nD) :
    (dats V 0 c).arrAt 3 cfg1.N = Cert.PoolSpec.pool (Wt V c) (Mk V c) (Vl V c) :=
  (dats V 0 c).arrAt_eq_of_cover 3 (G V c) (fun t _ => flushed_eq V c t) (cover)

end Cert.KernelIdeal.PoolFinal

end
-- ==== Proof.GatBridge.lean ====
/-
  The gathered weights are the specification's.

  The table is the weight column `[100000, 1]` read as a vector `[100000]`: its entry `r` is the column's entry
  `(r, 0)` (both have row-major position `r`). An index word names the entry at its unsigned value modulo 100000
  on both sides, so the two gathers agree at every position, with no condition on the index words.
-/
import proofs.«206738_g15788299780114_cont_7to1_105_28_alg».proof.Proof.ScSetup
import proofs.«206738_g15788299780114_cont_7to1_105_28_alg».proof.Proof.Spec
import Idealize.ShloMosaic.Lib.ValueLayout

noncomputable section

namespace Cert.KernelIdeal.Sc

open Cert.KernelIdeal Cert.KernelIdeal.Gen
open Idealize.ShloMosaic Idealize.ShloMosaic.ValueIdx

/-- A column `[a, 1]` cast to the vector `[a]` reads, at `i`, the column's entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The table at the entry an index word names is the weight column at the row the specification reads. -/
theorem tab_entry (m : (ℓ : Loc nD τ sig) → Buf (Elt Ideal) ℓ) (d : Dev nD) (x : BitVec 32) :
    tab (F := Ideal) m d (entry x) = m (wgtLoc d) (ix2 (Cert.PoolSpec.row x) (0 : Fin 1)) :=
  shapeCast_a1_a_apply (m (wgtLoc d)) shapeCasts_S100000x1_S100000 (Cert.PoolSpec.row x)

/-- The gathered weights, position by position, are the specification's gather of the weight column by the index array. -/
theorem gat_eq_gathered (m : (ℓ : Loc nD τ sig) → Buf (Elt Ideal) ℓ) (d : Dev nD) :
    (gat (F := Ideal) m d : FVec Ideal ⟨2, ![1024, 200]⟩ .f32) = Cert.PoolSpec.gathered (m (idxLoc d)) (m (wgtLoc d)) :=
  funext fun j => tab_entry m d (m (idxLoc d) j)

end Cert.KernelIdeal.Sc

end
-- ==== Proof.RefOps.lean ====
/-
  The reference program as a straight line of 54 array operations, in order: the mask given a trailing unit axis; the
  table lookup (23 operations, among them the select of the function it calls); the masked logits; their row maximum;
  the exponentials, their row sum and the quotients; the products with the values and the mask and their sum along the
  positions. A called function's operations stand in place of its call, over that call's own buffers.
-/
import proofs.«206738_g15788299780114_cont_7to1_105_28_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀

/-- The program's operations in order, the called functions' operations in place of their calls. -/
abbrev ops : List (HloOp τ sig (Elt F)) :=
  [ unary main_arg2 main_v0 (broadcastInDim S1024x200x1 ![0, 1] bcast_S1024x200_S1024x200x1_0_1 : (⟨S1024x200, .f32⟩ : BufTy).Contents (Elt F) → (⟨S1024x200x1, .f32⟩ : BufTy).Contents (Elt F)),
    TRef.nullary main_call0.c (constantI S_ 32 0#32),
    TRef.unary main_call0.c main_call0.v0 (broadcastInDim S1024x200 ![] bcast_S_S1024x200),
    TRef.binary (.of main_arg0 : TRef sig ⟨S1024x200, .i32⟩) main_call0.v0 main_call0.v1 (cmpi .slt),
    TRef.nullary main_call0.c_0 (constantI S_ 32 100000#32),
    TRef.unary main_call0.c_0 main_call0.v2 (broadcastInDim S1024x200 ![] bcast_S_S1024x200),
    TRef.binary (.of main_arg0 : TRef sig ⟨S1024x200, .i32⟩) main_call0.v2 main_call0.v3 addi,
    TRef.ternary main_call0.v1 main_call0.v3 (.of main_arg0 : TRef sig ⟨S1024x200, .i32⟩) main_call0.call0.v0 select,
    TRef.unary main_call0.call0.v0 main_call0.v5 (broadcastInDim S1024x200x1 ![0, 1] bcast_S1024x200_S1024x200x1_0_1),
    TRef.nullary main_call0.c_1 (constantI S1 32 99999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg3 : TRef sig ⟨S100000x1, .f32⟩) main_call0.v5 main_call0.v13 (fun x i => Host.gather gather_S100000x1_S1024x200x1_S1024x200x1_2_0_n_n_0_2_11 x i),
    TRef.unary main_call0.v12 main_call0.v14 (broadcastInDim S1024x200x1 ![0, 1] bcast_S1024x200_S1024x200x1_0_1),
    TRef.nullary main_call0.cst (constant S_ .f32 0x7FC00000#32),
    TRef.unary main_call0.cst main_call0.v15 (broadcastInDim S1024x200x1 ![] bcast_S_S1024x200x1),
    TRef.ternary main_call0.v14 main_call0.v13 main_call0.v15 main_call0.v16 select,
    nullary main_cst (constant S_ .f32 0x3F800000#32),
    unary main_cst main_v2 (broadcastInDim S1024x200x1 ![] bcast_S_S1024x200x1 : (⟨S_, .f32⟩ : BufTy).Contents (Elt F) → (⟨S1024x200x1, .f32⟩ : BufTy).Contents (Elt F)),
    binary main_v2 main_v0 main_v3 (subf : (⟨S1024x200x1, .f32⟩ : BufTy).Contents (Elt F) → (⟨S1024x200x1, .f32⟩ : BufTy).Contents (Elt F) → (⟨S1024x200x1, .f32⟩ : BufTy).Contents (Elt F)),
    nullary main_cst_0 (constant S_ .f32 0x3F000000#32),
    unary main_cst_0 main_v4 (broadcastInDim S1024x200x1 ![] bcast_S_S1024x200x1 : (⟨S_, .f32⟩ : BufTy).Contents (Elt F) → (⟨S1024x200x1, .f32⟩ : BufTy).Contents (Elt F)),
    binary main_v3 main_v4 main_v5 (cmpf .ogt : (⟨S1024x200x1, .f32⟩ : BufTy).Contents (Elt F) → (⟨S1024x200x1, .f32⟩ : BufTy).Contents (Elt F) → (⟨S1024x200x1, .i1⟩ : BufTy).Contents (Elt F)),
    nullary main_cst_1 (constant S_ .f32 0xFF800000#32),
    TRef.unary (.of main_cst_1 : TRef sig ⟨S_, .f32⟩) main_call1.v0 id,
    TRef.unary main_call1.v0 main_call1.v1 (broadcastInDim S1024x200x1 ![] bcast_S_S1024x200x1),
    TRef.ternary (.of main_v5 : TRef sig ⟨S1024x200x1, .i1⟩) main_call1.v1 (.of main_v1 : TRef sig ⟨S1024x200x1, .f32⟩) main_call1.v2 select,
    nullary main_cst_2 (constant S_ .f32 0xFF800000#32),
    binary main_v6 main_cst_2 main_v7 ((fun x v => Host.reduce FloatOps.maximumf x v reducesTo_S1024x200x1_S1024x1_d1 h_S_) : (⟨S1024x200x1, .f32⟩ : BufTy).Contents (Elt F) → (⟨S_, .f32⟩ : BufTy).Contents (Elt F) → (⟨S1024x1, .f32⟩ : BufTy).Contents (Elt F)),
    nullary main_cst_3 (constant S_ .f32 0xFF800000#32),
    unary main_cst_3 main_v8 (broadcastInDim S1024x1 ![] bcast_S_S1024x1 : (⟨S_, .f32⟩ : BufTy).Contents (Elt F) → (⟨S1024x1, .f32⟩ : BufTy).Contents (Elt F)),
    binary main_v8 main_v7 main_v9 (maximumf : (⟨S1024x1, .f32⟩ : BufTy).Contents (Elt F) → (⟨S1024x1, .f32⟩ : BufTy).Contents (Elt F) → (⟨S1024x1, .f32⟩ : BufTy).Contents (Elt F)),
    unary main_v9 main_v10 (broadcastInDim S1024x1x1 ![0, 2] bcast_S1024x1_S1024x1x1_0_2 : (⟨S1024x1, .f32⟩ : BufTy).Contents (Elt F) → (⟨S1024x1x1, .f32⟩ : BufTy).Contents (Elt F)),
    unary main_v10 main_v11 (broadcastInDim S1024x200x1 ![0, 1, 2] bcast_S1024x1x1_S1024x200x1_0_1_2 : (⟨S1024x1x1, .f32⟩ : BufTy).Contents (Elt F) → (⟨S1024x200x1, .f32⟩ : BufTy).Contents (Elt F)),
    binary main_v6 main_v11 main_v12 (subf : (⟨S1024x200x1, .f32⟩ : BufTy).Contents (Elt F) → (⟨S1024x200x1, .f32⟩ : BufTy).Contents (Elt F) → (⟨S1024x200x1, .f32⟩ : BufTy).Contents (Elt F)),
    unary main_v12 main_v13 (Host.exp : (⟨S1024x200x1, .f32⟩ : BufTy).Contents (Elt F) → (⟨S1024x200x1, .f32⟩ : BufTy).Contents (Elt F)),
    nullary main_cst_4 (constant S_ .f32 0x00000000#32),
    binary main_v13 main_cst_4 main_v14 ((fun x v => Host.reduceAdd x v reducesTo_S1024x200x1_S1024x1_d1 h_S_) : (⟨S1024x200x1, .f32⟩ : BufTy).Contents (Elt F) → (⟨S_, .f32⟩ : BufTy).Contents (Elt F) → (⟨S1024x1, .f32⟩ : BufTy).Contents (Elt F)),
    unary main_v14 main_v15 (broadcastInDim S1024x1x1 ![0, 2] bcast_S1024x1_S1024x1x1_0_2 : (⟨S1024x1, .f32⟩ : BufTy).Contents (Elt F) → (⟨S1024x1x1, .f32⟩ : BufTy).Contents (Elt F)),
    unary main_v15 main_v16 (broadcastInDim S1024x200x1 ![0, 1, 2] bcast_S1024x1x1_S1024x200x1_0_1_2 : (⟨S1024x1x1, .f32⟩ : BufTy).Contents (Elt F) → (⟨S1024x200x1, .f32⟩ : BufTy).Contents (Elt F)),
    binary main_v13 main_v16 main_v17 (Host.divf : (⟨S1024x200x1, .f32⟩ : BufTy).Contents (Elt F) → (⟨S1024x200x1, .f32⟩ : BufTy).Contents (Elt F) → (⟨S1024x200x1, .f32⟩ : BufTy).Contents (Elt F)),
    unary main_v17 main_v18 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    unary main_v0 main_v19 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v18 main_arg1 main_v20 (mulf : (⟨S1024x200x128, .f32⟩ : BufTy).Contents (Elt F) → (⟨S1024x200x128, .f32⟩ : BufTy).Contents (Elt F) → (⟨S1024x200x128, .f32⟩ : BufTy).Contents (Elt F)),
    binary main_v20 main_v19 main_v21 (mulf : (⟨S1024x200x128, .f32⟩ : BufTy).Contents (Elt F) → (⟨S1024x200x128, .f32⟩ : BufTy).Contents (Elt F) → (⟨S1024x200x128, .f32⟩ : BufTy).Contents (Elt F)),
    nullary main_cst_5 (constant S_ .f32 0x00000000#32),
    binary main_v21 main_cst_5 main_v22 ((fun x v => Host.reduceAdd x v reducesTo_S1024x200x128_S1024x128_d1 h_S_) : (⟨S1024x200x128, .f32⟩ : BufTy).Contents (Elt F) → (⟨S_, .f32⟩ : BufTy).Contents (Elt F) → (⟨S1024x128, .f32⟩ : BufTy).Contents (Elt F)) ]

end Cert.ReferenceIdeal.RefRun

end
-- ==== Proof.RefRun.lean ====
/-
  The reference program's run, and the value it leaves in its result.

  The reference is a straight line of 54 array operations: the mask given a trailing unit axis; the table
  lookup (an index word below zero is first raised by the table's 100000 rows, the word is then tested for
  lying in [0, 99999], the row is gathered with the index clamped into the table, and where the test failed
  the gathered entry is replaced by a fill word); the masked logits (-∞ where 1 - mask > 1/2); their maximum
  along the 200 positions, folded from -∞ and then maximised with -∞ once more; the exponentials of the
  logits less that maximum; their sum along the positions, from 0; the quotients; and last the sum along the
  positions, from 0, of (quotient × value) × mask, with quotient and mask repeated along the 128 hidden
  coordinates.

  `ops` lists the operations in order, a called function's operations in place of its call over that call's
  buffers. Running them one after the other from the launch memory leaves every buffer at the fold of the
  operations' results; read at the result buffer that fold is `refTerm` of the four argument arrays, stated
  here in named stages (`takeIndex`, `takeOk`, `taken`, `logits`, `rowMaxes`, `expos`, `probs`), and read at an
  argument buffer it is the argument, since no operation writes one.
-/
import proofs.«206738_g15788299780114_cont_7to1_105_28_alg».proof.ReferenceIdeal
import proofs.«206738_g15788299780114_cont_7to1_105_28_alg».proof.Proof.RefOps
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀

-- fifty-four binds re-associated: the rewrite under the chain recurses once per statement
set_option maxRecDepth 2048 in
/-- The program is that straight line: the called functions unfolded at their calls and sequencing re-associated. -/
theorem main_eq (c : Dev nD) : main (F := F) c = seq ops := by
  simp only [main, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., binary_bufs_sub .., nullary_bufs_sub .., binary_bufs_sub ..⟩

/-! ## The result as a term of the arguments, in stages -/

/-- The mask with a trailing unit axis. -/
def maskCol (mask : FVec Ideal S1024x200 .f32) : FVec Ideal S1024x200x1 .f32 :=
  broadcastInDim S1024x200x1 ![0, 1] bcast_S1024x200_S1024x200x1_0_1 mask

/-- The lookup's index words: a word below zero raised by 100000, then a trailing unit axis. -/
def takeIndex (inp : IVec S1024x200 32) : IVec S1024x200x1 32 :=
  broadcastInDim S1024x200x1 ![0, 1] bcast_S1024x200_S1024x200x1_0_1
    (select (cmpi .slt inp (broadcastInDim S1024x200 ![] bcast_S_S1024x200 (constantI S_ 32 0#32)))
      (addi inp (broadcastInDim S1024x200 ![] bcast_S_S1024x200 (constantI S_ 32 100000#32))) inp)

/-- The lookup's test: the index word lies in [0, 99999], read signed. -/
def takeOk (inp : IVec S1024x200 32) : IVec S1024x200x1 1 :=
  broadcastInDim S1024x200x1 ![0, 1] bcast_S1024x200_S1024x200x1_0_1
    (Host.reduce IntOp.andi
      (andi (cmpi .sge (takeIndex inp) (broadcastInDim S1024x200x1 ![] bcast_S_S1024x200x1 (constantI S_ 32 0#32)))
        (cmpi .sle (takeIndex inp) (broadcastInDim S1024x200x1 ![0, 1, 2] bcast_S1x1x1_S1024x200x1_0_1_2 (broadcastInDim S1x1x1 ![2] bcast_S1_S1x1x1_2 (constantI S1 32 99999#32)))))
      (constantI S_ 1 1#1) reducesTo_S1024x200x1_S1024x200_d2 h_S_)

/-- The looked-up weights: the gathered row where the test holds, the fill word elsewhere. -/
def taken (inp : IVec S1024x200 32) (weight : FVec Ideal S100000x1 .f32) : FVec Ideal S1024x200x1 .f32 :=
  select (takeOk inp) (Host.gather gather_S100000x1_S1024x200x1_S1024x200x1_2_0_n_n_0_2_11 weight (takeIndex inp))
    (broadcastInDim S1024x200x1 ![] bcast_S_S1024x200x1 (constant (F := Ideal) S_ .f32 0x7FC00000#32))

/-- The masked logits: -∞ where 1 - mask > 1/2, the looked-up weight elsewhere. -/
def logits (inp : IVec S1024x200 32) (mask : FVec Ideal S1024x200 .f32) (weight : FVec Ideal S100000x1 .f32) :
    FVec Ideal S1024x200x1 .f32 :=
  select
    (cmpf .ogt
      (subf (broadcastInDim S1024x200x1 ![] bcast_S_S1024x200x1 (constant (F := Ideal) S_ .f32 0x3F800000#32)) (maskCol mask))
      (broadcastInDim S1024x200x1 ![] bcast_S_S1024x200x1 (constant (F := Ideal) S_ .f32 0x3F000000#32)))
    (broadcastInDim S1024x200x1 ![] bcast_S_S1024x200x1 (id (constant (F := Ideal) S_ .f32 0xFF800000#32)))
    (taken inp weight)

/-- Each row's maximum logit: the fold of the maximum from -∞ along the positions, maximised with -∞ once more. -/
def rowMaxes (inp : IVec S1024x200 32) (mask : FVec Ideal S1024x200 .f32) (weight : FVec Ideal S100000x1 .f32) :
    FVec Ideal S1024x1 .f32 :=
  maximumf (broadcastInDim S1024x1 ![] bcast_S_S1024x1 (constant (F := Ideal) S_ .f32 0xFF800000#32))
    (Host.reduce (FloatOps.maximumf (F := Ideal) (φ := .f32)) (logits inp mask weight) (constant (F := Ideal) S_ .f32 0xFF800000#32)
      reducesTo_S1024x200x1_S1024x1_d1 h_S_)

/-- The exponentials of the logits less their row's maximum. -/
def expos (inp : IVec S1024x200 32) (mask : FVec Ideal S1024x200 .f32) (weight : FVec Ideal S100000x1 .f32) :
    FVec Ideal S1024x200x1 .f32 :=
  Host.exp (subf (logits inp mask weight)
    (broadcastInDim S1024x200x1 ![0, 1, 2] bcast_S1024x1x1_S1024x200x1_0_1_2 (broadcastInDim S1024x1x1 ![0, 2] bcast_S1024x1_S1024x1x1_0_2 (rowMaxes inp mask weight))))

/-- The exponentials over their row's sum (a sum from 0). -/
def probs (inp : IVec S1024x200 32) (mask : FVec Ideal S1024x200 .f32) (weight : FVec Ideal S100000x1 .f32) :
    FVec Ideal S1024x200x1 .f32 :=
  Host.divf (expos inp mask weight)
    (broadcastInDim S1024x200x1 ![0, 1, 2] bcast_S1024x1x1_S1024x200x1_0_1_2 (broadcastInDim S1024x1x1 ![0, 2] bcast_S1024x1_S1024x1x1_0_2
      (Host.reduceAdd (expos inp mask weight) (constant (F := Ideal) S_ .f32 0x00000000#32) reducesTo_S1024x200x1_S1024x1_d1 h_S_)))

/-- The reference's result: the sum along the positions, from 0, of (probability × value) × mask. -/
def refTerm (inp : IVec S1024x200 32) (values : FVec Ideal S1024x200x128 .f32) (mask : FVec Ideal S1024x200 .f32)
    (weight : FVec Ideal S100000x1 .f32) : FVec Ideal S1024x128 .f32 :=
  Host.reduceAdd
    (mulf
      (mulf (broadcastInDim S1024x200x128 ![0, 1, 2] bcast_S1024x200x1_S1024x200x128_0_1_2 (probs inp mask weight)) values)
      (broadcastInDim S1024x200x128 ![0, 1, 2] bcast_S1024x200x1_S1024x200x128_0_1_2 (maskCol mask)))
    (constant (F := Ideal) S_ .f32 0x00000000#32) reducesTo_S1024x200x128_S1024x128_d1 h_S_

/-! ## The fold read at the result and at the arguments -/

attribute [local irreducible] Host.reduce Host.reduceAdd Host.gather in
set_option maxRecDepth 8192 in
set_option maxHeartbeats 1000000 in
/-- The fold at the result buffer is `refTerm` of the contents the arguments had: each operation's result read
    where it is written, any other buffer's contents carried through; the reductions and the gather stay folded. -/
theorem out_eq (V : Valuation τ sig (Elt Ideal)) :
    after ops V (main_v22 : DevRef τ sig)
      = refTerm (V (main_arg0 : DevRef τ sig)) (V (main_arg1 : DevRef τ sig)) (V (main_arg2 : DevRef τ sig))
          (V (main_arg3 : DevRef τ sig)) := by
  after_results_simp
  rfl

set_option maxRecDepth 8192 in
theorem arg0_eq (V : Valuation τ sig (Elt Ideal)) : after ops V (main_arg0 : DevRef τ sig) = V (main_arg0 : DevRef τ sig) := by
  after_results_simp
set_option maxRecDepth 8192 in
theorem arg1_eq (V : Valuation τ sig (Elt Ideal)) : after ops V (main_arg1 : DevRef τ sig) = V (main_arg1 : DevRef τ sig) := by
  after_results_simp
set_option maxRecDepth 8192 in
theorem arg2_eq (V : Valuation τ sig (Elt Ideal)) : after ops V (main_arg2 : DevRef τ sig) = V (main_arg2 : DevRef τ sig) := by
  after_results_simp
set_option maxRecDepth 8192 in
theorem arg3_eq (V : Valuation τ sig (Elt Ideal)) : after ops V (main_arg3 : DevRef τ sig) = V (main_arg3 : DevRef τ sig) := by
  after_results_simp

/-- From any memory with zero counters every weakly fair execution of the reference terminates without a fault,
    its result buffer at `refTerm` of the arguments' launch contents and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v22)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v22).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m g)

end Cert.ReferenceIdeal.RefRun

end
-- ==== Proof.RefValue.lean ====
/-
  The reference's result is the specification, where every index word names a row of the table.

  Read at one entry (b, h) of the result, the reference's term is 0 + the sum over the 200 positions l of
  (p l × values[b, l, h]) × mask[b, l], where p l is position l's softmax probability along row b of the masked
  logits. Each stage is read at an index in turn:
    · a broadcast along new or unit axes reads its operand at the coordinates it keeps;
    · the lookup: an index word below 100000 read unsigned is non-negative read signed, so it is not raised, the
      range test holds, the clamp of the gather is the identity, and the entry is the table's row of that word;
    · the row maximum is the fold of `max` from -∞ over the positions, and `max` with -∞ once more changes nothing
      because a fold of `max` is at least its starting value;
    · the sums are 0 + a sum over the positions, and 0 + x = x;
    · (p × v) × m = p × m × v in the commutative monoid of the extended reals.
-/
import proofs.«206738_g15788299780114_cont_7to1_105_28_alg».proof.Proof.RefRun
import proofs.«206738_g15788299780114_cont_7to1_105_28_alg».proof.Proof.Spec
import Idealize.ShloMosaic.PureOps.Ideal.Laws
import Idealize.ShloMosaic.PureOps.Reduce
import Idealize.ShloMosaic.Lib.Affine
import Idealize.ShloMosaic.Lib.ValueIdx
import Idealize.ShloMosaic.Lib.Pipeline.Value

noncomputable section

open scoped BigOperators

namespace Cert.ReferenceIdeal.RefValue

open Cert.ReferenceIdeal Cert.ReferenceIdeal.RefRun Idealize.ShloMosaic Idealize.ShloMosaic.ValueIdx
open Idealize.ShloMosaic.TcCoe Idealize.SL.Sem

variable [Facts]
open Facts₀

/-! ## Index words -/

/-- A word below 100000 read unsigned is the same number read signed. -/
theorem toInt_of_lt {w : BitVec 32} (h : w.toNat < 100000) : w.toInt = (w.toNat : Int) :=
  BitVec.toInt_eq_toNat_of_lt (by omega)

/-- Such a word is not below zero read signed … -/
theorem slt_zero {w : BitVec 32} (h : w.toNat < 100000) : IntOp.cmpi .slt w 0#32 = 0#1 := by
  refine eq_zero_of_ne_one fun e => ?_
  rw [IntOp.cmpi_slt, toInt_of_lt h, show (0#32 : BitVec 32).toInt = 0 from by decide] at e
  omega

/-- … is at least zero … -/
theorem sge_zero {w : BitVec 32} (h : w.toNat < 100000) : IntOp.cmpi .sge w 0#32 = 1#1 := by
  rw [IntOp.cmpi_sge, toInt_of_lt h, show (0#32 : BitVec 32).toInt = 0 from by decide]
  omega

/-- … and at most 99999. -/
theorem sle_max {w : BitVec 32} (h : w.toNat < 100000) : IntOp.cmpi .sle w 99999#32 = 1#1 := by
  rw [IntOp.cmpi_sle, toInt_of_lt h, show (99999#32 : BitVec 32).toInt = 99999 from by decide]
  omega

/-- A left fold of `and` from the bit 1 over bits that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

/-! ## Broadcasts read at an index -/

/-- An array over (row, position) given a trailing unit axis reads the same entry. -/
theorem col_apply {α : Type} (x : S1024x200.Idx → α) (b : Fin 1024) (l : Fin 200) (z : Fin 1) :
    broadcastInDim S1024x200x1 ![0, 1] bcast_S1024x200_S1024x200x1_0_1 x (ix3 b l z) = x (ix2 b l) :=
  broadcastInDim_apply _ _ x _ (ix2 b l) fun a => by
    match a with
    | ⟨0, _⟩ => rfl
    | ⟨1, _⟩ => rfl

/-- A per-row array repeated along the positions reads its row's entry. -/
theorem row_apply {α : Type} (x : S1024x1.Idx → α) (b : Fin 1024) (l : Fin 200) (z : Fin 1) :
    broadcastInDim S1024x200x1 ![0, 1, 2] bcast_S1024x1x1_S1024x200x1_0_1_2
      (broadcastInDim S1024x1x1 ![0, 2] bcast_S1024x1_S1024x1x1_0_2 x) (ix3 b l z) = x (ix2 b (0 : Fin 1)) := by
  refine (broadcastInDim_apply _ _ _ _ (ix3 b (0 : Fin 1) (0 : Fin 1)) fun a => ?_).trans
    (broadcastInDim_apply _ _ x _ (ix2 b (0 : Fin 1)) fun a => ?_)
  · match a with
    | ⟨0, _⟩ => rfl
    | ⟨1, _⟩ => rfl
    | ⟨2, _⟩ => rfl
  · match a with
    | ⟨0, _⟩ => rfl
    | ⟨1, _⟩ => rfl

/-- An array over (row, position) repeated along the 128 hidden coordinates reads the same entry. -/
theorem hid_apply {α : Type} (x : S1024x200x1.Idx → α) (b : Fin 1024) (l : Fin 200) (h : Fin 128) :
    broadcastInDim S1024x200x128 ![0, 1, 2] bcast_S1024x200x1_S1024x200x128_0_1_2 x (ix3 b l h)
      = x (ix3 b l (0 : Fin 1)) :=
  broadcastInDim_apply _ _ x _ (ix3 b l (0 : Fin 1)) fun a => by
    match a with
    | ⟨0, _⟩ => rfl
    | ⟨1, _⟩ => rfl
    | ⟨2, _⟩ => rfl

/-! ## The reduced axis -/

/-- The positions are the one reduced axis of the (row, position, 1) arrays … -/
theorem red1 : S1024x200x1.Reduces [1] S1024x1 := by decide
/-- … and of the (row, position, hidden) array. -/
theorem red128 : S1024x200x128.Reduces [1] S1024x128 := by decide

/-- Position `l` inserted into (b, z) is (b, l, z). -/
theorem lift1 (b : Fin 1024) (z : Fin 1) (l : Fin 200) : red1.lift (ix2 b z) l = ix3 b l z := by
  funext c
  match c with
  | ⟨0, _⟩ => exact Fin.ext rfl
  | ⟨1, _⟩ => exact Fin.ext rfl
  | ⟨2, _⟩ => exact Fin.ext rfl

/-- Position `l` inserted into (b, h) is (b, l, h). -/
theorem lift128 (b : Fin 1024) (h : Fin 128) (l : Fin 200) : red128.lift (ix2 b h) l = ix3 b l h := by
  funext c
  match c with
  | ⟨0, _⟩ => exact Fin.ext rfl
  | ⟨1, _⟩ => exact Fin.ext rfl
  | ⟨2, _⟩ => exact Fin.ext rfl

/-! ## The lookup -/

section Lookup

variable (inp : IVec S1024x200 32) (hin : ∀ j, (inp j).toNat < 100000)
include hin

/-- The index word is not raised: it is not negative. -/
theorem takeIndex_apply (b : Fin 1024) (l : Fin 200) (z : Fin 1) : takeIndex inp (ix3 b l z) = inp (ix2 b l) := by
  unfold takeIndex
  rw [col_apply]
  show Scalar.select (IntOp.cmpi .slt (inp (ix2 b l)) 0#32) _ (inp (ix2 b l)) = _
  rw [slt_zero (hin _), select_zero]

/-- The range test holds everywhere. -/
theorem takeOk_apply (b : Fin 1024) (l : Fin 200) (z : Fin 1) : takeOk inp (ix3 b l z) = 1#1 := by
  unfold takeOk
  rw [col_apply, Host.reduce_eq_foldl]
  refine foldl_andi_ones _ _ fun i _ => ?_
  obtain ⟨b', l', z', rfl⟩ : ∃ (b' : Fin 1024) (l' : Fin 200) (z' : Fin 1), i = ix3 b' l' z' := ⟨i 0, i 1, i 2, eq_ix3 i⟩
  show IntOp.andi (IntOp.cmpi .sge (takeIndex inp (ix3 b' l' z')) 0#32) (IntOp.cmpi .sle (takeIndex inp (ix3 b' l' z')) 99999#32) = 1#1
  rw [takeIndex_apply inp hin, sge_zero (hin _), sle_max (hin _)]
  decide

omit hin in
/-- The gather reads the table at the start index's word, read signed and clamped into the table: for a word that
    is the number `k` below 100000 both ways, row `k`. -/
theorem gather_apply (weight : FVec Ideal S100000x1 .f32) (idx : IVec S1024x200x1 32) (b : Fin 1024) (l : Fin 200)
    (z : Fin 1) (k : Fin 100000) (hk : (idx (ix3 b l (0 : Fin 1))).toNat = k.val) :
    Host.gather gather_S100000x1_S1024x200x1_S1024x200x1_2_0_n_n_0_2_11 weight idx (ix3 b l z)
      = weight (ix2 k (0 : Fin 1)) := by
  unfold Host.gather
  refine congrArg weight (funext fun a => Fin.ext ?_)
  match a with
  | ⟨1, h1⟩ =>
    have h : (gather_S100000x1_S1024x200x1_S1024x200x1_2_0_n_n_0_2_11.operandIdx (ix3 b l z) idx ⟨1, h1⟩).val < 1 :=
      (gather_S100000x1_S1024x200x1_S1024x200x1_2_0_n_n_0_2_11.operandIdx (ix3 b l z) idx ⟨1, h1⟩).isLt
    show (gather_S100000x1_S1024x200x1_S1024x200x1_2_0_n_n_0_2_11.operandIdx (ix3 b l z) idx ⟨1, h1⟩).val = 0
    omega
  | ⟨0, h0⟩ =>
    show gather_S100000x1_S1024x200x1_S1024x200x1_2_0_n_n_0_2_11.start (ix3 b l z) idx ⟨0, h0⟩
        + gather_S100000x1_S1024x200x1_S1024x200x1_2_0_n_n_0_2_11.batchCoord (ix3 b l z) ⟨0, h0⟩
        + gather_S100000x1_S1024x200x1_S1024x200x1_2_0_n_n_0_2_11.offCoord (ix3 b l z) ⟨0, h0⟩ = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S100000x1.rank) ∈ gather_S100000x1_S1024x200x1_S1024x200x1_2_0_n_n_0_2_11.startIndexMap
      from List.mem_singleton.mpr rfl)]
    have hsi : gather_S100000x1_S1024x200x1_S1024x200x1_2_0_n_n_0_2_11.siIdx (ix3 b l z)
        ⟨List.idxOf (⟨0, h0⟩ : Fin S100000x1.rank) gather_S100000x1_S1024x200x1_S1024x200x1_2_0_n_n_0_2_11.startIndexMap,
          List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    show min (idx (ix3 b l (0 : Fin 1))).toInt.toNat (100000 - 1) = k.val
    rw [toInt_of_lt (by rw [hk]; exact k.isLt), Int.toNat_natCast, hk]
    have := k.isLt
    omega

/-- The looked-up weight of (row b, position l) is the table's row of that index word. -/
theorem taken_apply (weight : FVec Ideal S100000x1 .f32) (b : Fin 1024) (l : Fin 200) (z : Fin 1) :
    taken inp weight (ix3 b l z) = Cert.PoolSpec.gathered inp weight (ix2 b l) := by
  unfold taken
  show Scalar.select (takeOk inp (ix3 b l z)) (Host.gather _ weight (takeIndex inp) (ix3 b l z)) _ = _
  rw [takeOk_apply inp hin, select_one,
    gather_apply weight (takeIndex inp) b l z (Cert.PoolSpec.row (inp (ix2 b l)))
      (by rw [takeIndex_apply inp hin]; exact (Nat.mod_eq_of_lt (hin _)).symm)]
  rfl

end Lookup

/-! ## The softmax and the pooling, row by row -/

section Row

variable (inp : IVec S1024x200 32) (values : FVec Ideal S1024x200x128 .f32) (mask : FVec Ideal S1024x200 .f32)
  (weight : FVec Ideal S100000x1 .f32) (hin : ∀ j, (inp j).toNat < 100000) (b : Fin 1024)

/-- Row `b`'s gathered weights and mask entries, as functions of the position. -/
abbrev wRow : Fin 200 → EReal := fun l => Cert.PoolSpec.gathered inp weight (ix2 b l)
abbrev mRow : Fin 200 → EReal := fun l => mask (ix2 b l)

include hin

theorem logits_apply (l : Fin 200) (z : Fin 1) :
    logits inp mask weight (ix3 b l z) = Cert.PoolSpec.logit (wRow inp weight b l) (mRow mask b l) := by
  have e1 : maskCol mask (ix3 b l z) = mask (ix2 b l) := col_apply mask b l z
  have e2 := taken_apply inp hin weight b l z
  show Scalar.select (Ideal.cmp .ogt (Cert.PoolSpec.one - maskCol mask (ix3 b l z)) Cert.PoolSpec.half) Cert.PoolSpec.ninf
    (taken inp weight (ix3 b l z)) = _
  rw [e1, e2]
  rfl

theorem rowMaxes_apply (z : Fin 1) :
    rowMaxes inp mask weight (ix2 b z) = Cert.PoolSpec.rowMax (wRow inp weight b) (mRow mask b) := by
  have hf : (logits inp mask weight ∘ red1.lift (ix2 b z))
      = fun l : Fin 200 => Cert.PoolSpec.logit (wRow inp weight b l) (mRow mask b l) :=
    funext fun l => (congrArg (logits inp mask weight) (lift1 b z l)).trans (logits_apply inp mask weight hin b l z)
  have hfold : Host.reduce (FloatOps.maximumf (F := Ideal) (φ := .f32)) (logits inp mask weight)
      (constant (F := Ideal) S_ .f32 0xFF800000#32) reducesTo_S1024x200x1_S1024x1_d1 h_S_ (ix2 b z)
        = Cert.PoolSpec.rowMax (wRow inp weight b) (mRow mask b) := by
    refine (Host.reduce_eq_fold_single _ _ _ reducesTo_S1024x200x1_S1024x1_d1 red1 h_S_ (ix2 b z)).trans ?_
    rw [hf]
    rfl
  show max Cert.PoolSpec.ninf (Host.reduce (FloatOps.maximumf (F := Ideal) (φ := .f32)) (logits inp mask weight)
      (constant (F := Ideal) S_ .f32 0xFF800000#32) reducesTo_S1024x200x1_S1024x1_d1 h_S_ (ix2 b z)) = _
  rw [hfold]
  exact max_eq_right ((Finset.le_fold_max _).2 (Or.inl le_rfl))

theorem expos_apply (l : Fin 200) (z : Fin 1) :
    expos inp mask weight (ix3 b l z) = Cert.PoolSpec.expo (wRow inp weight b) (mRow mask b) l := by
  unfold expos
  show Ideal.exp (logits inp mask weight (ix3 b l z) - broadcastInDim S1024x200x1 ![0, 1, 2] bcast_S1024x1x1_S1024x200x1_0_1_2
    (broadcastInDim S1024x1x1 ![0, 2] bcast_S1024x1_S1024x1x1_0_2 (rowMaxes inp mask weight)) (ix3 b l z)) = _
  rw [row_apply, logits_apply inp mask weight hin, rowMaxes_apply inp mask weight hin]
  rfl

theorem probs_apply (l : Fin 200) (z : Fin 1) :
    probs inp mask weight (ix3 b l z) = Cert.PoolSpec.prob (wRow inp weight b) (mRow mask b) l := by
  have hden : Host.reduceAdd (expos inp mask weight) (constant (F := Ideal) S_ .f32 0x00000000#32)
      reducesTo_S1024x200x1_S1024x1_d1 h_S_ (ix2 b (0 : Fin 1)) = Cert.PoolSpec.denom (wRow inp weight b) (mRow mask b) := by
    show Ideal.hostReduceAdd reducesTo_S1024x200x1_S1024x1_d1 (expos inp mask weight) (Ideal.ofBits .f32 0x00000000#32)
      (ix2 b (0 : Fin 1)) = _
    rw [Ideal.hostReduceAdd_single _ red1, Ideal.ofBits_zero_f32, zero_add]
    exact Finset.sum_congr rfl fun l _ =>
      (congrArg (expos inp mask weight) (lift1 b 0 l)).trans (expos_apply inp mask weight hin b l 0)
  unfold probs
  show Ideal.div (expos inp mask weight (ix3 b l z)) (broadcastInDim S1024x200x1 ![0, 1, 2] bcast_S1024x1x1_S1024x200x1_0_1_2
    (broadcastInDim S1024x1x1 ![0, 2] bcast_S1024x1_S1024x1x1_0_2 (Host.reduceAdd (expos inp mask weight)
      (constant (F := Ideal) S_ .f32 0x00000000#32) reducesTo_S1024x200x1_S1024x1_d1 h_S_)) (ix3 b l z)) = _
  rw [row_apply, hden, expos_apply inp mask weight hin]
  rfl

/-- One entry of the reference's result is the specification's pooled value of its row and hidden coordinate. -/
theorem refTerm_apply (h : Fin 128) :
    refTerm inp values mask weight (ix2 b h)
      = Cert.PoolSpec.pooled (wRow inp weight b) (mRow mask b) (fun l => values (ix3 b l h)) := by
  unfold refTerm
  show Ideal.hostReduceAdd reducesTo_S1024x200x128_S1024x128_d1
    (mulf (mulf (broadcastInDim S1024x200x128 ![0, 1, 2] bcast_S1024x200x1_S1024x200x128_0_1_2 (probs inp mask weight)) values)
      (broadcastInDim S1024x200x128 ![0, 1, 2] bcast_S1024x200x1_S1024x200x128_0_1_2 (maskCol mask)))
    (Ideal.ofBits .f32 0x00000000#32) (ix2 b h) = _
  rw [Ideal.hostReduceAdd_single _ red128, Ideal.ofBits_zero_f32, zero_add]
  -- one term of the sum, at a position of the literal type
  have term : ∀ l : Fin 200,
      mulf (mulf (broadcastInDim S1024x200x128 ![0, 1, 2] bcast_S1024x200x1_S1024x200x128_0_1_2 (probs inp mask weight)) values)
        (broadcastInDim S1024x200x128 ![0, 1, 2] bcast_S1024x200x1_S1024x200x128_0_1_2 (maskCol mask)) (red128.lift (ix2 b h) l)
      = Cert.PoolSpec.prob (wRow inp weight b) (mRow mask b) l * mRow mask b l * values (ix3 b l h) := by
    intro l
    rw [lift128]
    show broadcastInDim S1024x200x128 ![0, 1, 2] bcast_S1024x200x1_S1024x200x128_0_1_2 (probs inp mask weight) (ix3 b l h)
        * values (ix3 b l h)
        * broadcastInDim S1024x200x128 ![0, 1, 2] bcast_S1024x200x1_S1024x200x128_0_1_2 (maskCol mask) (ix3 b l h) = _
    rw [hid_apply, hid_apply, probs_apply inp mask weight hin,
      show maskCol mask (ix3 b l (0 : Fin 1)) = mask (ix2 b l) from col_apply mask b l 0]
    exact mul_right_comm _ _ _
  exact Finset.sum_congr rfl fun l _ => term l

end Row

/-- Where every index word is below the table's 100000 rows the reference computes the specification. -/
theorem refTerm_eq_G (inp : IVec S1024x200 32) (values : FVec Ideal S1024x200x128 .f32) (mask : FVec Ideal S1024x200 .f32)
    (weight : FVec Ideal S100000x1 .f32) (hin : ∀ j, (inp j).toNat < 100000) :
    refTerm inp values mask weight = Cert.PoolSpec.G inp values mask weight := by
  funext j
  obtain ⟨b, h, rfl⟩ : ∃ (b : Fin 1024) (h : Fin 128), j = ix2 b h := ⟨j 0, j 1, eq_ix2 j⟩
  exact refTerm_apply inp values mask weight hin b h

/-- The reference's run with its result named by the specification: from a memory whose index words are all below
    100000, every weakly fair execution terminates without a fault, the result buffer at `G` of the four argument
    arrays and the arguments unchanged. -/
theorem run_G (m : (ℓ : Loc nD τ sig) → Buf (Elt Ideal) ℓ) (g : Dev nD → PrngReg)
    (hin : ∀ c : Dev nD, ∀ j : S1024x200.Idx,
      ((m ((c.tc : Thread nD τ).loc main_arg0) : IVec S1024x200 32) j).toNat < 100000) :
    θ_run (defs (F := Ideal)) (onTc (τ := τ) (main (F := Ideal))) ⟨m, fun _ => 0, g⟩ (fun r => ∀ c : Dev nD,
      r.2.mem ((c.tc : Thread nD τ).loc main_v22)
        = Cert.PoolSpec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨(h c).1.trans (refTerm_eq_G _ _ _ _ (hin c)), (h c).2⟩)
    (RefRun.run m g)

end Cert.ReferenceIdeal.RefValue

end
-- ==== Proof.PreRange.lean ====
/-
  The index range the precondition grants, read back from its printed form.

  The precondition's last conjunct is `all ((inp ≥ 0) ∧ (inp ≤ 99999))` with both comparisons signed. An
  `all` is a reduction by `and` from the bit 1 into a single result; that result being 1 says every
  element of the reduced array is 1. An element of that array is the `and` of the two comparison bits of
  one index word, so the word read signed lies in [0, 99999]; a word that is non-negative read signed is the
  same number read unsigned, hence below 100000. The float instance plays no part: the float conjuncts are
  dropped unread.
-/
import proofs.«206738_g15788299780114_cont_7to1_105_28_alg».proof.Pre_input_domain
import Idealize.ShloMosaic.Lib.ReduceAll
import Idealize.ShloMosaic.Lib.ValueIdx

noncomputable section

namespace Cert.PreRange

open Idealize.ShloMosaic Idealize.ShloMosaic.ValueIdx

/-- The scalar shape has one index. -/
instance : Subsingleton Cert.Pre_input_domain.S_.Idx := ⟨fun _ _ => funext fun d => d.elim0⟩

/-- A word in [0, 99999] read signed is below 100000 read unsigned. -/
theorem toNat_lt_of_signed (w : BitVec 32) (h0 : IntOp.cmpi .sge w 0#32 = 1#1)
    (h1 : IntOp.cmpi .sle w 99999#32 = 1#1) : w.toNat < 100000 := by
  rw [IntOp.cmpi_sge, show (0#32 : BitVec 32).toInt = 0 from by decide] at h0
  rw [IntOp.cmpi_sle, show (99999#32 : BitVec 32).toInt = 99999 from by decide] at h1
  have h := BitVec.toInt_eq_toNat_cond w
  split at h <;> omega

/-- Under the precondition every index word, read unsigned, is below the table's 100000 rows. -/
theorem inp_lt {F : FTy → Type} [FloatOps F] [Cert.Pre_input_domain.Facts]
    (a0 : IVec Cert.Pre_input_domain.S1024x200 32) (a1 : FVec F Cert.Pre_input_domain.S1024x200x128 .f32)
    (a2 : FVec F Cert.Pre_input_domain.S1024x200 .f32) (a3 : FVec F Cert.Pre_input_domain.S100000x1 .f32)
    (h : Cert.Pre_input_domain.fn (F := F) a0 a1 a2 a3 = fun _ => 1#1) : ∀ j, (a0 j).toNat < 100000 := by
  intro j
  have e := congrFun h ix0
  unfold Cert.Pre_input_domain.fn Cert.Pre_input_domain.fn_part1 at e
  dsimp only at e
  -- the outer `and`: its second operand is the `all` over the index array
  have e2 := (IntOp.andi_eq_one.1 e).2
  -- every element of the reduced array is 1
  have e3 := Host.reduce_andi_all _ _ _ _ _ e2 j
  -- an element is the `and` of the two signed comparisons of one word
  obtain ⟨h0, h1⟩ := IntOp.andi_eq_one.1 e3
  exact toNat_lt_of_signed (a0 j) h0 h1

end Cert.PreRange

end
-- ==== Proof.lean ====
/-
  The certificate's proof: gathered scalar weights, a masked softmax over them, and the pooling of the values.

  Both programs compute, for a batch row and a hidden coordinate, the sum over the 200 positions of
  softmax(where(1 - m > 1/2, -∞, w))ₗ · mₗ · vₗ , with w the table's entries at the index words (Proof/Spec.lean).
  The kernel gathers w on the two SparseCores (Proof/ScSetup … ScMain: each of 32 tiles fills 32 rows; tile 0 of a
  core brings the table into the core's shared memory and hands its siblings read shares of it at the barrier) and
  pools on the TensorCore, 128 rows a grid point (Proof/PoolBody … PoolFinal); the reference is a chain of host
  operations (Proof/RefRun, RefValue). Both run to the end from any memory whose index words name rows of the table,
  which the precondition says (Proof/PreRange), leave their arguments unchanged, and end with the same result: the
  specification's function `G` of the four arguments, index by index. The kernel's idealization rewrote nothing, so
  there is nothing to preserve. The word-level program's frame is the same proof read at the other instance
  (Proof/KSc…, KPool…).
-/
import proofs.«206738_g15788299780114_cont_7to1_105_28_alg».proof.Defs
import proofs.«206738_g15788299780114_cont_7to1_105_28_alg».proof.Proof.Gen.Kernel
import proofs.«206738_g15788299780114_cont_7to1_105_28_alg».proof.Proof.Gen.KernelIdeal
import proofs.«206738_g15788299780114_cont_7to1_105_28_alg».proof.Proof.Gen.ReferenceIdeal
import proofs.«206738_g15788299780114_cont_7to1_105_28_alg».proof.Proof.Gen.Pre_input_domain
import proofs.«206738_g15788299780114_cont_7to1_105_28_alg».proof.Proof.ScMain
import proofs.«206738_g15788299780114_cont_7to1_105_28_alg».proof.Proof.KScMain
import proofs.«206738_g15788299780114_cont_7to1_105_28_alg».proof.Proof.PoolFinal
import proofs.«206738_g15788299780114_cont_7to1_105_28_alg».proof.Proof.GatBridge
import proofs.«206738_g15788299780114_cont_7to1_105_28_alg».proof.Proof.RefValue
import proofs.«206738_g15788299780114_cont_7to1_105_28_alg».proof.Proof.PreRange

noncomputable section

namespace Cert.Proof

open Idealize.ShloMosaic Idealize.SL.Sem

/-- Under the precondition every index word names a row of the table: at the ideal instance, -/
theorem preOK_ideal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdeal.Sc.PreOK m :=
  fun d j => Cert.PreRange.inp_lt (F := Ideal) _ _ _ _ (h d) j
/-- and at the word-level one. -/
theorem preOK_bits (m : (ℓ : Loc Cert.Kernel.nD Cert.Kernel.τ Cert.Kernel.sig) → Buf (Elt Bits) ℓ)
    (h : Cert.Pre_Kernel (hPre_input_domain := Cert.Pre_input_domain.Gen.facts) m) : Cert.Kernel.Sc.PreOK m :=
  fun d j => Cert.PreRange.inp_lt (F := Bits) _ _ _ _ (h d) j

theorem frame_p : Cert.frame_Kernel (hKernel := Cert.Kernel.Gen.facts) (hPre_input_domain := Cert.Pre_input_domain.Gen.facts) :=
  fun m g hpre => (θ_run Cert.Kernel.defs _ _).mono (fun _ h c => (h c).2) (Cert.Kernel.Sc.run_main (F := Bits) m g (preOK_bits m hpre))

theorem frame_pi : Cert.frame_KernelIdeal (hKernelIdeal := Cert.KernelIdeal.Gen.facts) (hPre_input_domain := Cert.Pre_input_domain.Gen.facts) :=
  fun m g hpre => (θ_run Cert.KernelIdeal.defs _ _).mono (fun _ h c => (h c).2) (Cert.KernelIdeal.Sc.run_main (F := Ideal) m g (preOK_ideal m hpre))

theorem frame_ri : Cert.frame_ReferenceIdeal (hReferenceIdeal := Cert.ReferenceIdeal.Gen.facts) (hPre_input_domain := Cert.Pre_input_domain.Gen.facts) :=
  fun m g _ => (θ_run Cert.ReferenceIdeal.defs _ _).mono (fun _ h c => (h c).2) (Cert.ReferenceIdeal.RefRun.run m g)

/-- The value the kernel's run leaves in its result array is the specification's function of its arguments: the eight
    write-backs make the pooling of the arrays the region found, and the array of weights it found is the gathered one. -/
theorem outVal_eq (m : (ℓ : Loc Cert.KernelIdeal.nD Cert.KernelIdeal.τ Cert.KernelIdeal.sig) → Buf (Elt Ideal) ℓ) (c : Dev Cert.KernelIdeal.nD) :
    Cert.KernelIdeal.Sc.outVal (F := Ideal) m c
      = Cert.PoolSpec.G (m (Cert.KernelIdeal.Sc.idxLoc c)) (m (Cert.KernelIdeal.Sc.a1Loc c)) (m (Cert.KernelIdeal.Sc.a2Loc c)) (m (Cert.KernelIdeal.Sc.wgtLoc c)) := by
  unfold Cert.KernelIdeal.Sc.outVal
  rw [Cert.KernelIdeal.PoolFinal.final]
  show Cert.PoolSpec.pool (Cert.KernelIdeal.Sc.Vr m c Cert.KernelIdeal.main_v1) (Cert.KernelIdeal.Sc.Vr m c Cert.KernelIdeal.main_arg2)
    (Cert.KernelIdeal.Sc.Vr m c Cert.KernelIdeal.main_arg1) = _
  rw [Cert.KernelIdeal.Sc.Vr_v1, Cert.KernelIdeal.Sc.Vr_a2, Cert.KernelIdeal.Sc.Vr_a1, Cert.KernelIdeal.Sc.gat_eq_gathered]
  rfl

/-- From memories agreeing on the arguments both idealized programs run to the end, the arguments unchanged, and end
    with the specification's function of the arguments in their result arrays. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.PoolSpec.G (m (Cert.KernelIdeal.Sc.idxLoc c)) (m (Cert.KernelIdeal.Sc.a1Loc c)) (m (Cert.KernelIdeal.Sc.a2Loc c)) (m (Cert.KernelIdeal.Sc.wgtLoc c)), ?_, ?_⟩
  · exact (θ_run Cert.KernelIdeal.defs _ _).mono (fun r h c => ⟨(h c).1.trans (outVal_eq m c), (h c).2⟩)
      (Cert.KernelIdeal.Sc.run_main (F := Ideal) m g (preOK_ideal m hpre))
  · have hin' : ∀ c : Dev Cert.ReferenceIdeal.nD, ∀ j : Cert.ReferenceIdeal.S1024x200.Idx,
        ((m' ((c.tc : Thread Cert.ReferenceIdeal.nD Cert.ReferenceIdeal.τ).loc Cert.ReferenceIdeal.main_arg0) : IVec Cert.ReferenceIdeal.S1024x200 32) j).toNat < 100000 :=
      fun c j => by rw [(hagree c).1]; exact preOK_ideal m hpre c j
    refine (θ_run Cert.ReferenceIdeal.defs _ _).mono (fun r h c => ⟨?_, (h c).2⟩) (Cert.ReferenceIdeal.RefValue.run_G m' g' hin')
    rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_input_domain.Gen.facts,
  frame_p, frame_pi, frame_ri, trivial, algebraic⟩

end Cert.Proof

end
